-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S2000x128 .f32 .bf16
  ∧ IdealRules.truncf_extf.Statement Cert.KernelIdeal.S2000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S500000x128 : Shape := ⟨2, ![500000, 128]⟩
abbrev S512x3 : Shape := ⟨2, ![512, 3]⟩
abbrev S512x128 : Shape := ⟨2, ![512, 128]⟩
abbrev S512 : Shape := ⟨1, ![512]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S512x3 : S_.BroadcastsInDim S512x3 (![] : Fin 0 → Fin S512x3.rank)
  reducesTo_S512x3_S_d0_1 : S512x3.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x128 .f32) (main_arg5 : FVec F S512 .f32) (main_arg6 : FVec F S512 .f32) (main_v13 : IVec S_ 1) (main_v16 : IVec S512x3 1) : IVec S_ 1 :=
  let main_c_5 : IVec S_ 1 := constantI S_ 1 1#1
  let main_v17 : IVec S_ 1 := (fun x v => Host.reduce IntOp.andi x v reducesTo_S512x3_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S500000x3 .f32) (main_arg1 : FVec F S500000x128 .f32) (main_arg2 : FVec F S500000x128 .f32) (main_arg3 : FVec F S512x3 .f32) (main_arg4 : FVec F S512x128 .f32) (main_arg5 : FVec F S512 .f32) (main_arg6 : FVec F S512 .f32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x128 .f32 := Host.absf main_arg2
  let main_cst_2 : FVec F S_ .f32 := constant S_ .f32 0x7F800000#32
  let main_v10 : FVec F S500000x128 .f32 := broadcastInDim S500000x128 ![] bcast_S_S500000x128 main_cst_2
  let main_v11 : IVec S500000x128 1 := cmpf .olt main_v9 main_v10
  let main_c_3 : IVec S_ 1 := constantI S_ 1 1#1
  let main_v12 : IVec S_ 1 := (fun x v => Host.reduce IntOp.andi x v reducesTo_S500000x128_S_d0_1 h_S_) main_v11 main_c_3
  let main_v13 : IVec S_ 1 := andi main_v8 main_v12
  let main_v14 : FVec F S512x3 .f32 := Host.absf main_arg3
  let main_cst_4 : FVec F S_ .f32 := constant S_ .f32 0x7F800000#32
  let main_v15 : FVec F S512x3 .f32 := broadcastInDim S512x3 ![] bcast_S_S512x3 main_cst_4
  let main_v16 : IVec S512x3 1 := cmpf .olt main_v14 main_v15
  fn_part1 (F := F) main_arg4 main_arg5 main_arg6 main_v13 main_v16
-- ==== Kernel.lean ====
abbrev S500000x3 : Shape := ⟨2, ![500000, 3]⟩
abbrev S500000x128 : Shape := ⟨2, ![500000, 128]⟩
abbrev S512x3 : Shape := ⟨2, ![512, 3]⟩
abbrev S512x128 : Shape := ⟨2, ![512, 128]⟩
abbrev S512 : Shape := ⟨1, ![512]⟩
abbrev S1x512 : Shape := ⟨2, ![1, 512]⟩
abbrev S500000x1 : Shape := ⟨2, ![500000, 1]⟩
abbrev S2x1024x128 : Shape := ⟨3, ![2, 1024, 128]⟩
abbrev S2000x3 : Shape := ⟨2, ![2000, 3]⟩
abbrev S2000x128 : Shape := ⟨2, ![2000, 128]⟩
abbrev S2000x1 : Shape := ⟨2, ![2000, 1]⟩
abbrev S1x1024x128 : Shape := ⟨3, ![1, 1024, 128]⟩
abbrev S1024x128 : Shape := ⟨2, ![1024, 128]⟩
abbrev S128x512 : Shape := ⟨2, ![128, 512]⟩
abbrev S2000x512 : Shape := ⟨2, ![2000, 512]⟩
abbrev S3x512 : Shape := ⟨2, ![3, 512]⟩
abbrev S2000x1024 : Shape := ⟨2, ![2000, 1024]⟩
abbrev S_ : Shape := ⟨0, ![]⟩
abbrev S5000x1 : Shape := ⟨2, ![5000, 1]⟩
abbrev S5000x128 : Shape := ⟨2, ![5000, 128]⟩
abbrev S5000x1024 : Shape := ⟨2, ![5000, 1024]⟩

abbrev nBuf : Space → Nat
  | .hbm => 23
  | .vmem => 23
  | .smem => 0
  | _ => 0

abbrev bufTy : (tb : Table) → Fin (tcTables nBuf tb) → BufTy
  | .hbm, ⟨0, _⟩ => ⟨S500000x3, .f32⟩
  | .hbm, ⟨1, _⟩ => ⟨S500000x128, .f32⟩
  | .hbm, ⟨2, _⟩ => ⟨S500000x128, .f32⟩
  | .hbm, ⟨3, _⟩ => ⟨S512x3, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S512x128, .bf16⟩
  | .hbm, ⟨10, _⟩ => ⟨S512x128, .f32⟩
  | .hbm, ⟨11, _⟩ => ⟨S512x128, .f32⟩
  | .hbm, ⟨12, _⟩ => ⟨S512x128, .bf16⟩
  | .hbm, ⟨13, _⟩ => ⟨S500000x128, .f32⟩
  | .hbm, ⟨14, _⟩ => ⟨S500000x1, .i32⟩
  | .hbm, ⟨15, _⟩ => ⟨S2x1024x128, .f32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S500000x128, .f32⟩
  | .local _ .vmem, ⟨0, _⟩ => ⟨S2000x3, .f32⟩
  | .local _ .vmem, ⟨1, _⟩ => ⟨S2000x3, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S512x3, .f32⟩
  | .local _ .vmem, ⟨7, _⟩ => ⟨S512x128, .bf16⟩
  | .local _ .vmem, ⟨8, _⟩ => ⟨S512x128, .bf16⟩
  | .local _ .vmem, ⟨9, _⟩ => ⟨S1x512, .f32⟩
  | .local _ .vmem, ⟨10, _⟩ => ⟨S1x512, .f32⟩
  | .local _ .vmem, ⟨11, _⟩ => ⟨S2000x128, .f32⟩
  | .local _ .vmem, ⟨12, _⟩ => ⟨S2000x128, .f32⟩
  | .local _ .vmem, ⟨13, _⟩ => ⟨S2000x1, .i32⟩
  | .local _ .vmem, ⟨14, _⟩ => ⟨S2000x1, .i32⟩
  | .local _ .vmem, ⟨15, _⟩ => ⟨S1x1024x128, .f32⟩
  | .local _ .vmem, ⟨16, _⟩ => ⟨S1x1024x128, .f32⟩
  | .local _ .vmem, ⟨17, _⟩ => ⟨S5000x1, .i32⟩
  | .local _ .vmem, ⟨18, _⟩ => ⟨S5000x1, .i32⟩
  | .local _ .vmem, ⟨19, _⟩ => ⟨S1024x128, .bf16⟩
  | .local _ .vmem, ⟨20, _⟩ => ⟨S1024x128, .bf16⟩
  | .local _ .vmem, ⟨21, _⟩ => ⟨S5000x128, .f32⟩
  | .local _ .vmem, ⟨22, _⟩ => ⟨S5000x128, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg3_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨2, ![2, 125], ![false, false]⟩

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2000x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S512_S1x512 : S512.ShapeCasts S1x512
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  inb_S2000x3_S2000x3_0_0 : ∀ a, (![0, 0] : Fin 2 → Nat) a + S2000x3.size a ≤ S2000x3.size a
  h_S2000x3 : 0 < S2000x3.numel
  inb_S2000x128_S2000x128_0_0 : ∀ a, (![0, 0] : Fin 2 → Nat) a + S2000x128.size a ≤ S2000x128.size a
  h_S2000x128 : 0 < S2000x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  inb_S512x3_S512x3_0_0 : ∀ a, (![0, 0] : Fin 2 → Nat) a + S512x3.size a ≤ S512x3.size a
  h_S512x3 : 0 < S512x3.numel
  transposes_S512x3_p1_0_S3x512 : S512x3.Transposes [1, 0] S3x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S2000x512_o0_0_S2000x128 : S2000x512.Slices ![0, 0] S2000x128
  slices_S2000x512_o0_128_S2000x128 : S2000x512.Slices ![0, 128] S2000x128
  slices_S2000x512_o0_256_S2000x128 : S2000x512.Slices ![0, 256] S2000x128
  slices_S2000x512_o0_384_S2000x128 : S2000x512.Slices ![0, 384] S2000x128
  slices_S2000x3_o0_0_S2000x1 : S2000x3.Slices ![0, 0] S2000x1
  slices_S2000x3_o0_1_S2000x1 : S2000x3.Slices ![0, 1] S2000x1
  inb_S2000x1_S2000x1_0_0 : ∀ a, (![0, 0] : Fin 2 → Nat) a + S2000x1.size a ≤ S2000x1.size a
  h_S2000x1 : 0 < S2000x1.numel
  iota_S2000x1024_d1_w32 : S2000x1024.Iotas .tc 32 [1]
  broadcasts_S2000x1_S2000x1024 : S2000x1.Broadcasts S2000x1024
  natLt_1_32 : 1 < 32
  reducesTo_S2x1024x128_S1024x128_d0 : S2x1024x128.ReducesTo [0] S1024x128
  h_S_ : 0 < S_.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x1024_d1_w32 : S5000x1024.Iotas .tc 32 [1]
  broadcasts_S5000x1_S5000x1024 : S5000x1.Broadcasts S5000x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S5000x128_S5000x128_0_0 : ∀ a, (![0, 0] : Fin 2 → Nat) a + S5000x128.size a ≤ S5000x128.size a
  h_S5000x128 : 0 < S5000x128.numel
  dot_S2000x128_S128x512_S2000x512_1_0_0_1_n_n_wf : DotDims.WF S2000x128 S128x512 S2000x512 [1] [0] [0] [1] [] []
  dot_S2000x3_S3x512_S2000x512_1_0_0_1_n_n_wf : DotDims.WF S2000x3 S3x512 S2000x512 [1] [0] [0] [1] [] []
  dot_S2000x1024_S2000x128_S1024x128_0_0_1_1_n_n_wf : DotDims.WF S2000x1024 S2000x128 S1024x128 [0] [0] [1] [1] [] []
  dot_S5000x1024_S1024x128_S5000x128_1_0_0_1_n_n_wf : DotDims.WF S5000x1024 S1024x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S500000x3.size a
  hwx0_0 : ∀ i : grid0.Coords, EltTy.bits .f32 = 32 ∨ (Rect.block (s := S500000x3) S2000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S500000x128.size a
  hwx0_1 : ∀ i : grid0.Coords, EltTy.bits .f32 = 32 ∨ (Rect.block (s := S500000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S500000x128.size a
  hwx0_2 : ∀ i : grid0.Coords, EltTy.bits .f32 = 32 ∨ (Rect.block (s := S500000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x3.size a ≤ S512x3.size a
  hwx0_3 : ∀ i : grid0.Coords, EltTy.bits .f32 = 32 ∨ (Rect.block (s := S512x3) S512x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .bf16 = 32 ∨ (Rect.block (s := S512x128) S512x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .bf16 = 32 ∨ (Rect.block (s := S512x128) S512x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S500000x128.size a
  hwx0_8 : ∀ i : grid0.Coords, EltTy.bits .f32 = 32 ∨ (Rect.block (s := S500000x128) S2000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x1.size a ≤ S500000x1.size a
  hwx0_9 : ∀ i : grid0.Coords, EltTy.bits .i32 = 32 ∨ (Rect.block (s := S500000x1) S2000x1.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x128.size a ≤ S2x1024x128.size a
  hwx0_10 : ∀ i : grid0.Coords, EltTy.bits .f32 = 32 ∨ (Rect.block (s := S2x1024x128) S1x1024x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x1.size a ≤ S500000x1.size a
  hwx1_0 : ∀ i : grid1.Coords, EltTy.bits .i32 = 32 ∨ (Rect.block (s := S500000x1) S5000x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .bf16 = 32 ∨ (Rect.block (s := S1024x128) S1024x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S1024x128.size a
  hwx1_2 : ∀ i : grid1.Coords, EltTy.bits .bf16 = 32 ∨ (Rect.block (s := S1024x128) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S500000x128.size a
  hwx1_3 : ∀ i : grid1.Coords, EltTy.bits .f32 = 32 ∨ (Rect.block (s := S500000x128) S5000x128.size (cc1_transform_3 i) (hinb1_3 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x3_S3x512_S2000x512_1_0_0_1_n_n : DotDims S2000x3 S3x512 S2000x512 where
  lhsContracting := [1]
  rhsContracting := [0]
  lhsNonContracting := [0]
  rhsNonContracting := [1]
  lhsBatch := []
  rhsBatch := []
  wf := dot_S2000x3_S3x512_S2000x512_1_0_0_1_n_n_wf
def dot_S2000x1024_S2000x128_S1024x128_0_0_1_1_n_n : DotDims S2000x1024 S2000x128 S1024x128 where
  lhsContracting := [0]
  rhsContracting := [0]
  lhsNonContracting := [1]
  rhsNonContracting := [1]
  lhsBatch := []
  rhsBatch := []
  wf := dot_S2000x1024_S2000x128_S1024x128_0_0_1_1_n_n_wf
def dot_S5000x1024_S1024x128_S5000x128_1_0_0_1_n_n : DotDims S5000x1024 S1024x128 S5000x128 where
  lhsContracting := [1]
  rhsContracting := [0]
  lhsNonContracting := [0]
  rhsNonContracting := [1]
  lhsBatch := []
  rhsBatch := []
  wf := dot_S5000x1024_S1024x128_S5000x128_1_0_0_1_n_n_wf

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S2000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S2000x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_2) S1x1024x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v6_1) S5000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S500000x3 : Shape := ⟨2, ![500000, 3]⟩
abbrev S500000x128 : Shape := ⟨2, ![500000, 128]⟩
abbrev S512x3 : Shape := ⟨2, ![512, 3]⟩
abbrev S512x128 : Shape := ⟨2, ![512, 128]⟩
abbrev S512 : Shape := ⟨1, ![512]⟩
abbrev S3x512 : Shape := ⟨2, ![3, 512]⟩
abbrev S500000x512 : Shape := ⟨2, ![500000, 512]⟩
abbrev S1x512 : Shape := ⟨2, ![1, 512]⟩
abbrev S128x512 : Shape := ⟨2, ![128, 512]⟩
abbrev S_ : Shape := ⟨0, ![]⟩
abbrev S500000x1 : Shape := ⟨2, ![500000, 1]⟩
abbrev S500000 : Shape := ⟨1, ![500000]⟩
abbrev S1024x128 : Shape := ⟨2, ![1024, 128]⟩

abbrev nBuf : Space → Nat
  | .hbm => 121
  | .vmem => 0
  | .smem => 0
  | _ => 0

abbrev bufTy : (tb : Table) → Fin (tcTables nBuf tb) → BufTy
  | .hbm, ⟨0, _⟩ => ⟨S500000x3, .f32⟩
  | .hbm, ⟨1, _⟩ => ⟨S500000x128, .f32⟩
  | .hbm, ⟨2, _⟩ => ⟨S500000x128, .f32⟩
  | .hbm, ⟨3, _⟩ => ⟨S512x3, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S3x512, .f32⟩
  | .hbm, ⟨8, _⟩ => ⟨S500000x512, .f32⟩
  | .hbm, ⟨9, _⟩ => ⟨S1x512, .f32⟩
  | .hbm, ⟨10, _⟩ => ⟨S500000x512, .f32⟩
  | .hbm, ⟨11, _⟩ => ⟨S500000x512, .f32⟩
  | .hbm, ⟨12, _⟩ => ⟨S128x512, .f32⟩
  | .hbm, ⟨13, _⟩ => ⟨S500000x512, .f32⟩
  | .hbm, ⟨14, _⟩ => ⟨S500000x512, .f32⟩
  | .hbm, ⟨15, _⟩ => ⟨S1x512, .f32⟩
  | .hbm, ⟨16, _⟩ => ⟨S500000x512, .f32⟩
  | .hbm, ⟨17, _⟩ => ⟨S500000x512, .f32⟩
  | .hbm, ⟨18, _⟩ => ⟨S500000x128, .f32⟩
  | .hbm, ⟨19, _⟩ => ⟨S500000x128, .f32⟩
  | .hbm, ⟨20, _⟩ => ⟨S500000x128, .f32⟩
  | .hbm, ⟨21, _⟩ => ⟨S500000x128, .f32⟩
  | .hbm, ⟨22, _⟩ => ⟨S500000x128, .f32⟩
  | .hbm, ⟨23, _⟩ => ⟨S500000x128, .f32⟩
  | .hbm, ⟨24, _⟩ => ⟨S_, .f32⟩
  | .hbm, ⟨25, _⟩ => ⟨S500000x128, .f32⟩
  | .hbm, ⟨26, _⟩ => ⟨S500000x128, .f32⟩
  | .hbm, ⟨27, _⟩ => ⟨S_, .f32⟩
  | .hbm, ⟨28, _⟩ => ⟨S500000x128, .f32⟩
  | .hbm, ⟨29, _⟩ => ⟨S500000x128, .f32⟩
  | .hbm, ⟨30, _⟩ => ⟨S500000x128, .f32⟩
  | .hbm, ⟨31, _⟩ => ⟨S500000x128, .f32⟩
  | .hbm, ⟨32, _⟩ => ⟨S500000x128, .f32⟩
  | .hbm, ⟨33, _⟩ => ⟨S_, .f32⟩
  | .hbm, ⟨34, _⟩ => ⟨S500000x128, .f32⟩
  | .hbm, ⟨35, _⟩ => ⟨S500000x128, .f32⟩
  | .hbm, ⟨36, _⟩ => ⟨S_, .f32⟩
  | .hbm, ⟨37, _⟩ => ⟨S500000x128, .f32⟩
  | .hbm, ⟨38, _⟩ => ⟨S500000x128, .f32⟩
  | .hbm, ⟨39, _⟩ => ⟨S500000x128, .f32⟩
  | .hbm, ⟨40, _⟩ => ⟨S500000x128, .f32⟩
  | .hbm, ⟨41, _⟩ => ⟨S500000x128, .f32⟩
  | .hbm, ⟨42, _⟩ => ⟨S500000x128, .f32⟩
  | .hbm, ⟨43, _⟩ => ⟨S500000x128, .f32⟩
  | .hbm, ⟨44, _⟩ => ⟨S_, .f32⟩
  | .hbm, ⟨45, _⟩ => ⟨S500000x128, .f32⟩
  | .hbm, ⟨46, _⟩ => ⟨S500000x128, .f32⟩
  | .hbm, ⟨47, _⟩ => ⟨S_, .f32⟩
  | .hbm, ⟨48, _⟩ => ⟨S500000x128, .f32⟩
  | .hbm, ⟨49, _⟩ => ⟨S500000x128, .f32⟩
  | .hbm, ⟨50, _⟩ => ⟨S500000x128, .f32⟩
  | .hbm, ⟨51, _⟩ => ⟨S500000x128, .f32⟩
  | .hbm, ⟨52, _⟩ => ⟨S500000x1, .f32⟩
  | .hbm, ⟨53, _⟩ => ⟨S500000, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S500000, .f32⟩
  | .hbm, ⟨58, _⟩ => ⟨S500000, .f32⟩
  | .hbm, ⟨59, _⟩ => ⟨S_, .f32⟩
  | .hbm, ⟨60, _⟩ => ⟨S500000, .f32⟩
  | .hbm, ⟨61, _⟩ => ⟨S500000, .f32⟩
  | .hbm, ⟨62, _⟩ => ⟨S500000x1, .f32⟩
  | .hbm, ⟨63, _⟩ => ⟨S500000, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S500000, .f32⟩
  | .hbm, ⟨68, _⟩ => ⟨S500000, .f32⟩
  | .hbm, ⟨69, _⟩ => ⟨S_, .f32⟩
  | .hbm, ⟨70, _⟩ => ⟨S500000, .f32⟩
  | .hbm, ⟨71, _⟩ => ⟨S500000, .f32⟩
  | .hbm, ⟨72, _⟩ => ⟨S_, .f32⟩
  | .hbm, ⟨73, _⟩ => ⟨S500000, .f32⟩
  | .hbm, ⟨74, _⟩ => ⟨S500000, .f32⟩
  | .hbm, ⟨75, _⟩ => ⟨S_, .f32⟩
  | .hbm, ⟨76, _⟩ => ⟨S500000, .f32⟩
  | .hbm, ⟨77, _⟩ => ⟨S500000, .f32⟩
  | .hbm, ⟨78, _⟩ => ⟨S500000, .f32⟩
  | .hbm, ⟨79, _⟩ => ⟨S500000, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S500000, .i32⟩
  | .hbm, ⟨84, _⟩ => ⟨S500000, .i32⟩
  | .hbm, ⟨85, _⟩ => ⟨S_, .i32⟩
  | .hbm, ⟨86, _⟩ => ⟨S500000, .i32⟩
  | .hbm, ⟨87, _⟩ => ⟨S500000, .i32⟩
  | .hbm, ⟨88, _⟩ => ⟨S_, .f32⟩
  | .hbm, ⟨89, _⟩ => ⟨S500000, .f32⟩
  | .hbm, ⟨90, _⟩ => ⟨S500000, .f32⟩
  | .hbm, ⟨91, _⟩ => ⟨S_, .f32⟩
  | .hbm, ⟨92, _⟩ => ⟨S500000, .f32⟩
  | .hbm, ⟨93, _⟩ => ⟨S500000, .f32⟩
  | .hbm, ⟨94, _⟩ => ⟨S500000, .f32⟩
  | .hbm, ⟨95, _⟩ => ⟨S500000, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S500000, .i32⟩
  | .hbm, ⟨100, _⟩ => ⟨S500000, .i32⟩
  | .hbm, ⟨101, _⟩ => ⟨S_, .i32⟩
  | .hbm, ⟨102, _⟩ => ⟨S500000, .i32⟩
  | .hbm, ⟨103, _⟩ => ⟨S500000, .i32⟩
  | .hbm, ⟨104, _⟩ => ⟨S_, .i32⟩
  | .hbm, ⟨105, _⟩ => ⟨S500000, .i32⟩
  | .hbm, ⟨106, _⟩ => ⟨S500000, .i32⟩
  | .hbm, ⟨107, _⟩ => ⟨S500000, .i32⟩
  | .hbm, ⟨108, _⟩ => ⟨S_, .f32⟩
  | .hbm, ⟨109, _⟩ => ⟨S1024x128, .f32⟩
  | .hbm, ⟨110, _⟩ => ⟨S500000x1, .i32⟩
  | .hbm, ⟨111, _⟩ => ⟨S1024x128, .f32⟩
  | .hbm, ⟨112, _⟩ => ⟨S_, .i32⟩
  | .hbm, ⟨113, _⟩ => ⟨S500000, .i32⟩
  | .hbm, ⟨114, _⟩ => ⟨S500000, .i1⟩
  | .hbm, ⟨115, _⟩ => ⟨S_, .i32⟩
  | .hbm, ⟨116, _⟩ => ⟨S500000, .i32⟩
  | .hbm, ⟨117, _⟩ => ⟨S500000, .i32⟩
  | .hbm, ⟨118, _⟩ => ⟨S500000, .i32⟩
  | .hbm, ⟨119, _⟩ => ⟨S500000x1, .i32⟩
  | .hbm, ⟨120, _⟩ => ⟨S500000x128, .f32⟩
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_cst_6 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_cst_8 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c : Ref sig .tc := ⟨.hbm, 80, rfl⟩
abbrev main_c_11 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_v51 : Ref sig .tc := ⟨.hbm, 87, rfl⟩
abbrev main_cst_12 : Ref sig .tc := ⟨.hbm, 88, rfl⟩
abbrev main_v52 : Ref sig .tc := ⟨.hbm, 89, rfl⟩
abbrev main_v53 : Ref sig .tc := ⟨.hbm, 90, rfl⟩
abbrev main_cst_13 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_c_14 : Ref sig .tc := ⟨.hbm, 96, rfl⟩
abbrev main_c_15 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_v58 : Ref sig .tc := ⟨.hbm, 103, rfl⟩
abbrev main_c_16 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_17 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_c_18 : Ref sig .tc := ⟨.hbm, 112, rfl⟩
abbrev main_v65 : Ref sig .tc := ⟨.hbm, 113, rfl⟩
abbrev main_v66 : Ref sig .tc := ⟨.hbm, 114, rfl⟩
abbrev main_c_19 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩

abbrev nD : Nat := 1
abbrev τ : Topo := Topo.v7x

variable {F : FTy → Type} [FloatOps F]

class Facts₀ : Prop where
  transposes_S512x3_S3x512_1_0 : S512x3.Transposes [1, 0] S3x512
  bcast_S512_S1x512_1 : S512.BroadcastsInDim S1x512 (![1] : Fin 1 → Fin S1x512.rank)
  bcast_S1x512_S500000x512_0_1 : S1x512.BroadcastsInDim S500000x512 (![0, 1] : Fin 2 → Fin S500000x512.rank)
  transposes_S512x128_S128x512_1_0 : S512x128.Transposes [1, 0] S128x512
  slices_S500000x512_S500000x128_0_0 : S500000x512.Slices ![0, 0] S500000x128
  slices_S500000x512_S500000x128_0_128 : S500000x512.Slices ![0, 128] S500000x128
  slices_S500000x512_S500000x128_0_256 : S500000x512.Slices ![0, 256] S500000x128
  slices_S500000x512_S500000x128_0_384 : S500000x512.Slices ![0, 384] S500000x128
  bcast_S_S500000x128 : S_.BroadcastsInDim S500000x128 (![] : Fin 0 → Fin S500000x128.rank)
  slices_S500000x3_S500000x1_0_0 : S500000x3.Slices ![0, 0] S500000x1
  shapeCasts_S500000x1_S500000 : S500000x1.ShapeCasts S500000
  bcast_S_S500000 : S_.BroadcastsInDim S500000 (![] : Fin 0 → Fin S500000.rank)
  slices_S500000x3_S500000x1_0_1 : S500000x3.Slices ![0, 1] S500000x1
  bcast_S_S1024x128 : S_.BroadcastsInDim S1024x128 (![] : Fin 0 → Fin S1024x128.rank)
  bcast_S500000_S500000x1_0 : S500000.BroadcastsInDim S500000x1 (![0] : Fin 1 → Fin S500000x1.rank)
  dot_S500000x3_S3x512_S500000x512_1_0_0_1_n_n_wf : DotDims.WF S500000x3 S3x512 S500000x512 [1] [0] [0] [1] [] []
  dot_S500000x128_S128x512_S500000x512_1_0_0_1_n_n_wf : DotDims.WF S500000x128 S128x512 S500000x512 [1] [0] [0] [1] [] []
  scatter_S1024x128_S500000x1_S500000x128_1_0_0_1_wf : ScatterDims.WF S1024x128 S500000x1 S500000x128 [1] [0] [0] 1
  gather_S1024x128_S500000x1_S500000x128_1_0_n_n_0_1_1128_wf : GatherDims.WF S1024x128 S500000x1 S500000x128 [1] [0] [] [0] [] 1 ![1, 128]

variable [Facts₀]

def dot_S500000x3_S3x512_S500000x512_1_0_0_1_n_n : DotDims S500000x3 S3x512 S500000x512 where
  lhsContracting := [1]
  rhsContracting := [0]
  lhsNonContracting := [0]
  rhsNonContracting := [1]
  lhsBatch := []
  rhsBatch := []
  wf := dot_S500000x3_S3x512_S500000x512_1_0_0_1_n_n_wf
def dot_S500000x128_S128x512_S500000x512_1_0_0_1_n_n : DotDims S500000x128 S128x512 S500000x512 where
  lhsContracting := [1]
  rhsContracting := [0]
  lhsNonContracting := [0]
  rhsNonContracting := [1]
  lhsBatch := []
  rhsBatch := []
  wf := dot_S500000x128_S128x512_S500000x512_1_0_0_1_n_n_wf
def scatter_S1024x128_S500000x1_S500000x128_1_0_0_1 : ScatterDims S1024x128 S500000x1 S500000x128 where
  updateWindowDims := [1]
  insertedWindowDims := [0]
  scatterDimsToOperandDims := [0]
  indexVectorDim := 1
  wf := scatter_S1024x128_S500000x1_S500000x128_1_0_0_1_wf
def gather_S1024x128_S500000x1_S500000x128_1_0_n_n_0_1_1128 : GatherDims S1024x128 S500000x1 S500000x128 where
  offsetDims := [1]
  collapsedSliceDims := [0]
  operandBatchingDims := []
  startIndicesBatchingDims := []
  startIndexMap := [0]
  indexVectorDim := 1
  sliceSizes := ![1, 128]
  wf := gather_S1024x128_S500000x1_S500000x128_1_0_n_n_0_1_1128_wf

class Facts : Prop extends Facts₀ where

variable [Facts]
-- ==== Proof.Spec.lean ====
/-
  The function both programs compute, over the extended reals, as whole-array functions of the seven argument arrays
  (coordinates x0 : [500000,3], hidden state x1 and cell state x2 : [500000,128], input weights x3 : [512,3],
  recurrent weights x4 : [512,128], the two biases x5 x6 : [512]).

  One LSTM cell step per row r: the four gate pre-activations are the columns n = 0..511 of
  x0·x3ᵀ + x5 + x1·x4ᵀ + x6, cut into four groups of 128 (input, forget, candidate, output);
  c' = σ(f)·c + σ(i)·tanh(g), h' = σ(o)·tanh(c'), with σ(x) = 1 / (1 + e^(-x)).
  Then every row is put in one of 32·32 = 1024 square cells of side 1/4 of the window [-4,4]² by its first two
  coordinates (clamped to the window, bucket = floor((x+4)/(1/4)) clamped to 0..31), the h' of the rows of one cell are
  added up, and each row receives its cell's total.
-/
import Idealize.ShloMosaic.PureOps.Ideal
import Idealize.ShloMosaic.Lib.ValueIdx

noncomputable section

open scoped BigOperators

namespace Cert.Spec

open Idealize.ShloMosaic Idealize.ShloMosaic.ValueIdx

/-- The literal shapes (the programs' own are these literals too). -/
abbrev SNx3 : Shape := ⟨2, ![500000, 3]⟩
abbrev SNxH : Shape := ⟨2, ![500000, 128]⟩
abbrev SGx3 : Shape := ⟨2, ![512, 3]⟩
abbrev SGxH : Shape := ⟨2, ![512, 128]⟩
abbrev SG : Shape := ⟨1, ![512]⟩
abbrev SCxH : Shape := ⟨2, ![1024, 128]⟩

/-- The float literals that occur: -4, 4, 1/4, 1, 0 (as the words both programs carry). -/
abbrev lo4 : EReal := Ideal.ofBits .f32 0xC0800000#32
abbrev hi4 : EReal := Ideal.ofBits .f32 0x40800000#32
abbrev quarter : EReal := Ideal.ofBits .f32 0x3E800000#32
abbrev one : EReal := Ideal.ofBits .f32 0x3F800000#32
abbrev zero : EReal := Ideal.ofBits .f32 0x00000000#32

/-- The bucket 0..31 of one coordinate: clamp to [-4,4], shift, divide by the side, floor, to an integer, clamp. -/
def bucket (x : EReal) : BitVec 32 :=
  IntOp.minsi 31#32 (IntOp.maxsi 0#32 (Ideal.fptosi 32 (Ideal.liftRound Int.floor (Ideal.div (min hi4 (max lo4 x) - lo4) quarter))))

/-- The flat cell number of a point with first two coordinates `x`, `y`, as the 32-bit word both programs compute:
    32 · bucket(x) + bucket(y). -/
def cellWordOf (x y : EReal) : BitVec 32 := IntOp.addi (IntOp.muli (bucket x) 32#32) (bucket y)

/-- The flat cell number of row `r`. -/
def cellWord (x0 : SNx3.Idx → EReal) (r : Fin 500000) : BitVec 32 :=
  cellWordOf (x0 (ix2 r (0 : Fin 3))) (x0 (ix2 r (1 : Fin 3)))

/-- The indicator "cell number `c` is the word `w`", as the extended real 1 or 0 (a one-hot row's entry). -/
def onehot (w : BitVec 32) (c : Fin 1024) : EReal := if BitVec.ofNat 32 c.val = w then 1 else 0

theorem bucket_bounds (x : EReal) : 0 ≤ (bucket x).toInt ∧ (bucket x).toInt ≤ 31 := by
  unfold bucket IntOp.minsi IntOp.maxsi
  generalize Ideal.fptosi 32 _ = b
  simp only [BitVec.slt]
  split_ifs with h1 h2 h2 <;> simp only [decide_eq_true_eq, not_lt] at * <;>
    first
      | (constructor <;> decide)
      | (have e0 : (0#32 : BitVec 32).toInt = 0 := by decide
         have e31 : (31#32 : BitVec 32).toInt = 31 := by decide
         constructor <;> omega)

theorem bucket_toNat (x : EReal) : (bucket x).toNat ≤ 31 := by
  have h := bucket_bounds x
  have := BitVec.toInt_eq_toNat_cond (bucket x)
  have hlt := (bucket x).isLt
  split_ifs at this <;> omega

/-- The cell word is a number below 1024. -/
theorem cellWordOf_lt (x y : EReal) : (cellWordOf x y).toNat < 1024 := by
  unfold cellWordOf IntOp.addi IntOp.muli
  have h0 := bucket_toNat x
  have h1 := bucket_toNat y
  rw [BitVec.toNat_add, BitVec.toNat_mul]
  have : (32#32 : BitVec 32).toNat = 32 := by decide
  rw [this]
  omega

theorem cellWord_lt (x0 : SNx3.Idx → EReal) (r : Fin 500000) : (cellWord x0 r).toNat < 1024 :=
  cellWordOf_lt _ _

/-- The cell of row `r`, as an index 0..1023. -/
def cell (x0 : SNx3.Idx → EReal) (r : Fin 500000) : Fin 1024 := ⟨(cellWord x0 r).toNat, cellWord_lt x0 r⟩

/-- The logistic function as the reference spells it: 1 / (1 + e^(-x)). -/
def sig (x : EReal) : EReal := Ideal.div one (one + Ideal.exp (-x))

variable (x0 : SNx3.Idx → EReal) (x1 x2 : SNxH.Idx → EReal) (x3 : SGx3.Idx → EReal) (x4 : SGxH.Idx → EReal)
  (x5 x6 : SG.Idx → EReal)

/-- Gate pre-activation `n` of row `r`, in the reference's order of addition. -/
def gate (r : Fin 500000) (n : Fin 512) : EReal :=
  (∑ k : Fin 3, x0 (ix2 r k) * x3 (ix2 n k)) + x5 (ix1 n) + (∑ k : Fin 128, x1 (ix2 r k) * x4 (ix2 n k)) + x6 (ix1 n)

/-- Column `j` of gate group `g` (0 input, 1 forget, 2 candidate, 3 output). -/
abbrev gcol (g : Fin 4) (j : Fin 128) : Fin 512 := ⟨128 * g.val + j.val, by have := g.isLt; have := j.isLt; omega⟩

/-- The new cell state. -/
def cnew (r : Fin 500000) (j : Fin 128) : EReal :=
  sig (gate x0 x1 x3 x4 x5 x6 r (gcol 1 j)) * x2 (ix2 r j)
    + sig (gate x0 x1 x3 x4 x5 x6 r (gcol 0 j)) * Ideal.tanh (gate x0 x1 x3 x4 x5 x6 r (gcol 2 j))

/-- The new hidden state. -/
def hnew (r : Fin 500000) (j : Fin 128) : EReal :=
  sig (gate x0 x1 x3 x4 x5 x6 r (gcol 3 j)) * Ideal.tanh (cnew x0 x1 x2 x3 x4 x5 x6 r j)

/-- The total of the new hidden states over the rows of cell `c` (from the literal zero). -/
def pooled (c : Fin 1024) (j : Fin 128) : EReal :=
  zero + ∑ r ∈ Finset.univ.filter (fun r : Fin 500000 => cell x0 r = c), hnew x0 x1 x2 x3 x4 x5 x6 r j

/-- First result: every row's cell total. -/
def social : SNxH.Idx → EReal := fun i => pooled x0 x1 x2 x3 x4 x5 x6 (cell x0 (i 0)) (i 1)

/-- Second result: the new cell state. -/
def cstate : SNxH.Idx → EReal := fun i => cnew x0 x1 x2 x3 x4 x5 x6 (i 0) (i 1)

end Cert.Spec

end
-- ==== Proof.KernelRun.lean ====
/-
  The idealized kernel's run with its two result arrays named: after the two regions and the host operations between
  them, the first result holds what region 1 wrote back and the second what region 0 wrote back (as the fold of the
  buffer contents through the program's four segments states them), and the seven argument arrays are unchanged.
-/
import proofs.«118881_j33947421507802_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final state each unscoped
    buffer holds the last segment boundary's contents: in particular the two results, and the arguments as launched. -/
theorem run_out : θ_run defs (onTc (τ := τ) (main (F := F))) ⟨m, fun _ => 0, ρ⟩ (fun r => ∀ c : Dev nD,
      r.2.mem ((c.tc : Thread nD τ).loc main_v12) = W4 m ρ c (Proc.devRef .tc main_v12)
      ∧ r.2.mem ((c.tc : Thread nD τ).loc main_v6_0) = W4 m ρ c (Proc.devRef .tc main_v6_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v12 (by decide)), h c _ (mem_uc main_v6_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.KRun

end
-- ==== Proof.KernelFold.lean ====
/-
  The buffer contents at the program's segment boundaries, read at the buffers that matter: the two results after the
  last region, and what each region finds in its input arrays at entry (arguments, host-prepared operands, or the
  arrays the region before wrote back).
-/
import proofs.«118881_j33947421507802_2_alg».proof.Proof.Gen.KernelIdeal.Frame
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

/-- The first result is the array region 1 wrote back. -/
theorem res_social (c : Dev nD) :
    W4 m ρ c (Proc.devRef .tc main_v12) = (dat1 (V3 m ρ) c).arrAt 3 cfg1.N := W4_arr m ρ c 3

/-- The second result is the array region 0 wrote back through its window 8: nothing after region 0 writes it. -/
theorem res_cstate (c : Dev nD) :
    W4 m ρ c (Proc.devRef .tc main_v6_0) = (dat0 (V1 m ρ) c).arrAt 8 cfg0.N :=
  calc W4 m ρ c (Proc.devRef .tc main_v6_0)
    _ = W3 m ρ c (Proc.devRef .tc main_v6_0) := W4_of_ne m ρ c main_v6_0 (by decide)
    _ = W2 m ρ c (Proc.devRef .tc main_v6_0) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 8 cfg0.N := W2_arr m ρ c 8

/-- Region 1's first input array is the cell-number array region 0 wrote back through its window 9. -/
theorem ent1_ids (c : Dev nD) :
    V3 m ρ c (Pipeline.arrRef spec1 0) = (dat0 (V1 m ρ) c).arrAt 9 cfg0.N :=
  calc W3 m ρ c (Proc.devRef .tc main_v6_1)
    _ = W2 m ρ c (Proc.devRef .tc main_v6_1) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 9 cfg0.N := W2_arr m ρ c 9

/-- Region 1's second input array: the host's sum over the two cores of the table region 0 wrote back through its
    window 10 (then a change of float format). -/
theorem ent1_hi (c : Dev nD) :
    V3 m ρ c (Pipeline.arrRef spec1 1) = truncf .bf16 (Host.reduceAdd ((dat0 (V1 m ρ) c).arrAt 10 cfg0.N) (constant S_ .f32 0x00000000#32) reducesTo_S2x1024x128_S1024x128_d0 h_S_) bitsLt_bf16_f32 := by
  show StableHlo.after hostOps1 (W2 m ρ c) (Proc.devRef .tc main_v8) = _
  after_results
  rw [show W2 m ρ c (Proc.tc.devRef main_v6_2) = _ from W2_arr m ρ c 10]

/-- Region 1's third input array: the same sum minus itself passed through the narrower format and back. -/
theorem ent1_lo (c : Dev nD) :
    V3 m ρ c (Pipeline.arrRef spec1 2) = truncf .bf16 (subf (Host.reduceAdd ((dat0 (V1 m ρ) c).arrAt 10 cfg0.N) (constant S_ .f32 0x00000000#32) reducesTo_S2x1024x128_S1024x128_d0 h_S_) (extf .f32 (truncf .bf16 (Host.reduceAdd ((dat0 (V1 m ρ) c).arrAt 10 cfg0.N) (constant S_ .f32 0x00000000#32) reducesTo_S2x1024x128_S1024x128_d0 h_S_) bitsLt_bf16_f32) bitsLt_bf16_f32)) bitsLt_bf16_f32 := by
  show StableHlo.after hostOps1 (W2 m ρ c) (Proc.devRef .tc main_v11) = _
  after_results
  rw [show W2 m ρ c (Proc.tc.devRef main_v6_2) = _ from W2_arr m ρ c 10]

/-- Region 0's inputs 0..3 are the arguments as launched. -/
theorem ent0_coords (c : Dev nD) : V1 m ρ c (Pipeline.arrRef spec0 0) = m ((c : Thread nD τ).loc main_arg0) :=
  StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem ent0_hidden (c : Dev nD) : V1 m ρ c (Pipeline.arrRef spec0 1) = m ((c : Thread nD τ).loc main_arg1) :=
  StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem ent0_cell (c : Dev nD) : V1 m ρ c (Pipeline.arrRef spec0 2) = m ((c : Thread nD τ).loc main_arg2) :=
  StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem ent0_wih (c : Dev nD) : V1 m ρ c (Pipeline.arrRef spec0 3) = m ((c : Thread nD τ).loc main_arg3) :=
  StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Region 0's input 4: the recurrent weights in the narrower format. -/
theorem ent0_whi (c : Dev nD) :
    V1 m ρ c (Pipeline.arrRef spec0 4) = truncf .bf16 (m ((c : Thread nD τ).loc main_arg4)) bitsLt_bf16_f32 := by
  show StableHlo.after hostOps0 (W0 m ρ c) (Proc.devRef .tc main_v2) = _
  after_results

/-- Region 0's input 5: the recurrent weights minus themselves passed through the narrower format and back. -/
theorem ent0_wlo (c : Dev nD) :
    V1 m ρ c (Pipeline.arrRef spec0 5) = truncf .bf16 (subf (m ((c : Thread nD τ).loc main_arg4)) (extf .f32 (truncf .bf16 (m ((c : Thread nD τ).loc main_arg4)) bitsLt_bf16_f32) bitsLt_bf16_f32)) bitsLt_bf16_f32 := by
  show StableHlo.after hostOps0 (W0 m ρ c) (Proc.devRef .tc main_v5) = _
  after_results

/-- Region 0's inputs 6 and 7: the two bias vectors as one-row matrices. -/
theorem ent0_bih (c : Dev nD) :
    V1 m ρ c (Pipeline.arrRef spec0 6) = shapeCast S1x512 (m ((c : Thread nD τ).loc main_arg5)) shapeCasts_S512_S1x512 := by
  show StableHlo.after hostOps0 (W0 m ρ c) (Proc.devRef .tc main_v0) = _
  after_results
  rfl
theorem ent0_bhh (c : Dev nD) :
    V1 m ρ c (Pipeline.arrRef spec0 7) = shapeCast S1x512 (m ((c : Thread nD τ).loc main_arg6)) shapeCasts_S512_S1x512 := by
  show StableHlo.after hostOps0 (W0 m ρ c) (Proc.devRef .tc main_v1) = _
  after_results
  rfl

end Cert.KernelIdeal.Fold

end
-- ==== Proof.KernelGlue.lean ====
/-
  Three small readings, over the extended reals, of the host operations that sit between the program's two regions
  and before the first: the sum of the two per-core tables, a bias vector laid out as a one-row matrix, and a value
  minus its own copy through the narrower float format.
-/
import proofs.«118881_j33947421507802_2_alg».proof.KernelIdeal
import proofs.«118881_j33947421507802_2_alg».proof.Proof.Spec
import Idealize.ShloMosaic.PureOps.Ideal.Laws
import Idealize.ShloMosaic.Lib.ValueIdx
import Idealize.ShloMosaic.Lib.ValueLayout

noncomputable section

open scoped BigOperators

namespace Cert.KernelIdeal.Glue

open Cert.KernelIdeal Idealize.ShloMosaic Idealize.ShloMosaic.ValueIdx

/-- The host's sum over the core axis of a [2,1024,128] table, from the zero literal: entry (c, j) is the literal plus
    the two cores' entries. -/
theorem reduce_cores (h' : S2x1024x128.ReducesTo [0] S1024x128) (hS : 0 < S_.numel) (x : S2x1024x128.Idx → EReal)
    (c : Fin 1024) (j : Fin 128) :
    Host.reduceAdd (F := Ideal) (φ := .f32) x (constant (F := Ideal) S_ .f32 0x00000000#32) h' hS (ix2 c j)
      = Cert.Spec.zero + ∑ core : Fin 2, x (ix3 core c j) := by
  have hR : S2x1024x128.Reduces [0] S1024x128 := by decide
  unfold Host.reduceAdd
  rw [Ideal.hostReduceAdd_def, Ideal.hostReduceAdd_single h' hR]
  refine congrArg₂ (· + ·) rfl (Finset.sum_congr rfl fun k _ => congrArg x (funext fun a => Fin.ext ?_))
  match a with
  | ⟨0, _⟩ => rfl
  | ⟨1, _⟩ => rfl
  | ⟨2, _⟩ => rfl

/-- A [512] vector laid out as [1,512] reads at (0, n) the vector at n. -/
theorem bias_row (h : S512.ShapeCasts S1x512) (x : S512.Idx → EReal) (n : Fin 512) :
    shapeCast S1x512 x h (ix2 (0 : Fin 1) n) = x (ix1 n) :=
  shapeCast_a_1a_apply x h 0 n

/-- The pooled table as region 1 receives it (the sum passed through the narrower float format) at (c, j). -/
theorem table_hi (h' : S2x1024x128.ReducesTo [0] S1024x128) (hS : 0 < S_.numel) (hb : FTy.bf16.bits < FTy.f32.bits)
    (x : S2x1024x128.Idx → EReal) (c : Fin 1024) (j : Fin 128) :
    (truncf (F := Ideal) .bf16 (Host.reduceAdd (F := Ideal) (φ := .f32) x (constant (F := Ideal) S_ .f32 0x00000000#32) h' hS) hb
        : S1024x128.Idx → EReal) (ix2 c j)
      = Cert.Spec.zero + ∑ core : Fin 2, x (ix3 core c j) :=
  reduce_cores h' hS x c j

/-- The correction table region 1 receives — the sum minus its own copy through the narrower format — at (c, j). -/
theorem table_lo (h' : S2x1024x128.ReducesTo [0] S1024x128) (hS : 0 < S_.numel) (hb : FTy.bf16.bits < FTy.f32.bits)
    (x : S2x1024x128.Idx → EReal) (c : Fin 1024) (j : Fin 128) :
    (truncf (F := Ideal) .bf16 (subf (Host.reduceAdd (F := Ideal) (φ := .f32) x (constant (F := Ideal) S_ .f32 0x00000000#32) h' hS)
        (extf .f32 (truncf (F := Ideal) .bf16 (Host.reduceAdd (F := Ideal) (φ := .f32) x (constant (F := Ideal) S_ .f32 0x00000000#32) h' hS) hb) hb)) hb
        : S1024x128.Idx → EReal) (ix2 c j)
      = (Cert.Spec.zero + ∑ core : Fin 2, x (ix3 core c j)) - (Cert.Spec.zero + ∑ core : Fin 2, x (ix3 core c j)) := by
  show Host.reduceAdd (F := Ideal) (φ := .f32) x (constant (F := Ideal) S_ .f32 0x00000000#32) h' hS (ix2 c j)
      - Host.reduceAdd (F := Ideal) (φ := .f32) x (constant (F := Ideal) S_ .f32 0x00000000#32) h' hS (ix2 c j) = _
  rw [reduce_cores]

end Cert.KernelIdeal.Glue

end
-- ==== Proof.Region1.lean ====
/-
  The gather region as a whole-array function. The region visits 100 blocks of 5000 rows; at block t it reads rows
  5000·t … 5000·t + 4999 of the cell-number column and the two whole [1024,128] tables, and writes rows
  5000·t … 5000·t + 4999 of the result. Row r of the result is therefore row r mod 5000 of what block r / 5000 computes
  from its three input blocks; the 100 blocks tile the 500000 rows, so the result array ends holding exactly that.
-/
import proofs.«118881_j33947421507802_2_alg».proof.Proof.Gen.KernelIdeal.Frame
import Idealize.ShloMosaic.Lib.Pipeline.Value
import Idealize.ShloMosaic.Lib.ValueIdx

set_option maxRecDepth 16384

noncomputable section

namespace Cert.KernelIdeal.R1

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The index maps over the grid: block t of the cell-number column and of the result is block row t; the two tables'
    one block is the whole table. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block that holds row r, and r's row inside it. -/
def tOf (r : Fin 500000) : Fin cfg1.N := ⟨r.val / 5000, by rw [show cfg1.N = 100 from N_1]; have := r.isLt; omega⟩
def pOf (r : Fin 500000) : Fin 5000 := ⟨r.val % 5000, Nat.mod_lt _ (by decide)⟩

theorem tOf_val (r : Fin 500000) : (tOf r).val = r.val / 5000 := rfl
theorem pOf_val (r : Fin 500000) : (pOf r).val = r.val % 5000 := rfl

/-- What the result array ends holding: at row r, column j, entry (r mod 5000, j) of what the body computes from the
    input blocks of point r / 5000. -/
def G (c : Dev nD) : S500000x128.Idx → Elt F .f32 := fun i =>
  k1_pay1 (iblk1 V c 0 (tOf (i 0))) (iblk1 V c 1 (tOf (i 0))) (iblk1 V c 2 (tOf (i 0))) (ix2 (pOf (i 0)) (i 1))

/-- `G` at an index of block t, by the index's coordinates inside the block. -/
theorem G_at (c : Dev nD) (t : Fin cfg1.N) (i : S500000x128.Idx) (j : S5000x128.Idx)
    (h0 : (i 0).val = t.val * 5000 + (j 0).val) (h1 : (i 1).val = (j 1).val) :
    G V c i = k1_pay1 (iblk1 V c 0 t) (iblk1 V c 1 t) (iblk1 V c 2 t) j := by
  have hj0 : (j 0).val < 5000 := idx2_lt0 j
  have ht : tOf (i 0) = t := Fin.ext (by show (i 0).val / 5000 = t.val; omega)
  have hp : pOf (i 0) = j 0 := Fin.ext (by show (i 0).val % 5000 = (j 0).val; omega)
  have hj : i 1 = j 1 := Fin.ext h1
  show k1_pay1 (iblk1 V c 0 (tOf (i 0))) (iblk1 V c 1 (tOf (i 0))) (iblk1 V c 2 (tOf (i 0))) (ix2 (pOf (i 0)) (i 1)) = _
  rw [ht, hp, hj]
  exact congrArg _ (eq_ix2 j).symm

/-- WHAT POINT t WRITES BACK is block t of `G`. -/
theorem flushed_eq (c : Dev nD) (t : Fin cfg1.N) :
    (dat1 V c).flushed 3 t = ((cfg1.win 3).blk t).view.read (Elt F) (G V c) := by
  show (cfg1.win 3).cut (grid1.coords t) ((dat1 V c).after 3 t) = _
  rw [after1_3]
  unfold out1_3
  rw [View.canon_unit_zero hz]
  simp only [View.ld_unit_zero (S := S5000x1) hz, View.ld_unit_zero (S := S1024x128) hz]
  obtain ⟨-, -, -, -, -, -, e0, e1⟩ := idx_facts t
  funext j
  show k1_pay1 (iblk1 V c 0 t) (iblk1 V c 1 t) (iblk1 V c 2 t) j = G V c (((cfg1.win 3).blk t).view.emb j)
  refine (G_at V c t _ j ?_ ?_).symm
  · show win1_3.index t (0 : Fin 2) * 5000 + 1 * (j 0).val = t.val * 5000 + (j 0).val
    rw [e0]; omega
  · show win1_3.index t (1 : Fin 2) * 128 + 1 * (j 1).val = (j 1).val
    rw [e1]; omega

/-- An index of the result is in point t's block iff each coordinate is in the block's range on its axis. -/
theorem mem_blk (t : Fin cfg1.N) (i : S500000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v12).slice (win1_3.rect t)).set ↔ _
  rw [View.set_slice_whole, Rect.mem_set_unit]
  exact Iff.rfl

/-- Every row is in the block of point r / 5000, which writes back. -/
theorem cover (i : S500000x128.Idx) :
    ∃ t : Fin cfg1.N, (cfg1.win 3).flush t = true ∧ i ∈ ((cfg1.win 3).blk t).view.set := by
  refine ⟨tOf (i 0), flush1_3 _, ?_⟩
  rw [mem_blk]
  obtain ⟨-, -, -, -, -, -, e0, e1⟩ := idx_facts (tOf (i 0))
  have hi0 : (i 0).val < 500000 := idx2_lt0 i
  have hi1 : (i 1).val < 128 := idx2_lt1 i
  have ht : (tOf (i 0)).val = (i 0).val / 5000 := rfl
  intro a
  match a with
  | ⟨0, _⟩ =>
    show win1_3.index (tOf (i 0)) (0 : Fin 2) * 5000 ≤ (i 0).val ∧ (i 0).val < win1_3.index (tOf (i 0)) (0 : Fin 2) * 5000 + 5000
    rw [e0, ht]; omega
  | ⟨1, _⟩ =>
    show win1_3.index (tOf (i 0)) (1 : Fin 2) * 128 ≤ (i 1).val ∧ (i 1).val < win1_3.index (tOf (i 0)) (1 : Fin 2) * 128 + 128
    rw [e1]; omega

/-- THE RESULT ARRAY after the region is `G`. -/
theorem arr3 (c : Dev nD) : (dat1 V c).arrAt 3 cfg1.N = G V c :=
  (dat1 V c).arrAt_eq_of_cover 3 (G V c) (fun t _ => flushed_eq V c t) cover

/-! ## The input blocks as parts of the arrays the region finds at entry -/

/-- The cell-number block of point t is rows 5000·t … 5000·t + 4999 of the cell-number column. -/
theorem iblk0_apply (c : Dev nD) (t : Fin cfg1.N) (x : S5000x1.Idx) (k : S500000x1.Idx)
    (hk0 : (k 0).val = t.val * 5000 + (x 0).val) (hk1 : (k 1).val = (x 1).val) :
    (iblk1 V c 0 t : Vec F S5000x1 .i32) x = (V c (Pipeline.arrRef spec1 0) : S500000x1.Idx → Elt F .i32) k := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 1 + 1 * (x 1).val = (k 1).val; rw [e1, hk1]; omega

/-- Row 5000·t + p is a row of the column. -/
theorem row_lt (t : Fin cfg1.N) (p : Fin 5000) : t.val * 5000 + p.val < 500000 := by
  have h := t.isLt
  have hN : cfg1.N = 100 := N_1
  have hp := p.isLt
  omega

/-- Entry p of the cell-number block of point t is entry 5000·t + p of the column. -/
theorem iblk0_row (c : Dev nD) (t : Fin cfg1.N) (p : Fin 5000) :
    (iblk1 V c 0 t : Vec F S5000x1 .i32) (ix2 p (0 : Fin 1))
      = (V c (Pipeline.arrRef spec1 0) : S500000x1.Idx → Elt F .i32) (ix2 (⟨t.val * 5000 + p.val, row_lt t p⟩ : Fin 500000) (0 : Fin 1)) :=
  iblk0_apply V c t _ _ rfl rfl

/-- The first table's block at every point is the whole table. -/
theorem iblk1_eq (c : Dev nD) (t : Fin cfg1.N) :
    (iblk1 V c 1 t : Vec F S1024x128 .bf16) = (V c (Pipeline.arrRef spec1 1) : S1024x128.Idx → Elt F .bf16) := by
  obtain ⟨-, -, e0, e1, -⟩ := idx_facts t
  funext y
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1024 + 1 * (y 0).val = (y 0).val; rw [e0]; omega
  | ⟨1, _⟩ => show win1_1.index t (1 : Fin 2) * 128 + 1 * (y 1).val = (y 1).val; rw [e1]; omega

/-- The second table's block at every point is the whole table. -/
theorem iblk2_eq (c : Dev nD) (t : Fin cfg1.N) :
    (iblk1 V c 2 t : Vec F S1024x128 .bf16) = (V c (Pipeline.arrRef spec1 2) : S1024x128.Idx → Elt F .bf16) := by
  obtain ⟨-, -, -, -, e0, e1, -⟩ := idx_facts t
  funext y
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1024 + 1 * (y 0).val = (y 0).val; rw [e0]; omega
  | ⟨1, _⟩ => show win1_2.index t (1 : Fin 2) * 128 + 1 * (y 1).val = (y 1).val; rw [e1]; omega

/-- Entry (a, b) of each table's block is entry (a, b) of the table. -/
theorem iblk1_apply (c : Dev nD) (t : Fin cfg1.N) (a : Fin 1024) (b : Fin 128) :
    (iblk1 V c 1 t : Vec F S1024x128 .bf16) (ix2 a b) = (V c (Pipeline.arrRef spec1 1) : S1024x128.Idx → Elt F .bf16) (ix2 a b) :=
  congrFun (iblk1_eq V c t) _
theorem iblk2_apply (c : Dev nD) (t : Fin cfg1.N) (a : Fin 1024) (b : Fin 128) :
    (iblk1 V c 2 t : Vec F S1024x128 .bf16) (ix2 a b) = (V c (Pipeline.arrRef spec1 2) : S1024x128.Idx → Elt F .bf16) (ix2 a b) :=
  congrFun (iblk2_eq V c t) _

/-- The arrays the four windows are over. -/
theorem arrRef_0 : Pipeline.arrRef spec1 0 = main_v6_1 := rfl
theorem arrRef_1 : Pipeline.arrRef spec1 1 = main_v8 := rfl
theorem arrRef_2 : Pipeline.arrRef spec1 2 = main_v11 := rfl
theorem arrRef_3 : Pipeline.arrRef spec1 3 = main_v12 := rfl

/-- `G` with the blocks opened: at row r, column j, the body's payload of the cell-number block of point r / 5000 and
    the two whole tables, at (r mod 5000, j). -/
theorem G_apply (c : Dev nD) (r : Fin 500000) (j : Fin 128) :
    G V c (ix2 r j) = k1_pay1 (iblk1 V c 0 (tOf r)) (V c (Pipeline.arrRef spec1 1) : S1024x128.Idx → Elt F .bf16)
      (V c (Pipeline.arrRef spec1 2) : S1024x128.Idx → Elt F .bf16) (ix2 (pOf r) j) := by
  show k1_pay1 (iblk1 V c 0 (tOf r)) (iblk1 V c 1 (tOf r)) (iblk1 V c 2 (tOf r)) (ix2 (pOf r) j) = _
  rw [iblk1_eq, iblk2_eq]

end Cert.KernelIdeal.R1

end
-- ==== Proof.Payloads.lean ====
import proofs.«118881_j33947421507802_2_alg».proof.Proof.Gen.KernelIdeal.Skeleton
import proofs.«118881_j33947421507802_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! The payload functions of the two regions read at an index, at the extended reals: the gate slices and the
    LSTM cell step of a block of rows, the cell word of a row, the one-hot accumulation into the per-core table,
    and the one-hot read-back of region 1. -/

theorem pay5_apply (v3 : Vec Ideal S2000x3 .f32) (v4 : Vec Ideal S2000x128 .f32) (v10 v12 : Vec Ideal S512x128 .bf16)
    (v22 : Vec Ideal S512x3 .f32) (v26 v30 : Vec Ideal S1x512 .f32) (p : Fin 2000) (j : Fin 128) :
    k0_pay5 v3 v4 v10 v12 v22 v26 v30 (ix2 p j) = k0_pay4 v3 v4 v10 v12 v22 v26 v30 (ix2 p (Cert.Spec.gcol 0 j)) := by
  unfold k0_pay5
  exact slice2_axis1_apply 0 _ _ p j _ (by show 128 * 0 + j.val = 0 + j.val; omega)

theorem pay6_apply (v5 : Vec Ideal S2000x128 .f32) (v33 : FVec Ideal S2000x512 .f32) (v34 : FVec Ideal S2000x128 .f32)
    (p : Fin 2000) (j : Fin 128) :
    k0_pay6 v5 v33 v34 (ix2 p j)
      = Ideal.logistic (v33 (ix2 p (Cert.Spec.gcol 1 j))) * v5 (ix2 p j)
        + Ideal.logistic (v34 (ix2 p j)) * Ideal.tanh (v33 (ix2 p (Cert.Spec.gcol 2 j))) := by
  unfold k0_pay6
  show Ideal.logistic (extractStridedSlice S2000x128 ![0, 128] v33 slices_S2000x512_o0_128_S2000x128 (ix2 p j)) * v5 (ix2 p j)
      + Ideal.logistic (v34 (ix2 p j)) * Ideal.tanh (extractStridedSlice S2000x128 ![0, 256] v33 slices_S2000x512_o0_256_S2000x128 (ix2 p j)) = _
  rw [slice2_axis1_apply 128 v33 _ p j (Cert.Spec.gcol 1 j) (by show 128 * 1 + j.val = 128 + j.val; omega),
    slice2_axis1_apply 256 v33 _ p j (Cert.Spec.gcol 2 j) (by show 128 * 2 + j.val = 256 + j.val; omega)]

theorem pay7_apply (v5 : Vec Ideal S2000x128 .f32) (v33 : FVec Ideal S2000x512 .f32) (v34 : FVec Ideal S2000x128 .f32)
    (p : Fin 2000) (j : Fin 128) :
    k0_pay7 v5 v33 v34 (ix2 p j)
      = Ideal.logistic (v33 (ix2 p (Cert.Spec.gcol 3 j))) * Ideal.tanh (k0_pay6 v5 v33 v34 (ix2 p j)) := by
  unfold k0_pay7
  show Ideal.logistic (extractStridedSlice S2000x128 ![0, 384] v33 slices_S2000x512_o0_384_S2000x128 (ix2 p j))
      * Ideal.tanh (k0_pay6 v5 v33 v34 (ix2 p j)) = _
  rw [slice2_axis1_apply 384 v33 _ p j (Cert.Spec.gcol 3 j) (by show 128 * 3 + j.val = 384 + j.val; omega)]

theorem pay8_apply (v3 : Vec Ideal S2000x3 .f32) (p : Fin 2000) :
    k0_pay8 v3 (ix2 p (0 : Fin 1)) = Cert.Spec.bucket (v3 (ix2 p 0)) := by
  unfold k0_pay8 Cert.Spec.bucket
  show IntOp.minsi 31#32 (IntOp.maxsi 0#32 (Ideal.fptosi 32 (Ideal.liftRound Int.floor (Ideal.div
      (min Cert.Spec.hi4 (max Cert.Spec.lo4 (extractStridedSlice S2000x1 ![0, 0] v3 slices_S2000x3_o0_0_S2000x1 (ix2 p (0 : Fin 1)))) - Cert.Spec.lo4) Cert.Spec.quarter)))) = _
  rw [slice2_axis1_apply 0 v3 _ p (0 : Fin 1) (0 : Fin 3) rfl]

theorem pay9_apply (v3 : Vec Ideal S2000x3 .f32) (p : Fin 2000) :
    k0_pay9 v3 (ix2 p (0 : Fin 1)) = Cert.Spec.bucket (v3 (ix2 p 1)) := by
  unfold k0_pay9 Cert.Spec.bucket
  show IntOp.minsi 31#32 (IntOp.maxsi 0#32 (Ideal.fptosi 32 (Ideal.liftRound Int.floor (Ideal.div
      (min Cert.Spec.hi4 (max Cert.Spec.lo4 (extractStridedSlice S2000x1 ![0, 1] v3 slices_S2000x3_o0_1_S2000x1 (ix2 p (0 : Fin 1)))) - Cert.Spec.lo4) Cert.Spec.quarter)))) = _
  rw [slice2_axis1_apply 1 v3 _ p (0 : Fin 1) (1 : Fin 3) rfl]

theorem cellWord_apply (v3 : Vec Ideal S2000x3 .f32) (p : Fin 2000) :
    k0_pay1 (k0_pay8 v3) (k0_pay9 v3) k0_pay10 (ix2 p (0 : Fin 1)) = Cert.Spec.cellWordOf (v3 (ix2 p 0)) (v3 (ix2 p 1)) := by
  unfold k0_pay1 Cert.Spec.cellWordOf
  show IntOp.addi (IntOp.muli (k0_pay8 v3 (ix2 p (0 : Fin 1))) 32#32) (k0_pay9 v3 (ix2 p (0 : Fin 1))) = _
  rw [pay8_apply, pay9_apply]

section Layout
variable {α : Type}

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- "Word `a` is word `w`", widened to 32 bits and converted to a float, is the real 1 or 0. -/
theorem onehot_word (a w : BitVec 32) :
    (FloatOps.sitofp (F := Ideal) .f32 ((IntOp.cmpi .eq a w).setWidth 32) : EReal) = if a = w then 1 else 0 := by
  show ((((IntOp.cmpi .eq a w).setWidth 32).toInt : ℝ) : EReal) = _
  unfold IntOp.cmpi
  by_cases h : a = w
  · subst h
    simp
  · have hb : (a == w) = false := by simpa using h
    simp [hb, h]

abbrev dG := dot_S5000x1024_S1024x128_S5000x128_1_0_0_1_n_n

theorem dG_lhs0 (i : S5000x128.Idx) (q : dG.contr.Idx) : (dG.lhsIdx i q 0).val = (i 0).val := by
  unfold DotDims.lhsIdx
  rw [dif_neg (show ¬(0 : Fin S5000x1024.rank) ∈ dG.lhsBatch by decide), dif_pos (show (0 : Fin S5000x1024.rank) ∈ dG.lhsNonContracting by decide)]
  rfl
theorem dG_lhs1 (i : S5000x128.Idx) (q : dG.contr.Idx) : (dG.lhsIdx i q 1).val = (q ⟨0, by decide⟩).val :=
  dG.lhsIdx_val_of_single rfl i q
theorem dG_rhs0 (i : S5000x128.Idx) (q : dG.contr.Idx) : (dG.rhsIdx i q 0).val = (q ⟨0, by decide⟩).val :=
  dG.rhsIdx_val_of_single rfl i q
theorem dG_rhs1 (i : S5000x128.Idx) (q : dG.contr.Idx) : (dG.rhsIdx i q 1).val = (i 1).val := by
  unfold DotDims.rhsIdx
  rw [dif_neg (show ¬(1 : Fin S1024x128.rank) ∈ dG.rhsBatch by decide), dif_pos (show (1 : Fin S1024x128.rank) ∈ dG.rhsNonContracting by decide)]
  rfl

/-- The [5000,1024] by [1024,128] product into the zero table, at `(p, j)`: the sum over the 1024 cells. -/
theorem dG_apply {φ₁ φ₂ : FTy} (L : FVec Ideal S5000x1024 φ₁) (R : FVec Ideal S1024x128 φ₂) (p : Fin 5000) (j : Fin 128) :
    FloatOps.matmul dG none L R (constant (F := Ideal) S5000x128 .f32 0x00000000#32) (ix2 p j)
      = ∑ c : Fin 1024, L (ix2 p c) * R (ix2 c j) := by
  rw [Ideal.matmul_constant_zero_apply, ← Equiv.sum_comp (contrEquiv1 dG 1024 rfl rfl).symm]
  refine Finset.sum_congr rfl fun k _ => ?_
  have hk := contrEquiv1_symm_val dG 1024 rfl rfl k
  have el : dG.lhsIdx (ix2 p j) ((contrEquiv1 dG 1024 rfl rfl).symm k) = ix2 p k := funext fun a => Fin.ext (by
    match a with
    | ⟨0, _⟩ => exact dG_lhs0 _ _
    | ⟨1, _⟩ => exact (dG_lhs1 _ _).trans hk)
  have er : dG.rhsIdx (ix2 p j) ((contrEquiv1 dG 1024 rfl rfl).symm k) = ix2 k j := funext fun a => Fin.ext (by
    match a with
    | ⟨0, _⟩ => exact (dG_rhs0 _ _).trans hk
    | ⟨1, _⟩ => exact dG_rhs1 _ _)
  rw [el, er]

/-- Row `p` of the one-hot matrix of region 1, at cell `c`: whether cell `c` is row `p`'s word. -/
theorem ohG_apply (w : IVec S5000x1 32) (p : Fin 5000) (c : Fin 1024) :
    (truncf .bf16 (sitofp (F := Ideal) .f32 (extui 32 (cmpi .eq (iota .tc S5000x1024 32 [1] iota_S5000x1024_d1_w32)
        (broadcastTo S5000x1024 w broadcasts_S5000x1_S5000x1024)) natLt_1_32)) bitsLt_bf16_f32 : FVec Ideal S5000x1024 .bf16) (ix2 p c)
      = Cert.Spec.onehot (w (ix2 p 0)) c := by
  show FloatOps.sitofp (F := Ideal) .f32 ((IntOp.cmpi .eq (iota .tc S5000x1024 32 [1] iota_S5000x1024_d1_w32 (ix2 p c))
      (broadcastTo S5000x1024 w broadcasts_S5000x1_S5000x1024 (ix2 p c))).setWidth 32) = _
  rw [iota_single_apply, broadcastTo_a1_ab_apply, onehot_word]
  rfl

theorem pay1_region1 (v0 : Vec Ideal S5000x1 .i32) (v8 v11 : Vec Ideal S1024x128 .bf16) (p : Fin 5000) (j : Fin 128) :
    k1_pay1 v0 v8 v11 (ix2 p j)
      = (∑ c : Fin 1024, Cert.Spec.onehot (v0 (ix2 p 0)) c * v8 (ix2 c j))
        + ∑ c : Fin 1024, Cert.Spec.onehot (v0 (ix2 p 0)) c * v11 (ix2 c j) := by
  unfold k1_pay1
  rw [shapeCast_self v0, shapeCast_self v8, shapeCast_self v11, addf_apply]
  show FloatOps.matmul dG none _ _ _ (ix2 p j) + FloatOps.matmul dG none _ _ _ (ix2 p j) = _
  rw [dG_apply, dG_apply]
  refine congrArg₂ (· + ·) (Finset.sum_congr rfl fun c _ => ?_) (Finset.sum_congr rfl fun c _ => ?_)
  · exact congrArg (· * v8 (ix2 c j)) (ohG_apply v0 p c)
  · exact congrArg (· * v11 (ix2 c j)) (ohG_apply v0 p c)

abbrev dS := dot_S2000x1024_S2000x128_S1024x128_0_0_1_1_n_n

theorem dS_lhs0 (i : S1024x128.Idx) (q : dS.contr.Idx) : (dS.lhsIdx i q 0).val = (q ⟨0, by decide⟩).val :=
  dS.lhsIdx_val_of_single rfl i q
theorem dS_lhs1 (i : S1024x128.Idx) (q : dS.contr.Idx) : (dS.lhsIdx i q 1).val = (i 0).val := by
  unfold DotDims.lhsIdx
  rw [dif_neg (show ¬(1 : Fin S2000x1024.rank) ∈ dS.lhsBatch by decide), dif_pos (show (1 : Fin S2000x1024.rank) ∈ dS.lhsNonContracting by decide)]
  rfl
theorem dS_rhs0 (i : S1024x128.Idx) (q : dS.contr.Idx) : (dS.rhsIdx i q 0).val = (q ⟨0, by decide⟩).val :=
  dS.rhsIdx_val_of_single rfl i q
theorem dS_rhs1 (i : S1024x128.Idx) (q : dS.contr.Idx) : (dS.rhsIdx i q 1).val = (i 1).val := by
  unfold DotDims.rhsIdx
  rw [dif_neg (show ¬(1 : Fin S2000x128.rank) ∈ dS.rhsBatch by decide), dif_pos (show (1 : Fin S2000x128.rank) ∈ dS.rhsNonContracting by decide)]
  rfl

/-- The product contracting the 2000 rows of both operands, into the zero table, at `(c, j)`: the sum over the rows. -/
theorem dS_apply {φ₁ φ₂ : FTy} (L : FVec Ideal S2000x1024 φ₁) (R : FVec Ideal S2000x128 φ₂) (c : Fin 1024) (j : Fin 128) :
    FloatOps.matmul dS none L R (constant (F := Ideal) S1024x128 .f32 0x00000000#32) (ix2 c j)
      = ∑ p : Fin 2000, L (ix2 p c) * R (ix2 p j) := by
  rw [Ideal.matmul_constant_zero_apply, ← Equiv.sum_comp (contrEquiv1 dS 2000 rfl rfl).symm]
  refine Finset.sum_congr rfl fun k _ => ?_
  have hk := contrEquiv1_symm_val dS 2000 rfl rfl k
  have el : dS.lhsIdx (ix2 c j) ((contrEquiv1 dS 2000 rfl rfl).symm k) = ix2 k c := funext fun a => Fin.ext (by
    match a with
    | ⟨0, _⟩ => exact (dS_lhs0 _ _).trans hk
    | ⟨1, _⟩ => exact dS_lhs1 _ _)
  have er : dS.rhsIdx (ix2 c j) ((contrEquiv1 dS 2000 rfl rfl).symm k) = ix2 k j := funext fun a => Fin.ext (by
    match a with
    | ⟨0, _⟩ => exact (dS_rhs0 _ _).trans hk
    | ⟨1, _⟩ => exact dS_rhs1 _ _)
  rw [el, er]

/-- Row `p` of the one-hot matrix of region 0, at cell `c`. -/
theorem ohS_apply (w : IVec S2000x1 32) (p : Fin 2000) (c : Fin 1024) :
    (truncf .bf16 (sitofp (F := Ideal) .f32 (extui 32 (cmpi .eq (iota .tc S2000x1024 32 [1] iota_S2000x1024_d1_w32)
        (broadcastTo S2000x1024 w broadcasts_S2000x1_S2000x1024)) natLt_1_32)) bitsLt_bf16_f32 : FVec Ideal S2000x1024 .bf16) (ix2 p c)
      = Cert.Spec.onehot (w (ix2 p 0)) c := by
  show FloatOps.sitofp (F := Ideal) .f32 ((IntOp.cmpi .eq (iota .tc S2000x1024 32 [1] iota_S2000x1024_d1_w32 (ix2 p c))
      (broadcastTo S2000x1024 w broadcasts_S2000x1_S2000x1024 (ix2 p c))).setWidth 32) = _
  rw [iota_single_apply, broadcastTo_a1_ab_apply, onehot_word]
  rfl

theorem pay2_apply (v46 : FVec Ideal S2000x128 .f32) (v67 v77 v78 : IVec S2000x1 32) (v95 : Vec Ideal S1x1024x128 .f32)
    (c : Fin 1024) (j : Fin 128) :
    k0_pay2 v46 v67 v77 v78 v95 (ix3 (0 : Fin 1) c j)
      = v95 (ix3 0 c j) + ((∑ p : Fin 2000, Cert.Spec.onehot (k0_pay1 v67 v77 v78 (ix2 p 0)) c * v46 (ix2 p j))
          + ∑ p : Fin 2000, Cert.Spec.onehot (k0_pay1 v67 v77 v78 (ix2 p 0)) c * (v46 (ix2 p j) - v46 (ix2 p j))) := by
  unfold k0_pay2
  rw [shapeCast_ab_1ab_apply, addf_apply, shapeCast_1ab_ab_apply, addf_apply]
  show _ + (FloatOps.matmul dS none _ _ _ (ix2 c j) + FloatOps.matmul dS none _ _ _ (ix2 c j)) = _
  rw [dS_apply, dS_apply]
  refine congrArg (v95 (ix3 0 c j) + ·) (congrArg₂ (· + ·) (Finset.sum_congr rfl fun p _ => ?_) (Finset.sum_congr rfl fun p _ => ?_))
  · exact congrArg (· * v46 (ix2 p j)) (ohS_apply (k0_pay1 v67 v77 v78) p c)
  · exact congrArg (· * (v46 (ix2 p j) - v46 (ix2 p j))) (ohS_apply (k0_pay1 v67 v77 v78) p c)

theorem pay3_apply (c : Fin 1024) (j : Fin 128) : k0_pay3 (F := Ideal) (ix3 (0 : Fin 1) c j) = Cert.Spec.zero := by
  unfold k0_pay3
  rw [shapeCast_ab_1ab_apply]
  rfl

end Cert.KernelIdeal.Pay

end
-- ==== Proof.PayGates.lean ====
/-
  The gate pre-activations of one block of 2000 rows read at a row p and a column n: the coordinate product, the
  recurrent product in three passes (the hidden state against the two parts of the recurrent weights, and the hidden
  state's low part, x - x, against the first part), and the two bias rows.
-/
import proofs.«118881_j33947421507802_2_alg».proof.Proof.Gen.KernelIdeal.Skeleton
import proofs.«118881_j33947421507802_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayG

open Cert.KernelIdeal Cert.KernelIdeal.Gen Idealize.ShloMosaic Idealize.ShloMosaic.ValueIdx

/-! ## The two matrix products at an index -/

theorem lhs128_0 (i : S2000x512.Idx) (q : dot_S2000x128_S128x512_S2000x512_1_0_0_1_n_n.contr.Idx) :
    (dot_S2000x128_S128x512_S2000x512_1_0_0_1_n_n.lhsIdx i q 0).val = (i 0).val := by
  unfold DotDims.lhsIdx
  rw [dif_neg (show ¬(0 : Fin S2000x128.rank) ∈ dot_S2000x128_S128x512_S2000x512_1_0_0_1_n_n.lhsBatch by decide),
    dif_pos (show (0 : Fin S2000x128.rank) ∈ dot_S2000x128_S128x512_S2000x512_1_0_0_1_n_n.lhsNonContracting by decide)]
  rfl

theorem rhs128_1 (i : S2000x512.Idx) (q : dot_S2000x128_S128x512_S2000x512_1_0_0_1_n_n.contr.Idx) :
    (dot_S2000x128_S128x512_S2000x512_1_0_0_1_n_n.rhsIdx i q 1).val = (i 1).val := by
  unfold DotDims.rhsIdx
  rw [dif_neg (show ¬(1 : Fin S128x512.rank) ∈ dot_S2000x128_S128x512_S2000x512_1_0_0_1_n_n.rhsBatch by decide),
    dif_pos (show (1 : Fin S128x512.rank) ∈ dot_S2000x128_S128x512_S2000x512_1_0_0_1_n_n.rhsNonContracting by decide)]
  rfl

/-- A [2000,128] by [128,512] product into the zero table, at (p, n): the sum over the 128 inner positions. -/
theorem matmul128_apply (l : FVec Ideal S2000x128 .bf16) (r : FVec Ideal S128x512 .bf16) (p : Fin 2000) (n : Fin 512) :
    matmul dot_S2000x128_S128x512_S2000x512_1_0_0_1_n_n none l r (constant (F := Ideal) S2000x512 .f32 0x00000000#32) (ix2 p n)
      = ∑ k : Fin 128, l (ix2 p k) * r (ix2 k n) := by
  simp only [matmul]
  rw [Ideal.matmul_constant_zero_apply,
    ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p n)
      ((contrEquiv1 dot_S2000x128_S128x512_S2000x512_1_0_0_1_n_n 128 rfl rfl).symm k) = ix2 p k :=
    funext fun a => Fin.ext (by
      match a with
      | ⟨0, _⟩ => exact lhs128_0 _ _
      | ⟨1, _⟩ => exact (dot_S2000x128_S128x512_S2000x512_1_0_0_1_n_n.lhsIdx_val_of_single rfl _ _).trans hk)
  have er : dot_S2000x128_S128x512_S2000x512_1_0_0_1_n_n.rhsIdx (ix2 p n)
      ((contrEquiv1 dot_S2000x128_S128x512_S2000x512_1_0_0_1_n_n 128 rfl rfl).symm k) = ix2 k n :=
    funext fun a => Fin.ext (by
      match a with
      | ⟨0, _⟩ => exact (dot_S2000x128_S128x512_S2000x512_1_0_0_1_n_n.rhsIdx_val_of_single rfl _ _).trans hk
      | ⟨1, _⟩ => exact rhs128_1 _ _)
  rw [el, er]

theorem lhs3_0 (i : S2000x512.Idx) (q : dot_S2000x3_S3x512_S2000x512_1_0_0_1_n_n.contr.Idx) :
    (dot_S2000x3_S3x512_S2000x512_1_0_0_1_n_n.lhsIdx i q 0).val = (i 0).val := by
  unfold DotDims.lhsIdx
  rw [dif_neg (show ¬(0 : Fin S2000x3.rank) ∈ dot_S2000x3_S3x512_S2000x512_1_0_0_1_n_n.lhsBatch by decide),
    dif_pos (show (0 : Fin S2000x3.rank) ∈ dot_S2000x3_S3x512_S2000x512_1_0_0_1_n_n.lhsNonContracting by decide)]
  rfl

theorem rhs3_1 (i : S2000x512.Idx) (q : dot_S2000x3_S3x512_S2000x512_1_0_0_1_n_n.contr.Idx) :
    (dot_S2000x3_S3x512_S2000x512_1_0_0_1_n_n.rhsIdx i q 1).val = (i 1).val := by
  unfold DotDims.rhsIdx
  rw [dif_neg (show ¬(1 : Fin S3x512.rank) ∈ dot_S2000x3_S3x512_S2000x512_1_0_0_1_n_n.rhsBatch by decide),
    dif_pos (show (1 : Fin S3x512.rank) ∈ dot_S2000x3_S3x512_S2000x512_1_0_0_1_n_n.rhsNonContracting by decide)]
  rfl

/-- A [2000,3] by [3,512] product into the zero table, at (p, n): the sum over the 3 inner positions. -/
theorem matmul3_apply (l : FVec Ideal S2000x3 .f32) (r : FVec Ideal S3x512 .f32) (p : Fin 2000) (n : Fin 512) :
    matmul dot_S2000x3_S3x512_S2000x512_1_0_0_1_n_n none l r (constant (F := Ideal) S2000x512 .f32 0x00000000#32) (ix2 p n)
      = ∑ k : Fin 3, l (ix2 p k) * r (ix2 k n) := by
  simp only [matmul]
  rw [Ideal.matmul_constant_zero_apply,
    ← Equiv.sum_comp (contrEquiv1 dot_S2000x3_S3x512_S2000x512_1_0_0_1_n_n 3 rfl rfl).symm]
  refine Finset.sum_congr rfl fun k _ => ?_
  have hk := contrEquiv1_symm_val dot_S2000x3_S3x512_S2000x512_1_0_0_1_n_n 3 rfl rfl k
  have el : dot_S2000x3_S3x512_S2000x512_1_0_0_1_n_n.lhsIdx (ix2 p n)
      ((contrEquiv1 dot_S2000x3_S3x512_S2000x512_1_0_0_1_n_n 3 rfl rfl).symm k) = ix2 p k :=
    funext fun a => Fin.ext (by
      match a with
      | ⟨0, _⟩ => exact lhs3_0 _ _
      | ⟨1, _⟩ => exact (dot_S2000x3_S3x512_S2000x512_1_0_0_1_n_n.lhsIdx_val_of_single rfl _ _).trans hk)
  have er : dot_S2000x3_S3x512_S2000x512_1_0_0_1_n_n.rhsIdx (ix2 p n)
      ((contrEquiv1 dot_S2000x3_S3x512_S2000x512_1_0_0_1_n_n 3 rfl rfl).symm k) = ix2 k n :=
    funext fun a => Fin.ext (by
      match a with
      | ⟨0, _⟩ => exact (dot_S2000x3_S3x512_S2000x512_1_0_0_1_n_n.rhsIdx_val_of_single rfl _ _).trans hk
      | ⟨1, _⟩ => exact rhs3_1 _ _)
  rw [el, er]

/-! ## The transposed weights at an index -/

/-- The recurrent weights transposed read, at (k, n), the weights at (n, k). -/
theorem transpose128_apply (x : FVec Ideal S512x128 .bf16) (h : S512x128.Transposes [1, 0] S128x512) (k : Fin 128)
    (n : Fin 512) : transpose S128x512 [1, 0] x h (ix2 k n) = x (ix2 n k) :=
  transpose_ix2_apply x h k n

/-- The input weights transposed read, at (k, n), the weights at (n, k). -/
theorem transpose3_apply (x : FVec Ideal S512x3 .f32) (h : S512x3.Transposes [1, 0] S3x512) (k : Fin 3)
    (n : Fin 512) : transpose S3x512 [1, 0] x h (ix2 k n) = x (ix2 n k) :=
  transpose_ix2_apply x h k n

/-! ## The gate pre-activations at an index -/

theorem k0_pay4_apply (v3 : Vec Ideal S2000x3 .f32) (v4 : Vec Ideal S2000x128 .f32) (v10 v12 : Vec Ideal S512x128 .bf16)
    (v22 : Vec Ideal S512x3 .f32) (v26 v30 : Vec Ideal S1x512 .f32) (p : Fin 2000) (n : Fin 512) :
    k0_pay4 v3 v4 v10 v12 v22 v26 v30 (ix2 p n)
      = (∑ k : Fin 3, v3 (ix2 p k) * v22 (ix2 n k))
        + ((∑ k : Fin 128, v4 (ix2 p k) * v10 (ix2 n k) + ∑ k : Fin 128, v4 (ix2 p k) * v12 (ix2 n k))
          + ∑ k : Fin 128, (v4 (ix2 p k) - v4 (ix2 p k)) * v10 (ix2 n k))
        + v26 (ix2 0 n) + v30 (ix2 0 n) := by
  unfold k0_pay4
  simp only [addf_apply, matmul128_apply, matmul3_apply, shapeCast_self, truncf_apply, subf_apply, broadcastTo_1b_ab_apply]
  refine congrArg₂ (· + ·) (congrArg₂ (· + ·) (congrArg₂ (· + ·) ?_ (congrArg₂ (· + ·) (congrArg₂ (· + ·) ?_ ?_) ?_)) rfl) rfl
  · exact Finset.sum_congr rfl fun k _ => congrArg (v3 (ix2 p k) * ·) (transpose3_apply v22 _ k n)
  · exact Finset.sum_congr rfl fun k _ => congrArg (v4 (ix2 p k) * ·) (transpose128_apply v10 _ k n)
  · exact Finset.sum_congr rfl fun k _ => congrArg (v4 (ix2 p k) * ·) (transpose128_apply v12 _ k n)
  · exact Finset.sum_congr rfl fun k _ => congrArg ((v4 (ix2 p k) - v4 (ix2 p k)) * ·) (transpose128_apply v10 _ k n)

end Cert.KernelIdeal.PayG

end
-- ==== Proof.Algebra1.lean ====
/-
  Algebra over the extended reals, part 1: the float literals, the logistic function, real-valuedness of the
  cell step and of the pooled totals, running sums, and the gather by one-hot products.
-/
import proofs.«118881_j33947421507802_2_alg».proof.Proof.Spec

noncomputable section

open scoped BigOperators

namespace Cert.Alg

open Cert.Spec Idealize.ShloMosaic Idealize.ShloMosaic.ValueIdx

/-! ## The literals -/

/-- The word of +0.0 denotes the extended real 0. -/
theorem zero_eq : Cert.Spec.zero = 0 := by
  simp [Ideal.ofBits, Ideal.ieee]

/-- The word of 1.0 denotes the extended real 1. -/
theorem one_eq : Cert.Spec.one = 1 := by
  simp [Ideal.ofBits, Ideal.ieee, -EReal.coe_mul]; norm_num

/-- The reference's spelling 1 / (1 + e^(-x)) is the logistic function. -/
theorem sig_eq_logistic (x : EReal) : Cert.Spec.sig x = Ideal.logistic x := by
  unfold Cert.Spec.sig Ideal.logistic
  rw [one_eq]

/-! ## Real-valuedness -/

/-- The logistic function takes real values everywhere (0 at -∞, 1 at +∞). -/
theorem logistic_real (x : EReal) : ∃ q : ℝ, Ideal.logistic x = q := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The hyperbolic tangent takes real values everywhere (-1 at -∞, 1 at +∞). -/
theorem tanh_real (x : EReal) : ∃ q : ℝ, Ideal.tanh x = q := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- A finite sum of reals is a real. -/
theorem sum_real {ι : Type*} (s : Finset ι) (f : ι → EReal) (hf : ∀ i ∈ s, ∃ q : ℝ, f i = q) :
    ∃ q : ℝ, ∑ i ∈ s, f i = q := by
  classical
  induction s using Finset.induction_on with
  | empty => exact ⟨0, by rw [Finset.sum_empty, EReal.coe_zero]⟩
  | insert a s ha ih =>
    obtain ⟨q1, h1⟩ := hf a (Finset.mem_insert_self a s)
    obtain ⟨q2, h2⟩ := ih (fun i hi => hf i (Finset.mem_insert_of_mem hi))
    exact ⟨q1 + q2, by rw [Finset.sum_insert ha, h1, h2, EReal.coe_add]⟩

/-- A real minus itself is 0. -/
theorem sub_self_of_real {x : EReal} (h : ∃ q : ℝ, x = q) : x - x = 0 := by
  obtain ⟨q, rfl⟩ := h
  rw [← EReal.coe_sub, sub_self, EReal.coe_zero]

/-- The new hidden state is a real: a logistic value times a hyperbolic tangent value. -/
theorem hnew_real (x0 : SNx3.Idx → EReal) (x1 x2 : SNxH.Idx → EReal) (x3 : SGx3.Idx → EReal) (x4 : SGxH.Idx → EReal)
    (x5 x6 : SG.Idx → EReal) (r : Fin 500000) (j : Fin 128) :
    ∃ q : ℝ, Cert.Spec.hnew x0 x1 x2 x3 x4 x5 x6 r j = q := by
  unfold Cert.Spec.hnew
  rw [sig_eq_logistic]
  obtain ⟨a, ha⟩ := logistic_real (gate x0 x1 x3 x4 x5 x6 r (gcol 3 j))
  obtain ⟨b, hb⟩ := tanh_real (cnew x0 x1 x2 x3 x4 x5 x6 r j)
  exact ⟨a * b, by rw [ha, hb, EReal.coe_mul]⟩

/-- The pooled total of a cell is a real. -/
theorem pooled_real (x0 : SNx3.Idx → EReal) (x1 x2 : SNxH.Idx → EReal) (x3 : SGx3.Idx → EReal) (x4 : SGxH.Idx → EReal)
    (x5 x6 : SG.Idx → EReal) (c : Fin 1024) (j : Fin 128) :
    ∃ q : ℝ, Cert.Spec.pooled x0 x1 x2 x3 x4 x5 x6 c j = q := by
  unfold Cert.Spec.pooled
  obtain ⟨q, hq⟩ := sum_real (Finset.univ.filter (fun r : Fin 500000 => cell x0 r = c))
    (fun r => hnew x0 x1 x2 x3 x4 x5 x6 r j) (fun r _ => hnew_real x0 x1 x2 x3 x4 x5 x6 r j)
  exact ⟨q, by rw [hq, zero_eq, zero_add]⟩

/-! ## A running sum is a sum -/

/-- The running sum that starts from z + U 0 and adds U (n+1) at step n+1. -/
def chain (z : EReal) (U : ℕ → EReal) : ℕ → EReal
  | 0 => z + U 0
  | n + 1 => chain z U n + U (n + 1)

theorem chain_zero (z : EReal) (U : ℕ → EReal) : chain z U 0 = z + U 0 := rfl

theorem chain_succ (z : EReal) (U : ℕ → EReal) (n : ℕ) : chain z U (n + 1) = chain z U n + U (n + 1) := rfl

/-- After step n the running sum is z plus the sum of the first n+1 terms. -/
theorem chain_eq (z : EReal) (U : ℕ → EReal) (n : ℕ) : chain z U n = z + ∑ i ∈ Finset.range (n + 1), U i := by
  induction n with
  | zero => rw [chain_zero, Finset.sum_range_one]
  | succ n ih => rw [chain_succ, ih, Finset.sum_range_succ _ (n + 1), add_assoc]

/-! ## The gather by one-hot products -/

/-- The word of a cell number c is w exactly when c is the number of w. -/
theorem ofNat_eq_iff (w : BitVec 32) (hw : w.toNat < 1024) (c : Fin 1024) :
    BitVec.ofNat 32 c.val = w ↔ (⟨w.toNat, hw⟩ : Fin 1024) = c := by
  constructor
  · intro h
    apply Fin.ext
    show w.toNat = c.val
    rw [← h, BitVec.toNat_ofNat]
    have := c.isLt
    omega
  · intro h
    rw [← h]
    apply BitVec.eq_of_toNat_eq
    rw [BitVec.toNat_ofNat]
    show w.toNat % 2 ^ 32 = w.toNat
    omega

/-- A one-hot entry times a value: the value at the hot cell, 0 elsewhere. -/
theorem onehot_mul (w : BitVec 32) (hw : w.toNat < 1024) (c : Fin 1024) (v : EReal) :
    onehot w c * v = if (⟨w.toNat, hw⟩ : Fin 1024) = c then v else 0 := by
  unfold onehot
  by_cases h : (⟨w.toNat, hw⟩ : Fin 1024) = c
  · rw [if_pos ((ofNat_eq_iff w hw c).2 h), if_pos h, one_mul]
  · rw [if_neg (fun h' => h ((ofNat_eq_iff w hw c).1 h')), if_neg h, zero_mul]

/-- The gather: the one-hot row of w times the table column picks the entry of the cell of w; the products
    with the (vanishing) low parts add 0. -/
theorem gather_onehot (P : Fin 1024 → EReal) (hP : ∀ c, ∃ q : ℝ, P c = q) (w : BitVec 32) (hw : w.toNat < 1024) :
    (∑ c : Fin 1024, onehot w c * P c) + ∑ c : Fin 1024, onehot w c * (P c - P c) = P ⟨w.toNat, hw⟩ := by
  have h2 : ∑ c : Fin 1024, onehot w c * (P c - P c) = 0 :=
    Finset.sum_eq_zero fun c _ => by rw [sub_self_of_real (hP c), mul_zero]
  rw [h2, add_zero, Finset.sum_congr rfl fun c _ => onehot_mul w hw c (P c), Finset.sum_ite_eq]
  rw [if_pos (Finset.mem_univ _)]

end Cert.Alg

end
-- ==== Proof.Algebra2.lean ====
/-
  Algebra over the extended reals, part 2: the gate pre-activation in the order the fused cell step adds it, and
  the scatter by one-hot products as a filtered sum over all rows.
-/
import proofs.«118881_j33947421507802_2_alg».proof.Proof.Algebra1

noncomputable section

open scoped BigOperators

namespace Cert.Alg

open Cert.Spec Idealize.ShloMosaic Idealize.ShloMosaic.ValueIdx

/-! ## The gate pre-activation -/

/-- The gate pre-activation as the fused step adds it: the coordinate product, then the recurrent product in three
    passes (high·high, high·low, low·high, where the low parts are x - x = 0 for real x), then the two biases. It is
    the reference's sum in another order. -/
theorem gate_arranged (x0 : SNx3.Idx → EReal) (x1 : SNxH.Idx → EReal) (x3 : SGx3.Idx → EReal) (x4 : SGxH.Idx → EReal)
    (x5 x6 : SG.Idx → EReal) (h1 : ∀ i, ∃ q : ℝ, x1 i = q) (h4 : ∀ i, ∃ q : ℝ, x4 i = q)
    (r : Fin 500000) (n : Fin 512) :
    (∑ k : Fin 3, x0 (ix2 r k) * x3 (ix2 n k))
      + ((∑ k : Fin 128, x1 (ix2 r k) * x4 (ix2 n k)
          + ∑ k : Fin 128, x1 (ix2 r k) * (x4 (ix2 n k) - x4 (ix2 n k)))
        + ∑ k : Fin 128, (x1 (ix2 r k) - x1 (ix2 r k)) * x4 (ix2 n k))
      + x5 (ix1 n) + x6 (ix1 n)
    = Cert.Spec.gate x0 x1 x3 x4 x5 x6 r n := by
  have e1 : ∑ k : Fin 128, x1 (ix2 r k) * (x4 (ix2 n k) - x4 (ix2 n k)) = 0 :=
    Finset.sum_eq_zero fun k _ => by rw [sub_self_of_real (h4 _), mul_zero]
  have e2 : ∑ k : Fin 128, (x1 (ix2 r k) - x1 (ix2 r k)) * x4 (ix2 n k) = 0 :=
    Finset.sum_eq_zero fun k _ => by rw [sub_self_of_real (h1 _), zero_mul]
  rw [e1, e2, add_zero, add_zero]
  unfold Cert.Spec.gate
  rw [add_right_comm (∑ k : Fin 3, x0 (ix2 r k) * x3 (ix2 n k)) (x5 (ix1 n))]

/-! ## The scatter by one-hot products -/

/-- Row number of point p of step i of core: the cores take consecutive halves, each step 2000 consecutive rows. -/
def row (core : Fin 2) (i : Fin 125) (p : Fin 2000) : Fin 500000 :=
  ⟨(core.val * 125 + i.val) * 2000 + p.val, by
    have := core.isLt; have := i.isLt; have := p.isLt; omega⟩

theorem row_val (core : Fin 2) (i : Fin 125) (p : Fin 2000) :
    (row core i p).val = (core.val * 125 + i.val) * 2000 + p.val := rfl

/-- (core, step, point) ↦ row is a bijection onto all rows. -/
def rowEquiv : Fin 2 × Fin 125 × Fin 2000 ≃ Fin 500000 where
  toFun t := row t.1 t.2.1 t.2.2
  invFun r := (⟨r.val / 250000, by have := r.isLt; omega⟩, ⟨r.val / 2000 % 125, by omega⟩, ⟨r.val % 2000, by omega⟩)
  left_inv := by
    rintro ⟨a, b, c⟩
    have := a.isLt; have := b.isLt; have := c.isLt
    refine Prod.ext (Fin.ext ?_) (Prod.ext (Fin.ext ?_) (Fin.ext ?_))
    · show ((a.val * 125 + b.val) * 2000 + c.val) / 250000 = a.val
      omega
    · show ((a.val * 125 + b.val) * 2000 + c.val) / 2000 % 125 = b.val
      omega
    · show ((a.val * 125 + b.val) * 2000 + c.val) % 2000 = c.val
      omega
  right_inv := by
    intro r
    have := r.isLt
    apply Fin.ext
    show (r.val / 250000 * 125 + r.val / 2000 % 125) * 2000 + r.val % 2000 = r.val
    omega

/-- The triple sum over cores, steps and points of a function of the row is the sum over all rows. -/
theorem sum_rows (g : Fin 500000 → EReal) :
    ∑ core : Fin 2, ∑ i : Fin 125, ∑ p : Fin 2000, g (row core i p) = ∑ r : Fin 500000, g r := by
  rw [← Equiv.sum_comp rowEquiv g, Fintype.sum_prod_type]
  refine Finset.sum_congr rfl fun core _ => ?_
  rw [Fintype.sum_prod_type]
  rfl

/-- The scatter: per core a table accumulated from zero over the steps, each step adding the one-hot columns times
    the values (and times the vanishing low parts), and the two tables added from zero, is the total over the rows of
    the cell. -/
theorem scatter_onehot (f : Fin 500000 → EReal) (hf : ∀ r, ∃ q : ℝ, f r = q) (w : Fin 500000 → BitVec 32)
    (hw : ∀ r, (w r).toNat < 1024) (c : Fin 1024) :
    zero + ∑ core : Fin 2, (zero + ∑ i : Fin 125,
        ((∑ p : Fin 2000, onehot (w (row core i p)) c * f (row core i p))
          + ∑ p : Fin 2000, onehot (w (row core i p)) c * (f (row core i p) - f (row core i p))))
      = zero + ∑ r ∈ Finset.univ.filter (fun r : Fin 500000 => (⟨(w r).toNat, hw r⟩ : Fin 1024) = c), f r := by
  refine congrArg (zero + ·) ?_
  rw [Finset.sum_filter, ← sum_rows]
  refine Finset.sum_congr rfl fun core _ => ?_
  rw [zero_eq, zero_add]
  refine Finset.sum_congr rfl fun i _ => ?_
  have e2 : ∑ p : Fin 2000, onehot (w (row core i p)) c * (f (row core i p) - f (row core i p)) = 0 :=
    Finset.sum_eq_zero fun p _ => by rw [sub_self_of_real (hf _), mul_zero]
  rw [e2, add_zero]
  exact Finset.sum_congr rfl fun p _ => onehot_mul _ (hw _) c _

/-- The running sum after step n as a sum over the n+1 steps. -/
theorem chain_eq_fin (z : EReal) (U : ℕ → EReal) (n : ℕ) : chain z U n = z + ∑ i : Fin (n + 1), U i.val := by
  rw [chain_eq, Finset.sum_range]

variable (x0 : SNx3.Idx → EReal) (x1 x2 : SNxH.Idx → EReal) (x3 : SGx3.Idx → EReal) (x4 : SGxH.Idx → EReal)
  (x5 x6 : SG.Idx → EReal)

/-- The scatter of the new hidden states by the rows' cell words is the pooled total. -/
theorem scatter_pooled (c : Fin 1024) (j : Fin 128) :
    zero + ∑ core : Fin 2, (zero + ∑ i : Fin 125,
        ((∑ p : Fin 2000, onehot (cellWord x0 (row core i p)) c * hnew x0 x1 x2 x3 x4 x5 x6 (row core i p) j)
          + ∑ p : Fin 2000, onehot (cellWord x0 (row core i p)) c
              * (hnew x0 x1 x2 x3 x4 x5 x6 (row core i p) j - hnew x0 x1 x2 x3 x4 x5 x6 (row core i p) j)))
      = pooled x0 x1 x2 x3 x4 x5 x6 c j :=
  scatter_onehot (fun r => hnew x0 x1 x2 x3 x4 x5 x6 r j) (fun r => hnew_real x0 x1 x2 x3 x4 x5 x6 r j)
    (cellWord x0) (cellWord_lt x0) c

/-- The gather of the pooled totals by a row's cell word is the row's cell total. -/
theorem gather_pooled (r : Fin 500000) (j : Fin 128) :
    (∑ c : Fin 1024, onehot (cellWord x0 r) c * pooled x0 x1 x2 x3 x4 x5 x6 c j)
      + ∑ c : Fin 1024, onehot (cellWord x0 r) c
          * (pooled x0 x1 x2 x3 x4 x5 x6 c j - pooled x0 x1 x2 x3 x4 x5 x6 c j)
      = social x0 x1 x2 x3 x4 x5 x6 (ix2 r j) :=
  gather_onehot (fun c => pooled x0 x1 x2 x3 x4 x5 x6 c j) (fun c => pooled_real x0 x1 x2 x3 x4 x5 x6 c j)
    (cellWord x0 r) (cellWord_lt x0 r)

end Cert.Alg

end
-- ==== Proof.KernelRows.lean ====
/-
  One block of 2000 rows of region 0, read at a row: when the block's input vectors hold the rows
  2000·t … 2000·t + 1999 of the argument arrays (and the whole weight and bias arrays, the second weight half being the
  weights minus themselves), the body's arithmetic is the specification at that row — the gate pre-activations, the new
  cell state, the new hidden state, the cell number, and the accumulator's update, which adds to entry (c, j) the new
  hidden states of the block's rows whose cell is c.
  The weights and the hidden state are finite, so a value minus itself is zero and the two correction products vanish.
-/
import proofs.«118881_j33947421507802_2_alg».proof.Proof.Payloads
import proofs.«118881_j33947421507802_2_alg».proof.Proof.PayGates
import proofs.«118881_j33947421507802_2_alg».proof.Proof.Algebra2

noncomputable section

open scoped BigOperators

namespace Cert.KernelIdeal.Rows

open Cert.KernelIdeal Cert.KernelIdeal.Gen Cert.Spec Idealize.ShloMosaic Idealize.ShloMosaic.ValueIdx

/-- Row `p` of block `t` (of 250 blocks of 2000 rows). -/
def rowAt (t : Fin 250) (p : Fin 2000) : Fin 500000 := ⟨t.val * 2000 + p.val, by have := t.isLt; have := p.isLt; omega⟩

variable (x0 : SNx3.Idx → EReal) (x1 x2 : SNxH.Idx → EReal) (x3 : SGx3.Idx → EReal) (x4 : SGxH.Idx → EReal)
  (x5 x6 : SG.Idx → EReal)

/-- The block's input vectors hold block `t` of the arguments. -/
structure Holds (t : Fin 250) (v3 : Vec Ideal S2000x3 .f32) (v4 v5 : Vec Ideal S2000x128 .f32)
    (v10 v12 : Vec Ideal S512x128 .bf16) (v22 : Vec Ideal S512x3 .f32) (v26 v30 : Vec Ideal S1x512 .f32) : Prop where
  coords : ∀ p k, v3 (ix2 p k) = x0 (ix2 (rowAt t p) k)
  hidden : ∀ p k, v4 (ix2 p k) = x1 (ix2 (rowAt t p) k)
  cell : ∀ p k, v5 (ix2 p k) = x2 (ix2 (rowAt t p) k)
  wih : ∀ n k, v22 (ix2 n k) = x3 (ix2 n k)
  whi : ∀ n k, v10 (ix2 n k) = x4 (ix2 n k)
  wlo : ∀ n k, v12 (ix2 n k) = x4 (ix2 n k) - x4 (ix2 n k)
  bih : ∀ n, v26 (ix2 (0 : Fin 1) n) = x5 (ix1 n)
  bhh : ∀ n, v30 (ix2 (0 : Fin 1) n) = x6 (ix1 n)

variable {x0 x1 x2 x3 x4 x5 x6}
variable {t : Fin 250} {v3 : Vec Ideal S2000x3 .f32} {v4 v5 : Vec Ideal S2000x128 .f32}
  {v10 v12 : Vec Ideal S512x128 .bf16} {v22 : Vec Ideal S512x3 .f32} {v26 v30 : Vec Ideal S1x512 .f32}

/-- The gate pre-activations of the block are the specification's at the row. -/
theorem gate_blk (H : Holds x0 x1 x2 x3 x4 x5 x6 t v3 v4 v5 v10 v12 v22 v26 v30)
    (h1 : ∀ i, ∃ q : ℝ, x1 i = q) (h4 : ∀ i, ∃ q : ℝ, x4 i = q) (p : Fin 2000) (n : Fin 512) :
    k0_pay4 v3 v4 v10 v12 v22 v26 v30 (ix2 p n) = gate x0 x1 x3 x4 x5 x6 (rowAt t p) n := by
  rw [PayG.k0_pay4_apply]
  simp only [H.coords, H.hidden, H.wih, H.whi, H.wlo, H.bih, H.bhh]
  exact Cert.Alg.gate_arranged x0 x1 x3 x4 x5 x6 h1 h4 (rowAt t p) n

/-- The new cell state of the block. -/
theorem cnew_blk (H : Holds x0 x1 x2 x3 x4 x5 x6 t v3 v4 v5 v10 v12 v22 v26 v30)
    (h1 : ∀ i, ∃ q : ℝ, x1 i = q) (h4 : ∀ i, ∃ q : ℝ, x4 i = q) (p : Fin 2000) (j : Fin 128) :
    k0_pay6 v5 (k0_pay4 v3 v4 v10 v12 v22 v26 v30) (k0_pay5 v3 v4 v10 v12 v22 v26 v30) (ix2 p j)
      = cnew x0 x1 x2 x3 x4 x5 x6 (rowAt t p) j := by
  rw [Pay.pay6_apply, Pay.pay5_apply, gate_blk H h1 h4, gate_blk H h1 h4, gate_blk H h1 h4, H.cell]
  unfold cnew
  rw [Cert.Alg.sig_eq_logistic, Cert.Alg.sig_eq_logistic]

/-- The new hidden state of the block. -/
theorem hnew_blk (H : Holds x0 x1 x2 x3 x4 x5 x6 t v3 v4 v5 v10 v12 v22 v26 v30)
    (h1 : ∀ i, ∃ q : ℝ, x1 i = q) (h4 : ∀ i, ∃ q : ℝ, x4 i = q) (p : Fin 2000) (j : Fin 128) :
    k0_pay7 v5 (k0_pay4 v3 v4 v10 v12 v22 v26 v30) (k0_pay5 v3 v4 v10 v12 v22 v26 v30) (ix2 p j)
      = hnew x0 x1 x2 x3 x4 x5 x6 (rowAt t p) j := by
  rw [Pay.pay7_apply, cnew_blk H h1 h4, gate_blk H h1 h4]
  unfold hnew
  rw [Cert.Alg.sig_eq_logistic]

/-- The cell number of a row of the block. -/
theorem word_blk (H : Holds x0 x1 x2 x3 x4 x5 x6 t v3 v4 v5 v10 v12 v22 v26 v30) (p : Fin 2000) :
    k0_pay1 (k0_pay8 v3) (k0_pay9 v3) k0_pay10 (ix2 p (0 : Fin 1)) = cellWord x0 (rowAt t p) := by
  rw [Pay.cellWord_apply, H.coords, H.coords]
  rfl

/-- What block `t` adds to entry (c, j) of the per-core table: the new hidden states of its rows of cell `c` (and the
    vanishing correction term, kept as the kernel writes it). -/
def upd (x0 : SNx3.Idx → EReal) (x1 x2 : SNxH.Idx → EReal) (x3 : SGx3.Idx → EReal) (x4 : SGxH.Idx → EReal)
    (x5 x6 : SG.Idx → EReal) (t : Fin 250) (c : Fin 1024) (j : Fin 128) : EReal :=
  (∑ p : Fin 2000, onehot (cellWord x0 (rowAt t p)) c * hnew x0 x1 x2 x3 x4 x5 x6 (rowAt t p) j)
    + ∑ p : Fin 2000, onehot (cellWord x0 (rowAt t p)) c
        * (hnew x0 x1 x2 x3 x4 x5 x6 (rowAt t p) j - hnew x0 x1 x2 x3 x4 x5 x6 (rowAt t p) j)

/-- The accumulator's step at the block: the carried table plus the block's update. -/
theorem acc_blk (H : Holds x0 x1 x2 x3 x4 x5 x6 t v3 v4 v5 v10 v12 v22 v26 v30)
    (h1 : ∀ i, ∃ q : ℝ, x1 i = q) (h4 : ∀ i, ∃ q : ℝ, x4 i = q) (v95 : Vec Ideal S1x1024x128 .f32)
    (c : Fin 1024) (j : Fin 128) :
    k0_pay2 (k0_pay7 v5 (k0_pay4 v3 v4 v10 v12 v22 v26 v30) (k0_pay5 v3 v4 v10 v12 v22 v26 v30)) (k0_pay8 v3) (k0_pay9 v3)
        k0_pay10 v95 (ix3 (0 : Fin 1) c j)
      = v95 (ix3 0 c j) + upd x0 x1 x2 x3 x4 x5 x6 t c j := by
  rw [Pay.pay2_apply]
  unfold upd
  simp only [word_blk H, hnew_blk H h1 h4]

end Cert.KernelIdeal.Rows

end
-- ==== Proof.KernelSocial.lean ====
/-
  The first result. Region 1 multiplies, for each row, the one-hot row of the row's cell number with the pooled table
  (and with the table minus itself, which is zero for a finite table): the row receives its cell's total. The table is
  the host's sum over the two cores of the per-core tables region 0 accumulated, each the sum over the core's 125 blocks
  of the blocks' updates: together the sum over all rows of the cell.
-/
import proofs.«118881_j33947421507802_2_alg».proof.Proof.KernelFold
import proofs.«118881_j33947421507802_2_alg».proof.Proof.KernelGlue
import proofs.«118881_j33947421507802_2_alg».proof.Proof.Region1
import proofs.«118881_j33947421507802_2_alg».proof.Proof.KernelRows
import proofs.«118881_j33947421507802_2_alg».proof.Proof.Algebra2

set_option maxRecDepth 16384

noncomputable section

open scoped BigOperators

namespace Cert.KernelIdeal.Social

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-- The cell-number array and the per-core tables region 0 leaves, with their literal types. -/
def ids0 : S500000x1.Idx → BitVec 32 := (dat0 (V1 m ρ) c).arrAt 9 cfg0.N
def tab0 : S2x1024x128.Idx → EReal := (dat0 (V1 m ρ) c).arrAt 10 cfg0.N

/-- Block `core·125 + i` of the grid. -/
def blk (core : Fin 2) (i : Fin 125) : Fin 250 := ⟨core.val * 125 + i.val, by have := core.isLt; have := i.isLt; omega⟩

/-- The pooled table from the per-core tables: the sum over the cores of the sums over the blocks is the sum over the
    rows of the cell. -/
theorem table_eq (A9 : ∀ r : Fin 500000, ids0 m ρ c (ix2 r (0 : Fin 1)) = cellWord (m ((c : Thread nD τ).loc main_arg0)) r)
    (A10 : ∀ (core : Fin 2) (cc : Fin 1024) (j : Fin 128), tab0 m ρ c (ix3 core cc j)
      = Cert.Spec.zero + ∑ i : Fin 125, Rows.upd (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (blk core i) cc j) (cc : Fin 1024) (j : Fin 128) :
    Cert.Spec.zero + ∑ core : Fin 2, tab0 m ρ c (ix3 core cc j) = pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) cc j := by
  rw [← Cert.Alg.scatter_pooled]
  refine congrArg₂ (· + ·) rfl (Finset.sum_congr rfl fun core _ => ?_)
  rw [A10 core cc j]
  refine congrArg₂ (· + ·) rfl (Finset.sum_congr rfl fun i _ => ?_)
  rfl

/-- Region 1's result array is the specification's first result. -/
theorem social_eq (A9 : ∀ r : Fin 500000, ids0 m ρ c (ix2 r (0 : Fin 1)) = cellWord (m ((c : Thread nD τ).loc main_arg0)) r)
    (A10 : ∀ (core : Fin 2) (cc : Fin 1024) (j : Fin 128), tab0 m ρ c (ix3 core cc j)
      = Cert.Spec.zero + ∑ i : Fin 125, Rows.upd (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (blk core i) cc j) :
    (dat1 (V3 m ρ) c).arrAt 3 cfg1.N = social (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨r, j, rfl⟩ : ∃ (r : Fin 500000) (j : Fin 128), i = ix2 r j := ⟨i 0, i 1, eq_ix2 i⟩
  rw [R1.arr3, R1.G_apply, Pay.pay1_region1, R1.iblk0_row]
  have hrow : (⟨(R1.tOf r).val * 5000 + (R1.pOf r).val, R1.row_lt (R1.tOf r) (R1.pOf r)⟩ : Fin 500000) = r :=
    Fin.ext (by show r.val / 5000 * 5000 + r.val % 5000 = r.val; omega)
  rw [hrow]
  have hid : (V3 m ρ c (Pipeline.arrRef spec1 0) : S500000x1.Idx → BitVec 32) (ix2 r (0 : Fin 1)) = cellWord (m ((c : Thread nD τ).loc main_arg0)) r :=
    (congrFun (show (V3 m ρ c (Pipeline.arrRef spec1 0) : S500000x1.Idx → BitVec 32) = ids0 m ρ c from Fold.ent1_ids m ρ c) (ix2 r (0 : Fin 1))).trans (A9 r)
  have hhi : ∀ cc : Fin 1024, (V3 m ρ c (Pipeline.arrRef spec1 1) : S1024x128.Idx → EReal) (ix2 cc j) = pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) cc j := fun cc =>
    (congrFun (show (V3 m ρ c (Pipeline.arrRef spec1 1) : S1024x128.Idx → EReal) = truncf (F := Ideal) .bf16 (Host.reduceAdd (F := Ideal) (φ := .f32) (tab0 m ρ c) (constant (F := Ideal) S_ .f32 0x00000000#32) reducesTo_S2x1024x128_S1024x128_d0 h_S_) bitsLt_bf16_f32 from Fold.ent1_hi m ρ c) (ix2 cc j)).trans
      ((Glue.table_hi _ _ _ (tab0 m ρ c) cc j).trans (table_eq m ρ c A9 A10 cc j))
  have hlo : ∀ cc : Fin 1024, (V3 m ρ c (Pipeline.arrRef spec1 2) : S1024x128.Idx → EReal) (ix2 cc j) = pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) cc j - pooled (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) cc j := fun cc =>
    (congrFun (show (V3 m ρ c (Pipeline.arrRef spec1 2) : S1024x128.Idx → EReal) = truncf (F := Ideal) .bf16 (subf (Host.reduceAdd (F := Ideal) (φ := .f32) (tab0 m ρ c) (constant (F := Ideal) S_ .f32 0x00000000#32) reducesTo_S2x1024x128_S1024x128_d0 h_S_) (extf .f32 (truncf (F := Ideal) .bf16 (Host.reduceAdd (F := Ideal) (φ := .f32) (tab0 m ρ c) (constant (F := Ideal) S_ .f32 0x00000000#32) reducesTo_S2x1024x128_S1024x128_d0 h_S_) bitsLt_bf16_f32) bitsLt_bf16_f32)) bitsLt_bf16_f32 from Fold.ent1_lo m ρ c) (ix2 cc j)).trans
      ((Glue.table_lo _ _ _ (tab0 m ρ c) cc j).trans (by rw [table_eq m ρ c A9 A10 cc j]))
  rw [hid]
  simp only [hhi, hlo]
  exact Cert.Alg.gather_pooled _ _ _ _ _ _ _ r j

end Cert.KernelIdeal.Social

end
-- ==== Proof.Region0a.lean ====
import proofs.«118881_j33947421507802_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

variable {F : FTy → Type} [FloatOps F]

/-! ## Zero offsets, however spelt -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one point leaves in each output block, as payloads of the point's input blocks

The body loads its eight input blocks whole, stores the new cell state into output 8, the cell words into output 9
and the updated table into output 10. At the first point of a core (case A) the table is first reset to `k0_pay3`
and the update reads that reset value back; at every other point (case B) the update reads what the point before
left (`xo10`). -/

/-- Case A, output 8: the new cell state of the point's rows. -/
theorem out_A_8 (c : Dev nD) (i : grid0.Coords) (arg2 : Memref sig .tc .vmem S2000x3 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S512x3 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S2000x128 .f32) (harg10 : arg10.IsWhole) (arg11 : Memref sig .tc .vmem S2000x1 .i32) (harg11 : arg11.IsWhole) (arg12 : Memref sig .tc .vmem S1x1024x128 .f32) (harg12 : arg12.IsWhole) (hc0 : cond0_0 i)
    (x0 : Vec F S2000x3 .f32) (x1 : Vec F S2000x128 .f32) (x2 : Vec F S2000x128 .f32) (x3 : Vec F S512x3 .f32) (x4 : Vec F S512x128 .bf16) (x5 : Vec F S512x128 .bf16) (x6 : Vec F S1x512 .f32) (x7 : Vec F S1x512 .f32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay6 x2 (k0_pay4 x0 x1 x4 x5 x3 x6 x7) (k0_pay5 x0 x1 x4 x5 x3 x6 x7) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S2000x3) hz2, View.ld_unit_zero (S := S2000x128) hz2, View.ld_unit_zero (S := S512x3) hz2, View.ld_unit_zero (S := S512x128) hz2, View.ld_unit_zero (S := S1x512) hz2, shapeCast_self]

/-- Case A, output 9: the cell words of the point's rows. -/
theorem out_A_9 (c : Dev nD) (i : grid0.Coords) (arg2 : Memref sig .tc .vmem S2000x3 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S512x3 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S2000x128 .f32) (harg10 : arg10.IsWhole) (arg11 : Memref sig .tc .vmem S2000x1 .i32) (harg11 : arg11.IsWhole) (arg12 : Memref sig .tc .vmem S1x1024x128 .f32) (harg12 : arg12.IsWhole) (hc0 : cond0_0 i)
    (x0 : Vec F S2000x3 .f32) (x1 : Vec F S2000x128 .f32) (x2 : Vec F S2000x128 .f32) (x3 : Vec F S512x3 .f32) (x4 : Vec F S512x128 .bf16) (x5 : Vec F S512x128 .bf16) (x6 : Vec F S1x512 .f32) (x7 : Vec F S1x512 .f32) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay1 (k0_pay8 x0) (k0_pay9 x0) k0_pay10 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S2000x3) hz2, View.ld_unit_zero (S := S2000x128) hz2, View.ld_unit_zero (S := S512x3) hz2, View.ld_unit_zero (S := S512x128) hz2, View.ld_unit_zero (S := S1x512) hz2, shapeCast_self]

/-- Case A, output 10: the table reset to `k0_pay3`, then updated with the point's new hidden state. -/
theorem out_A_10 (c : Dev nD) (i : grid0.Coords) (arg2 : Memref sig .tc .vmem S2000x3 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S512x3 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S2000x128 .f32) (harg10 : arg10.IsWhole) (arg11 : Memref sig .tc .vmem S2000x1 .i32) (harg11 : arg11.IsWhole) (arg12 : Memref sig .tc .vmem S1x1024x128 .f32) (harg12 : arg12.IsWhole) (hc0 : cond0_0 i)
    (x0 : Vec F S2000x3 .f32) (x1 : Vec F S2000x128 .f32) (x2 : Vec F S2000x128 .f32) (x3 : Vec F S512x3 .f32) (x4 : Vec F S512x128 .bf16) (x5 : Vec F S512x128 .bf16) (x6 : Vec F S1x512 .f32) (x7 : Vec F S1x512 .f32) :
    out0_A_10 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay2 (k0_pay7 x2 (k0_pay4 x0 x1 x4 x5 x3 x6 x7) (k0_pay5 x0 x1 x4 x5 x3 x6 x7)) (k0_pay8 x0) (k0_pay9 x0) k0_pay10 k0_pay3 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_cons_unit_zero (S := S1x1024x128) hz3, View.readCov_unit_zero (S := S1x1024x128) _ hz3]
  simp only [View.readAt_eq_ld, harg2.read_unread, harg3.read_unread, harg4.read_unread, harg5.read_unread, harg6.read_unread, harg7.read_unread, harg8.read_unread, harg9.read_unread, View.ld_unit_zero (S := S2000x3) hz2, View.ld_unit_zero (S := S2000x128) hz2, View.ld_unit_zero (S := S512x3) hz2, View.ld_unit_zero (S := S512x128) hz2, View.ld_unit_zero (S := S1x512) hz2, shapeCast_self]

/-- Case B, output 8: the new cell state of the point's rows. -/
theorem out_B_8 (c : Dev nD) (i : grid0.Coords) (arg2 : Memref sig .tc .vmem S2000x3 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S512x3 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S2000x128 .f32) (harg10 : arg10.IsWhole) (arg11 : Memref sig .tc .vmem S2000x1 .i32) (harg11 : arg11.IsWhole) (arg12 : Memref sig .tc .vmem S1x1024x128 .f32) (harg12 : arg12.IsWhole) (hc0 : ¬cond0_0 i)
    (x0 : Vec F S2000x3 .f32) (x1 : Vec F S2000x128 .f32) (x2 : Vec F S2000x128 .f32) (x3 : Vec F S512x3 .f32) (x4 : Vec F S512x128 .bf16) (x5 : Vec F S512x128 .bf16) (x6 : Vec F S1x512 .f32) (x7 : Vec F S1x512 .f32) (xo10 : Vec F S1x1024x128 .f32) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo10 = k0_pay6 x2 (k0_pay4 x0 x1 x4 x5 x3 x6 x7) (k0_pay5 x0 x1 x4 x5 x3 x6 x7) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xo10)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S2000x3) hz2, View.ld_unit_zero (S := S2000x128) hz2, View.ld_unit_zero (S := S512x3) hz2, View.ld_unit_zero (S := S512x128) hz2, View.ld_unit_zero (S := S1x512) hz2, shapeCast_self]

/-- Case B, output 9: the cell words of the point's rows. -/
theorem out_B_9 (c : Dev nD) (i : grid0.Coords) (arg2 : Memref sig .tc .vmem S2000x3 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S512x3 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S2000x128 .f32) (harg10 : arg10.IsWhole) (arg11 : Memref sig .tc .vmem S2000x1 .i32) (harg11 : arg11.IsWhole) (arg12 : Memref sig .tc .vmem S1x1024x128 .f32) (harg12 : arg12.IsWhole) (hc0 : ¬cond0_0 i)
    (x0 : Vec F S2000x3 .f32) (x1 : Vec F S2000x128 .f32) (x2 : Vec F S2000x128 .f32) (x3 : Vec F S512x3 .f32) (x4 : Vec F S512x128 .bf16) (x5 : Vec F S512x128 .bf16) (x6 : Vec F S1x512 .f32) (x7 : Vec F S1x512 .f32) (xo10 : Vec F S1x1024x128 .f32) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo10 = k0_pay1 (k0_pay8 x0) (k0_pay9 x0) k0_pay10 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xo10)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, View.ld_unit_zero (S := S2000x3) hz2, View.ld_unit_zero (S := S2000x128) hz2, View.ld_unit_zero (S := S512x3) hz2, View.ld_unit_zero (S := S512x128) hz2, View.ld_unit_zero (S := S1x512) hz2, shapeCast_self]

/-- Case B, output 10: the table the point before left, updated with the point's new hidden state. -/
theorem out_B_10 (c : Dev nD) (i : grid0.Coords) (arg2 : Memref sig .tc .vmem S2000x3 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S512x3 .f32) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S2000x128 .f32) (harg10 : arg10.IsWhole) (arg11 : Memref sig .tc .vmem S2000x1 .i32) (harg11 : arg11.IsWhole) (arg12 : Memref sig .tc .vmem S1x1024x128 .f32) (harg12 : arg12.IsWhole) (hc0 : ¬cond0_0 i)
    (x0 : Vec F S2000x3 .f32) (x1 : Vec F S2000x128 .f32) (x2 : Vec F S2000x128 .f32) (x3 : Vec F S512x3 .f32) (x4 : Vec F S512x128 .bf16) (x5 : Vec F S512x128 .bf16) (x6 : Vec F S1x512 .f32) (x7 : Vec F S1x512 .f32) (xo10 : Vec F S1x1024x128 .f32) :
    out0_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo10 = k0_pay2 (k0_pay7 x2 (k0_pay4 x0 x1 x4 x5 x3 x6 x7) (k0_pay5 x0 x1 x4 x5 x3 x6 x7)) (k0_pay8 x0) (k0_pay9 x0) k0_pay10 xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 x0 x1 x2 x3 x4 x5 x6 x7 xo10)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg12.read_unread, View.ld_unit_zero (S := S2000x3) hz2, View.ld_unit_zero (S := S2000x128) hz2, View.ld_unit_zero (S := S512x3) hz2, View.ld_unit_zero (S := S512x128) hz2, View.ld_unit_zero (S := S1x512) hz2, View.ld_unit_zero (S := S1x1024x128) hz3, shapeCast_self]

end Cert.KernelIdeal.R0

end
-- ==== Proof.Region0b.lean ====
import proofs.«118881_j33947421507802_2_alg».proof.Proof.Gen.KernelIdeal.Frame
import Idealize.ShloMosaic.Lib.Pipeline.Value
import Idealize.ShloMosaic.Lib.ValueIdx
import Idealize.ShloMosaic.Lib.Tactic
import proofs.«118881_j33947421507802_2_alg».proof.Proof.Region0a

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

variable {F : FTy → Type} [FloatOps F]

variable (V : (c : Dev nD) → (b : Ref sig .tc) → Buf (Elt F) ((c : Thread nD τ).loc b))

/-! ## The point's payloads over its input blocks

At point `t` the body reads window `w`'s block `iblk0 V c w t` (rows `2000 t … 2000 t + 1999` of the coordinate,
hidden-state and cell-state arrays; the whole weight and bias arrays). -/

/-- The four gates' pre-activations of the point's rows. -/
abbrev gates (c : Dev nD) (t : Fin cfg0.N) : FVec F S2000x512 .f32 :=
  k0_pay4 (iblk0 V c 0 t) (iblk0 V c 1 t) (iblk0 V c 4 t) (iblk0 V c 5 t) (iblk0 V c 3 t) (iblk0 V c 6 t) (iblk0 V c 7 t)

/-- The second payload of the same blocks the cell update reads beside the gates. -/
abbrev gates0 (c : Dev nD) (t : Fin cfg0.N) : FVec F S2000x128 .f32 :=
  k0_pay5 (iblk0 V c 0 t) (iblk0 V c 1 t) (iblk0 V c 4 t) (iblk0 V c 5 t) (iblk0 V c 3 t) (iblk0 V c 6 t) (iblk0 V c 7 t)

/-- The new cell state of the point's rows: what output 8's block holds after the point. -/
abbrev cellNew (c : Dev nD) (t : Fin cfg0.N) : FVec F S2000x128 .f32 :=
  k0_pay6 (iblk0 V c 2 t) (gates V c t) (gates0 V c t)

/-- The new hidden state of the point's rows: what the point scatters into the table. -/
abbrev hidNew (c : Dev nD) (t : Fin cfg0.N) : FVec F S2000x128 .f32 :=
  k0_pay7 (iblk0 V c 2 t) (gates V c t) (gates0 V c t)

/-- The cell word of each of the point's rows: what output 9's block holds after the point. -/
abbrev cellWd (c : Dev nD) (t : Fin cfg0.N) : IVec S2000x1 32 :=
  k0_pay1 (k0_pay8 (iblk0 V c 0 t)) (k0_pay9 (iblk0 V c 0 t)) k0_pay10

/-- The table `xo` updated with the point's rows: the new hidden state scattered by the rows' cells, added. -/
abbrev upd (c : Dev nD) (t : Fin cfg0.N) (xo : Vec F S1x1024x128 .f32) : FVec F S1x1024x128 .f32 :=
  k0_pay2 (hidNew V c t) (k0_pay8 (iblk0 V c 0 t)) (k0_pay9 (iblk0 V c 0 t)) k0_pay10 xo

/-- THE TABLE after point `n`: reset to `k0_pay3` and updated at the first point of a core (`n % 125 = 0`), what
    the point before left updated at every other point. -/
def acc (c : Dev nD) : (n : ℕ) → n < cfg0.N → Vec F S1x1024x128 .f32
  | 0, h => upd V c ⟨0, h⟩ k0_pay3
  | n + 1, h => if (n + 1) % 125 = 0 then upd V c ⟨n + 1, h⟩ k0_pay3 else upd V c ⟨n + 1, h⟩ (acc c n (Nat.lt_of_succ_lt h))

theorem acc_zero (c : Dev nD) (h : 0 < cfg0.N) : acc V c 0 h = upd V c ⟨0, h⟩ k0_pay3 := rfl

theorem acc_succ_reset (c : Dev nD) (n : ℕ) (h : n + 1 < cfg0.N) (h0 : (n + 1) % 125 = 0) :
    acc V c (n + 1) h = upd V c ⟨n + 1, h⟩ k0_pay3 := by
  show (if (n + 1) % 125 = 0 then _ else _) = _
  rw [if_pos h0]

theorem acc_succ_step (c : Dev nD) (n : ℕ) (h : n + 1 < cfg0.N) (h0 : ¬(n + 1) % 125 = 0) :
    acc V c (n + 1) h = upd V c ⟨n + 1, h⟩ (acc V c n (Nat.lt_of_succ_lt h)) := by
  show (if (n + 1) % 125 = 0 then _ else _) = _
  rw [if_neg h0]

/-- At the first point of a core the table is the reset value updated with that point's rows. -/
theorem acc_reset (c : Dev nD) (n : ℕ) (h : n < cfg0.N) (h0 : n % 125 = 0) : acc V c n h = upd V c ⟨n, h⟩ k0_pay3 := by
  cases n with
  | zero => rfl
  | succ n => exact acc_succ_reset V c n h h0

/-- After a point that resets (the first of a core): the rows' new cell state, their cell words, the reset table
    updated with the point's rows. -/
theorem outs_reset (c : Dev nD) (t : Fin cfg0.N) (h0 : t.val % 125 = 0) :
    outsAt0 V c t.val t.isLt = (cellNew V c t, cellWd V c t, upd V c t k0_pay3) := by
  rw [outsAt0_A V c t h0, out_A_8, out_A_9, out_A_10]

/-- After any other point: the same two per-point outputs, and what the point before left in the table updated
    with the point's rows. -/
theorem outs_step (c : Dev nD) (t : Fin cfg0.N) (h0 : ¬t.val % 125 = 0) :
    outsAt0 V c t.val t.isLt
      = (cellNew V c t, cellWd V c t,
          upd V c t (outsAt0 V c (t.val - 1) (Nat.lt_of_le_of_lt (Nat.sub_le _ _) t.isLt)).2.2) := by
  rw [outsAt0_B V c t h0, out_B_8, out_B_9, out_B_10]

/-- What the three outputs' blocks hold after point `n`: the rows' new cell state, their cell words, and the table so
    far — by induction on the point. -/
theorem outs_eq (c : Dev nD) : ∀ (n : ℕ) (h : n < cfg0.N),
    outsAt0 V c n h = (cellNew V c ⟨n, h⟩, cellWd V c ⟨n, h⟩, acc V c n h)
  | 0, h => outs_reset V c ⟨0, h⟩ (Nat.zero_mod _)
  | n + 1, h => by
    by_cases h0 : (n + 1) % 125 = 0
    · rw [acc_succ_reset V c n h h0]
      exact outs_reset V c ⟨n + 1, h⟩ h0
    · have e : (outsAt0 V c n (Nat.lt_of_succ_lt h)).2.2 = acc V c n (Nat.lt_of_succ_lt h) := by
        rw [outs_eq c n (Nat.lt_of_succ_lt h)]
      rw [acc_succ_step V c n h h0, ← e]
      exact outs_step V c ⟨n + 1, h⟩ h0

/-! ## The proof data's output blocks after point `t`, read -/

/-- Output 8's block after point `t`: the rows' new cell state. -/
theorem after8_eq (c : Dev nD) (t : Fin cfg0.N) : (dat0 V c).after 8 t = cellNew V c t :=
  (after0_8 V c t).trans (congrArg Prod.fst (outs_eq V c t.val t.isLt))

/-- Output 9's block after point `t`: the rows' cell words. -/
theorem after9_eq (c : Dev nD) (t : Fin cfg0.N) : (dat0 V c).after 9 t = cellWd V c t :=
  (after0_9 V c t).trans (congrArg (fun p => p.2.1) (outs_eq V c t.val t.isLt))

/-- Output 10's block after point `t`: the table so far. -/
theorem after10_eq (c : Dev nD) (t : Fin cfg0.N) : (dat0 V c).after 10 t = acc V c t.val t.isLt :=
  (after0_10 V c t).trans (congrArg (fun p => p.2.2) (outs_eq V c t.val t.isLt))

end Cert.KernelIdeal.R0

end
-- ==== Proof.Region0Rows.lean ====
/-
  Region 0's windows read off the arrays the region finds at entry: at grid point t = 125·core + step the three
  row-blocked inputs (coordinates, hidden state, cell state) hold rows 2000·t … 2000·t + 1999 of their arrays, and the
  weight and bias windows hold their whole arrays; the row-blocked outputs go to row block t and the table to its core's
  block t / 125.
-/
import proofs.«118881_j33947421507802_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.R0

open Cert.KernelIdeal Cert.KernelIdeal.Gen

variable {F : FTy → Type} [FloatOps F]

variable (V : (c : Dev nD) → (b : Ref sig .tc) → Buf (Elt F) ((c : Thread nD τ).loc b))

/-! ## The windows' block indices, decided once over the grid

Point `t = 125·core + step` reads and writes row block `t` of the row-blocked arrays, the whole of the weight and
bias arrays, and table `t / 125` (its core's). -/

/-- The row-blocked inputs (coordinates, hidden state, cell state) are at row block `t`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The weights' and biases' one block is the whole array. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- The row-blocked outputs are at row block `t`; the table's block is the core's, `t / 125`. -/
theorem idx_outs : ∀ t : Fin cfg0.N,
    win0_8.index t (0 : Fin 2) = t.val ∧ win0_8.index t (1 : Fin 2) = 0
    ∧ win0_9.index t (0 : Fin 2) = t.val ∧ win0_9.index t (1 : Fin 2) = 0
    ∧ win0_10.index t (0 : Fin 3) = t.val / 125 ∧ win0_10.index t (1 : Fin 3) = 0 ∧ win0_10.index t (2 : Fin 3) = 0 :=
  (by decide +kernel : ∀ t : Fin grid0.N, _)

/-- Row `p` of row block `t` is a row of the array. -/
theorem row_lt (t : Fin cfg0.N) (p : Fin 2000) : t.val * 2000 + p.val < 500000 := by
  have hN : cfg0.N = 250 := N_0
  have ht := t.isLt
  have hp := p.isLt
  omega

/-- The row block that holds row `r` is a point of the grid. -/
theorem pt_lt (r : Fin 500000) : r.val / 2000 < cfg0.N := by
  rw [show cfg0.N = 250 from N_0]
  have hr := r.isLt
  omega

/-! ## The input blocks as rows of the arrays the region finds -/

/-- Window 0's block at point `t`, row `p`: row `2000 t + p` of its array. -/
theorem iblk0_0_apply (c : Dev nD) (t : Fin cfg0.N) (p : Fin 2000) (k : Fin 3) :
    (iblk0 V c 0 t : Vec F S2000x3 .f32) (ix2 p k)
      = (V c (Pipeline.arrRef spec0 0) : S500000x3.Idx → Elt F .f32) (ix2 ⟨t.val * 2000 + p.val, row_lt t p⟩ k) := by
  unfold iblk0
  rw [View.read_apply]
  show V c main_arg0 _ = V c main_arg0 _
  congr 1
  funext a
  apply Fin.ext
  match a with
  | ⟨0, _⟩ => show win0_0.index t 0 * 2000 + 1 * p.val = t.val * 2000 + p.val; rw [(idx_rows t).1]; omega
  | ⟨1, _⟩ => show win0_0.index t 1 * 3 + 1 * k.val = k.val; rw [(idx_rows t).2.1]; omega

/-- Window 1's block at point `t`, row `p`: row `2000 t + p` of its array. -/
theorem iblk0_1_apply (c : Dev nD) (t : Fin cfg0.N) (p : Fin 2000) (k : Fin 128) :
    (iblk0 V c 1 t : Vec F S2000x128 .f32) (ix2 p k)
      = (V c (Pipeline.arrRef spec0 1) : S500000x128.Idx → Elt F .f32) (ix2 ⟨t.val * 2000 + p.val, row_lt t p⟩ k) := by
  unfold iblk0
  rw [View.read_apply]
  show V c main_arg1 _ = V c main_arg1 _
  congr 1
  funext a
  apply Fin.ext
  match a with
  | ⟨0, _⟩ => show win0_1.index t 0 * 2000 + 1 * p.val = t.val * 2000 + p.val; rw [(idx_rows t).2.2.1]; omega
  | ⟨1, _⟩ => show win0_1.index t 1 * 128 + 1 * k.val = k.val; rw [(idx_rows t).2.2.2.1]; omega

/-- Window 2's block at point `t`, row `p`: row `2000 t + p` of its array. -/
theorem iblk0_2_apply (c : Dev nD) (t : Fin cfg0.N) (p : Fin 2000) (k : Fin 128) :
    (iblk0 V c 2 t : Vec F S2000x128 .f32) (ix2 p k)
      = (V c (Pipeline.arrRef spec0 2) : S500000x128.Idx → Elt F .f32) (ix2 ⟨t.val * 2000 + p.val, row_lt t p⟩ k) := by
  unfold iblk0
  rw [View.read_apply]
  show V c main_arg2 _ = V c main_arg2 _
  congr 1
  funext a
  apply Fin.ext
  match a with
  | ⟨0, _⟩ => show win0_2.index t 0 * 2000 + 1 * p.val = t.val * 2000 + p.val; rw [(idx_rows t).2.2.2.2.1]; omega
  | ⟨1, _⟩ => show win0_2.index t 1 * 128 + 1 * k.val = k.val; rw [(idx_rows t).2.2.2.2.2]; omega

/-- Window 3's block at every point is its whole array. -/
theorem iblk0_3_apply (c : Dev nD) (t : Fin cfg0.N) (p : Fin 512) (k : Fin 3) :
    (iblk0 V c 3 t : Vec F S512x3 .f32) (ix2 p k)
      = (V c (Pipeline.arrRef spec0 3) : S512x3.Idx → Elt F .f32) (ix2 p k) := by
  unfold iblk0
  rw [View.read_apply]
  show V c main_arg3 _ = V c main_arg3 _
  congr 1
  funext a
  apply Fin.ext
  match a with
  | ⟨0, _⟩ => show win0_3.index t 0 * 512 + 1 * p.val = p.val; rw [(idx_whole t).1]; omega
  | ⟨1, _⟩ => show win0_3.index t 1 * 3 + 1 * k.val = k.val; rw [(idx_whole t).2.1]; omega

/-- Window 4's block at every point is its whole array. -/
theorem iblk0_4_apply (c : Dev nD) (t : Fin cfg0.N) (p : Fin 512) (k : Fin 128) :
    (iblk0 V c 4 t : Vec F S512x128 .bf16) (ix2 p k)
      = (V c (Pipeline.arrRef spec0 4) : S512x128.Idx → Elt F .bf16) (ix2 p k) := by
  unfold iblk0
  rw [View.read_apply]
  show V c main_v2 _ = V c main_v2 _
  congr 1
  funext a
  apply Fin.ext
  match a with
  | ⟨0, _⟩ => show win0_4.index t 0 * 512 + 1 * p.val = p.val; rw [(idx_whole t).2.2.1]; omega
  | ⟨1, _⟩ => show win0_4.index t 1 * 128 + 1 * k.val = k.val; rw [(idx_whole t).2.2.2.1]; omega

/-- Window 5's block at every point is its whole array. -/
theorem iblk0_5_apply (c : Dev nD) (t : Fin cfg0.N) (p : Fin 512) (k : Fin 128) :
    (iblk0 V c 5 t : Vec F S512x128 .bf16) (ix2 p k)
      = (V c (Pipeline.arrRef spec0 5) : S512x128.Idx → Elt F .bf16) (ix2 p k) := by
  unfold iblk0
  rw [View.read_apply]
  show V c main_v5 _ = V c main_v5 _
  congr 1
  funext a
  apply Fin.ext
  match a with
  | ⟨0, _⟩ => show win0_5.index t 0 * 512 + 1 * p.val = p.val; rw [(idx_whole t).2.2.2.2.1]; omega
  | ⟨1, _⟩ => show win0_5.index t 1 * 128 + 1 * k.val = k.val; rw [(idx_whole t).2.2.2.2.2.1]; omega

/-- Window 6's block at every point is its whole array. -/
theorem iblk0_6_apply (c : Dev nD) (t : Fin cfg0.N) (p : Fin 1) (k : Fin 512) :
    (iblk0 V c 6 t : Vec F S1x512 .f32) (ix2 p k)
      = (V c (Pipeline.arrRef spec0 6) : S1x512.Idx → Elt F .f32) (ix2 p k) := by
  unfold iblk0
  rw [View.read_apply]
  show V c main_v0 _ = V c main_v0 _
  congr 1
  funext a
  apply Fin.ext
  match a with
  | ⟨0, _⟩ => show win0_6.index t 0 * 1 + 1 * p.val = p.val; rw [(idx_whole t).2.2.2.2.2.2.1]; omega
  | ⟨1, _⟩ => show win0_6.index t 1 * 512 + 1 * k.val = k.val; rw [(idx_whole t).2.2.2.2.2.2.2.1]; omega

/-- Window 7's block at every point is its whole array. -/
theorem iblk0_7_apply (c : Dev nD) (t : Fin cfg0.N) (p : Fin 1) (k : Fin 512) :
    (iblk0 V c 7 t : Vec F S1x512 .f32) (ix2 p k)
      = (V c (Pipeline.arrRef spec0 7) : S1x512.Idx → Elt F .f32) (ix2 p k) := by
  unfold iblk0
  rw [View.read_apply]
  show V c main_v1 _ = V c main_v1 _
  congr 1
  funext a
  apply Fin.ext
  match a with
  | ⟨0, _⟩ => show win0_7.index t 0 * 1 + 1 * p.val = p.val; rw [(idx_whole t).2.2.2.2.2.2.2.2.1]; omega
  | ⟨1, _⟩ => show win0_7.index t 1 * 512 + 1 * k.val = k.val; rw [(idx_whole t).2.2.2.2.2.2.2.2.2]; omega

end Cert.KernelIdeal.R0

end
-- ==== Proof.Region0Acc.lean ====
/-
  The per-core accumulator array of the fused region. The region visits 2 × 125 points, point t = 125·core + step; the
  accumulator's block index is the core, so its buffer is carried over a core's 125 points and written back to row
  `core` of the [2,1024,128] array after the core's last point. The array therefore ends holding, in row `core`, what
  the buffer held after point 125·core + 124.
-/
import proofs.«118881_j33947421507802_2_alg».proof.Proof.Gen.KernelIdeal.Frame
import Idealize.ShloMosaic.Lib.Pipeline.Value
import Idealize.ShloMosaic.Lib.ValueIdx

set_option maxRecDepth 16384

noncomputable section

namespace Cert.KernelIdeal.R0A

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The accumulator's index map over the grid: the block of point t is row t / 125, whole in the other two axes. -/
theorem idx_facts : ∀ t : Fin cfg0.N, win0_10.index t (0 : Fin 3) = t.val / 125
    ∧ win0_10.index t (1 : Fin 3) = 0 ∧ win0_10.index t (2 : Fin 3) = 0 :=
  (by decide +kernel : ∀ t : Fin grid0.N, _)

/-- The last point of a core. -/
def tLast (core : Fin 2) : Fin cfg0.N :=
  ⟨core.val * 125 + 124, by rw [show cfg0.N = 250 from N_0]; have := core.isLt; omega⟩

theorem tLast_val (core : Fin 2) : (tLast core).val = core.val * 125 + 124 := rfl

/-- What the array ends holding, from what the buffer holds after each point (`Q`): row `core` is the buffer after
    the core's last point. -/
def G (Q : Fin cfg0.N → Vec F S1x1024x128 .f32) : S2x1024x128.Idx → Elt F .f32 := fun i =>
  Q (tLast (i 0)) (ix3 (0 : Fin 1) (i 1) (i 2))

/-- `G` at an index of the block of a core's last point t, by the index's coordinates inside the block. -/
theorem G_at (Q : Fin cfg0.N → Vec F S1x1024x128 .f32) (t : Fin cfg0.N) (ht : t.val % 125 = 124)
    (i : S2x1024x128.Idx) (j : S1x1024x128.Idx)
    (h0 : (i 0).val = t.val / 125) (h1 : (i 1).val = (j 1).val) (h2 : (i 2).val = (j 2).val) :
    G Q i = Q t j := by
  have e : tLast (i 0) = t := Fin.ext (by show (i 0).val * 125 + 124 = t.val; omega)
  have hj : ix3 (0 : Fin 1) (i 1) (i 2) = j := by
    funext d
    match d with
    | ⟨0, _⟩ => exact Fin.ext (by show 0 = (j 0).val; have : (j 0).val < 1 := (j 0).isLt; omega)
    | ⟨1, _⟩ => exact Fin.ext h1
    | ⟨2, _⟩ => exact Fin.ext h2
  show Q (tLast (i 0)) (ix3 (0 : Fin 1) (i 1) (i 2)) = _
  rw [e]
  exact congrArg (Q t) hj

section
variable (c : Dev nD) (Q : Fin cfg0.N → Vec F S1x1024x128 .f32) (hQ : ∀ t, (dat0 V c).after 10 t = Q t)
include hQ

/-- WHAT A WRITING-BACK POINT t WRITES BACK is block t of `G`. -/
theorem flushed_eq (t : Fin cfg0.N) (hf : (cfg0.win 10).flush t = true) :
    (dat0 V c).flushed 10 t = ((cfg0.win 10).blk t).view.read (Elt F) (G Q) := by
  have ht : t.val % 125 = 124 := (flush0_10 t).mp hf
  obtain ⟨e0, e1, e2⟩ := idx_facts t
  show (cfg0.win 10).cut (grid0.coords t) ((dat0 V c).after 10 t) = _
  rw [hQ]
  funext j
  show Q t j = G Q (((cfg0.win 10).blk t).view.emb j)
  have hj0 : (j 0).val < 1 := (j 0).isLt
  refine (G_at Q t ht _ j ?_ ?_ ?_).symm
  · show win0_10.index t (0 : Fin 3) * 1 + 1 * (j 0).val = t.val / 125
    rw [e0]; omega
  · show win0_10.index t (1 : Fin 3) * 1024 + 1 * (j 1).val = (j 1).val
    rw [e1]; omega
  · show win0_10.index t (2 : Fin 3) * 128 + 1 * (j 2).val = (j 2).val
    rw [e2]; omega

end

/-- An index of the array is in point t's block iff each coordinate is in the block's range on its axis. -/
theorem mem_blk (t : Fin cfg0.N) (i : S2x1024x128.Idx) :
    i ∈ ((cfg0.win 10).blk t).view.set ↔ ∀ a : Fin 3, win0_10.index t a * S1x1024x128.size a ≤ (i a).val ∧ (i a).val < win0_10.index t a * S1x1024x128.size a + S1x1024x128.size a := by
  show i ∈ ((View.whole main_v6_2).slice (win0_10.rect t)).set ↔ _
  rw [View.set_slice_whole, Rect.mem_set_unit]
  exact Iff.rfl

/-- Every index is in the block of its row's last point, which writes back. -/
theorem cover (i : S2x1024x128.Idx) :
    ∃ t : Fin cfg0.N, (cfg0.win 10).flush t = true ∧ i ∈ ((cfg0.win 10).blk t).view.set := by
  have hi0 : (i 0).val < 2 := (i 0).isLt
  have hi1 : (i 1).val < 1024 := (i 1).isLt
  have hi2 : (i 2).val < 128 := (i 2).isLt
  have ht : (tLast (i 0)).val = (i 0).val * 125 + 124 := rfl
  refine ⟨tLast (i 0), (flush0_10 _).mpr (by rw [ht]; omega), ?_⟩
  rw [mem_blk]
  obtain ⟨e0, e1, e2⟩ := idx_facts (tLast (i 0))
  intro a
  match a with
  | ⟨0, _⟩ =>
    show win0_10.index (tLast (i 0)) (0 : Fin 3) * 1 ≤ (i 0).val ∧ (i 0).val < win0_10.index (tLast (i 0)) (0 : Fin 3) * 1 + 1
    rw [e0, ht]; omega
  | ⟨1, _⟩ =>
    show win0_10.index (tLast (i 0)) (1 : Fin 3) * 1024 ≤ (i 1).val ∧ (i 1).val < win0_10.index (tLast (i 0)) (1 : Fin 3) * 1024 + 1024
    rw [e1]; omega
  | ⟨2, _⟩ =>
    show win0_10.index (tLast (i 0)) (2 : Fin 3) * 128 ≤ (i 2).val ∧ (i 2).val < win0_10.index (tLast (i 0)) (2 : Fin 3) * 128 + 128
    rw [e2]; omega

/-- THE ACCUMULATOR ARRAY after the region is `G` of what the buffer holds after each point. -/
theorem arr10 (c : Dev nD) (Q : Fin cfg0.N → Vec F S1x1024x128 .f32) (hQ : ∀ t, (dat0 V c).after 10 t = Q t) :
    (dat0 V c).arrAt 10 cfg0.N = G Q :=
  (dat0 V c).arrAt_eq_of_cover 10 (G Q) (fun t hf => flushed_eq V c Q hQ t hf) cover

/-- Entry by entry: row `core` of the array is the buffer after point 125·core + 124. -/
theorem arr10_apply (c : Dev nD) (Q : Fin cfg0.N → Vec F S1x1024x128 .f32) (hQ : ∀ t, (dat0 V c).after 10 t = Q t)
    (core : Fin 2) (cc : Fin 1024) (j : Fin 128) :
    ((dat0 V c).arrAt 10 cfg0.N : S2x1024x128.Idx → Elt F .f32) (ix3 core cc j) = Q (tLast core) (ix3 (0 : Fin 1) cc j) := by
  rw [arr10 V c Q hQ]
  rfl

/-- The same with the point written out (any proof that it is a point of the grid). -/
theorem arr10_apply_lit (c : Dev nD) (Q : Fin cfg0.N → Vec F S1x1024x128 .f32) (hQ : ∀ t, (dat0 V c).after 10 t = Q t)
    (core : Fin 2) (cc : Fin 1024) (j : Fin 128) (h : core.val * 125 + 124 < cfg0.N) :
    ((dat0 V c).arrAt 10 cfg0.N : S2x1024x128.Idx → Elt F .f32) (ix3 core cc j)
      = Q ⟨core.val * 125 + 124, h⟩ (ix3 (0 : Fin 1) cc j) :=
  arr10_apply V c Q hQ core cc j

end Cert.KernelIdeal.R0A

end
-- ==== Proof.Region0Cover.lean ====
import proofs.«118881_j33947421507802_2_alg».proof.Proof.Gen.KernelIdeal.Frame
import Idealize.ShloMosaic.Lib.Pipeline.Value
import Idealize.ShloMosaic.Lib.ValueIdx

noncomputable section

namespace Cert.KernelIdeal.R0C

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! Region 0 has 250 points; windows 0, 1, 2 (inputs) and 8, 9 (outputs) cut their arrays into 250 blocks of 2000 rows,
    point `t` taking block `t`; windows 3 to 7 are whole arrays at every point. -/

theorem N0 : cfg0.N = 250 := N_0

/-- Row `p` of block `t` is a row of the array. -/
theorem row_lt (t : Fin cfg0.N) (p : Fin 2000) : t.val * 2000 + p.val < 500000 := by
  have h1 := t.isLt
  have h2 : cfg0.N = 250 := N_0
  have h3 := p.isLt
  omega

/-! ## The input blocks as rows of the entry arrays -/

theorem idx0_0 : ∀ t : Fin cfg0.N, win0_0.index t 0 = t.val ∧ win0_0.index t 1 = 0 :=
  (by decide +kernel : ∀ t : Fin grid0.N, win0_0.index t 0 = t.val ∧ win0_0.index t 1 = 0)

/-- Window 0's block at point `t`, at `(p, k)`, is the entry array at row `r = 2000 t + p`. -/
theorem iblk0_0_row (c : Dev nD) (t : Fin cfg0.N) (p : Fin 2000) (k : Fin 3) (r : Fin 500000)
    (hr : r.val = t.val * 2000 + p.val) :
    (iblk0 V c 0 t : Vec F S2000x3 .f32) (ix2 p k) = (V c (Pipeline.arrRef spec0 0) : Vec F S500000x3 .f32) (ix2 r k) := by
  have hi := idx0_0 t
  unfold iblk0
  rw [View.read_apply]
  show V c (Pipeline.arrRef spec0 0) _ = V c (Pipeline.arrRef spec0 0) _
  congr 1
  funext a
  apply Fin.ext
  match a with
  | ⟨0, _⟩ => show win0_0.index t 0 * 2000 + 1 * p.val = r.val; rw [hi.1]; omega
  | ⟨1, _⟩ => show win0_0.index t 1 * 3 + 1 * k.val = k.val; rw [hi.2]; omega

theorem iblk0_0_apply (c : Dev nD) (t : Fin cfg0.N) (p : Fin 2000) (k : Fin 3) :
    (iblk0 V c 0 t : Vec F S2000x3 .f32) (ix2 p k)
      = (V c (Pipeline.arrRef spec0 0) : Vec F S500000x3 .f32) (ix2 ⟨t.val * 2000 + p.val, row_lt t p⟩ k) :=
  iblk0_0_row V c t p k _ rfl

theorem idx0_1 : ∀ t : Fin cfg0.N, win0_1.index t 0 = t.val ∧ win0_1.index t 1 = 0 :=
  (by decide +kernel : ∀ t : Fin grid0.N, win0_1.index t 0 = t.val ∧ win0_1.index t 1 = 0)

/-- Window 1's block at point `t`, at `(p, k)`, is the entry array at row `r = 2000 t + p`. -/
theorem iblk0_1_row (c : Dev nD) (t : Fin cfg0.N) (p : Fin 2000) (k : Fin 128) (r : Fin 500000)
    (hr : r.val = t.val * 2000 + p.val) :
    (iblk0 V c 1 t : Vec F S2000x128 .f32) (ix2 p k) = (V c (Pipeline.arrRef spec0 1) : Vec F S500000x128 .f32) (ix2 r k) := by
  have hi := idx0_1 t
  unfold iblk0
  rw [View.read_apply]
  show V c (Pipeline.arrRef spec0 1) _ = V c (Pipeline.arrRef spec0 1) _
  congr 1
  funext a
  apply Fin.ext
  match a with
  | ⟨0, _⟩ => show win0_1.index t 0 * 2000 + 1 * p.val = r.val; rw [hi.1]; omega
  | ⟨1, _⟩ => show win0_1.index t 1 * 128 + 1 * k.val = k.val; rw [hi.2]; omega

theorem iblk0_1_apply (c : Dev nD) (t : Fin cfg0.N) (p : Fin 2000) (k : Fin 128) :
    (iblk0 V c 1 t : Vec F S2000x128 .f32) (ix2 p k)
      = (V c (Pipeline.arrRef spec0 1) : Vec F S500000x128 .f32) (ix2 ⟨t.val * 2000 + p.val, row_lt t p⟩ k) :=
  iblk0_1_row V c t p k _ rfl

theorem idx0_2 : ∀ t : Fin cfg0.N, win0_2.index t 0 = t.val ∧ win0_2.index t 1 = 0 :=
  (by decide +kernel : ∀ t : Fin grid0.N, win0_2.index t 0 = t.val ∧ win0_2.index t 1 = 0)

/-- Window 2's block at point `t`, at `(p, k)`, is the entry array at row `r = 2000 t + p`. -/
theorem iblk0_2_row (c : Dev nD) (t : Fin cfg0.N) (p : Fin 2000) (k : Fin 128) (r : Fin 500000)
    (hr : r.val = t.val * 2000 + p.val) :
    (iblk0 V c 2 t : Vec F S2000x128 .f32) (ix2 p k) = (V c (Pipeline.arrRef spec0 2) : Vec F S500000x128 .f32) (ix2 r k) := by
  have hi := idx0_2 t
  unfold iblk0
  rw [View.read_apply]
  show V c (Pipeline.arrRef spec0 2) _ = V c (Pipeline.arrRef spec0 2) _
  congr 1
  funext a
  apply Fin.ext
  match a with
  | ⟨0, _⟩ => show win0_2.index t 0 * 2000 + 1 * p.val = r.val; rw [hi.1]; omega
  | ⟨1, _⟩ => show win0_2.index t 1 * 128 + 1 * k.val = k.val; rw [hi.2]; omega

theorem iblk0_2_apply (c : Dev nD) (t : Fin cfg0.N) (p : Fin 2000) (k : Fin 128) :
    (iblk0 V c 2 t : Vec F S2000x128 .f32) (ix2 p k)
      = (V c (Pipeline.arrRef spec0 2) : Vec F S500000x128 .f32) (ix2 ⟨t.val * 2000 + p.val, row_lt t p⟩ k) :=
  iblk0_2_row V c t p k _ rfl

/-! ## The whole-array windows -/

theorem idx0_3 : ∀ t : Fin cfg0.N, win0_3.index t 0 = 0 ∧ win0_3.index t 1 = 0 :=
  (by decide +kernel : ∀ t : Fin grid0.N, win0_3.index t 0 = 0 ∧ win0_3.index t 1 = 0)

/-- Window 3's block at every point is the whole entry array. -/
theorem iblk0_3_apply (c : Dev nD) (t : Fin cfg0.N) (a : Fin 512) (b : Fin 3) :
    (iblk0 V c 3 t : Vec F S512x3 .f32) (ix2 a b) = (V c (Pipeline.arrRef spec0 3) : Vec F S512x3 .f32) (ix2 a b) := by
  have hi := idx0_3 t
  unfold iblk0
  rw [View.read_apply]
  show V c (Pipeline.arrRef spec0 3) _ = V c (Pipeline.arrRef spec0 3) _
  congr 1
  funext x
  apply Fin.ext
  match x with
  | ⟨0, _⟩ => show win0_3.index t 0 * 512 + 1 * a.val = a.val; rw [hi.1]; omega
  | ⟨1, _⟩ => show win0_3.index t 1 * 3 + 1 * b.val = b.val; rw [hi.2]; omega

theorem idx0_4 : ∀ t : Fin cfg0.N, win0_4.index t 0 = 0 ∧ win0_4.index t 1 = 0 :=
  (by decide +kernel : ∀ t : Fin grid0.N, win0_4.index t 0 = 0 ∧ win0_4.index t 1 = 0)

/-- Window 4's block at every point is the whole entry array. -/
theorem iblk0_4_apply (c : Dev nD) (t : Fin cfg0.N) (a : Fin 512) (b : Fin 128) :
    (iblk0 V c 4 t : Vec F S512x128 .bf16) (ix2 a b) = (V c (Pipeline.arrRef spec0 4) : Vec F S512x128 .bf16) (ix2 a b) := by
  have hi := idx0_4 t
  unfold iblk0
  rw [View.read_apply]
  show V c (Pipeline.arrRef spec0 4) _ = V c (Pipeline.arrRef spec0 4) _
  congr 1
  funext x
  apply Fin.ext
  match x with
  | ⟨0, _⟩ => show win0_4.index t 0 * 512 + 1 * a.val = a.val; rw [hi.1]; omega
  | ⟨1, _⟩ => show win0_4.index t 1 * 128 + 1 * b.val = b.val; rw [hi.2]; omega

theorem idx0_5 : ∀ t : Fin cfg0.N, win0_5.index t 0 = 0 ∧ win0_5.index t 1 = 0 :=
  (by decide +kernel : ∀ t : Fin grid0.N, win0_5.index t 0 = 0 ∧ win0_5.index t 1 = 0)

/-- Window 5's block at every point is the whole entry array. -/
theorem iblk0_5_apply (c : Dev nD) (t : Fin cfg0.N) (a : Fin 512) (b : Fin 128) :
    (iblk0 V c 5 t : Vec F S512x128 .bf16) (ix2 a b) = (V c (Pipeline.arrRef spec0 5) : Vec F S512x128 .bf16) (ix2 a b) := by
  have hi := idx0_5 t
  unfold iblk0
  rw [View.read_apply]
  show V c (Pipeline.arrRef spec0 5) _ = V c (Pipeline.arrRef spec0 5) _
  congr 1
  funext x
  apply Fin.ext
  match x with
  | ⟨0, _⟩ => show win0_5.index t 0 * 512 + 1 * a.val = a.val; rw [hi.1]; omega
  | ⟨1, _⟩ => show win0_5.index t 1 * 128 + 1 * b.val = b.val; rw [hi.2]; omega

theorem idx0_6 : ∀ t : Fin cfg0.N, win0_6.index t 0 = 0 ∧ win0_6.index t 1 = 0 :=
  (by decide +kernel : ∀ t : Fin grid0.N, win0_6.index t 0 = 0 ∧ win0_6.index t 1 = 0)

/-- Window 6's block at every point is the whole entry array. -/
theorem iblk0_6_apply (c : Dev nD) (t : Fin cfg0.N) (a : Fin 1) (b : Fin 512) :
    (iblk0 V c 6 t : Vec F S1x512 .f32) (ix2 a b) = (V c (Pipeline.arrRef spec0 6) : Vec F S1x512 .f32) (ix2 a b) := by
  have hi := idx0_6 t
  unfold iblk0
  rw [View.read_apply]
  show V c (Pipeline.arrRef spec0 6) _ = V c (Pipeline.arrRef spec0 6) _
  congr 1
  funext x
  apply Fin.ext
  match x with
  | ⟨0, _⟩ => show win0_6.index t 0 * 1 + 1 * a.val = a.val; rw [hi.1]; omega
  | ⟨1, _⟩ => show win0_6.index t 1 * 512 + 1 * b.val = b.val; rw [hi.2]; omega

theorem idx0_7 : ∀ t : Fin cfg0.N, win0_7.index t 0 = 0 ∧ win0_7.index t 1 = 0 :=
  (by decide +kernel : ∀ t : Fin grid0.N, win0_7.index t 0 = 0 ∧ win0_7.index t 1 = 0)

/-- Window 7's block at every point is the whole entry array. -/
theorem iblk0_7_apply (c : Dev nD) (t : Fin cfg0.N) (a : Fin 1) (b : Fin 512) :
    (iblk0 V c 7 t : Vec F S1x512 .f32) (ix2 a b) = (V c (Pipeline.arrRef spec0 7) : Vec F S1x512 .f32) (ix2 a b) := by
  have hi := idx0_7 t
  unfold iblk0
  rw [View.read_apply]
  show V c (Pipeline.arrRef spec0 7) _ = V c (Pipeline.arrRef spec0 7) _
  congr 1
  funext x
  apply Fin.ext
  match x with
  | ⟨0, _⟩ => show win0_7.index t 0 * 1 + 1 * a.val = a.val; rw [hi.1]; omega
  | ⟨1, _⟩ => show win0_7.index t 1 * 512 + 1 * b.val = b.val; rw [hi.2]; omega

/-! ## The two per-point output arrays, by the cover -/

/-- The block of row `r` is one of the 250. -/
theorem blk_lt {r : Nat} (h : r < 500000) : r / 2000 < cfg0.N := by
  have h2 : cfg0.N = 250 := N_0
  omega

theorem idx0_8 : ∀ t : Fin cfg0.N, win0_8.index t 0 = t.val ∧ win0_8.index t 1 = 0 :=
  (by decide +kernel : ∀ t : Fin grid0.N, win0_8.index t 0 = t.val ∧ win0_8.index t 1 = 0)

/-- The whole array whose block `t` is `Q t`: row `r` is row `r % 2000` of block `r / 2000`. -/
def G8 (Q : Fin cfg0.N → Vec F S2000x128 .f32) : Vec F S500000x128 .f32 :=
  fun i => Q ⟨(i 0).val / 2000, blk_lt (idx2_lt0 i)⟩ (ix2 ⟨(i 0).val % 2000, Nat.mod_lt _ (by decide)⟩ (i 1))

/-- What point `t` writes back to window 8's array is block `t` of that array. -/
theorem flushed8_eq (c : Dev nD) (Q : Fin cfg0.N → Vec F S2000x128 .f32) (hQ : ∀ t, (dat0 V c).after 8 t = Q t) (t : Fin cfg0.N) :
    (dat0 V c).flushed 8 t = ((cfg0.win 8).blk t).view.read (Elt F) (G8 Q) := by
  have hi := idx0_8 t
  show (cfg0.win 8).cut (grid0.coords t) ((dat0 V c).after 8 t) = _
  rw [hQ]
  funext y
  rw [View.read_apply]
  show Q t y = G8 Q (((cfg0.win 8).blk t).view.emb y)
  unfold G8
  have hy0 : (y 0).val < 2000 := (y 0).isLt
  have e0 : ((((cfg0.win 8).blk t).view.emb y) 0).val = t.val * 2000 + (y 0).val := by
    show win0_8.index t 0 * 2000 + 1 * (y 0).val = _
    rw [hi.1]; omega
  have e1 : ((((cfg0.win 8).blk t).view.emb y) 1).val = (y 1).val := by
    show win0_8.index t 1 * 128 + 1 * (y 1).val = _
    rw [hi.2]; omega
  have key : ∀ (t' : Fin cfg0.N) (y' : S2000x128.Idx), t' = t → y' = y → Q t y = Q t' y' :=
    fun _ _ h1 h2 => by rw [h1, h2]
  refine key _ _ (Fin.ext ?_) (funext fun a => Fin.ext ?_)
  · show ((((cfg0.win 8).blk t).view.emb y) 0).val / 2000 = t.val
    rw [e0]; omega
  · match a with
    | ⟨0, _⟩ =>
      show ((((cfg0.win 8).blk t).view.emb y) 0).val % 2000 = (y 0).val
      rw [e0]; omega
    | ⟨1, _⟩ => exact e1

/-- An index of the array is in point `t`'s block iff each coordinate is in the block's range on its axis. -/
theorem mem_blk8 (t : Fin cfg0.N) (i : S500000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v6_0).slice (win0_8.rect t)).set ↔ _
  rw [View.set_slice_whole, Rect.mem_set_unit]
  exact Iff.rfl

/-- Every row is in the block of the point `r / 2000`, which writes back. -/
theorem cover8 (i : S500000x128.Idx) : ∃ t : Fin cfg0.N, (cfg0.win 8).flush t = true ∧ i ∈ ((cfg0.win 8).blk t).view.set := by
  have h0 : (i 0).val < 500000 := idx2_lt0 i
  have h1 : (i 1).val < 128 := idx2_lt1 i
  refine ⟨⟨(i 0).val / 2000, blk_lt h0⟩, flush0_8 _, ?_⟩
  rw [mem_blk8]
  have hi := idx0_8 ⟨(i 0).val / 2000, blk_lt h0⟩
  intro a
  match a with
  | ⟨0, _⟩ =>
    show win0_8.index ⟨(i 0).val / 2000, blk_lt h0⟩ 0 * 2000 ≤ (i 0).val
      ∧ (i 0).val < win0_8.index ⟨(i 0).val / 2000, blk_lt h0⟩ 0 * 2000 + 2000
    rw [hi.1]
    show (i 0).val / 2000 * 2000 ≤ (i 0).val ∧ (i 0).val < (i 0).val / 2000 * 2000 + 2000
    omega
  | ⟨1, _⟩ =>
    show win0_8.index ⟨(i 0).val / 2000, blk_lt h0⟩ 1 * 128 ≤ (i 1).val
      ∧ (i 1).val < win0_8.index ⟨(i 0).val / 2000, blk_lt h0⟩ 1 * 128 + 128
    rw [hi.2]
    omega

/-- The array window 8 leaves after the 250 points: block `t` is `Q t`. -/
theorem final8 (c : Dev nD) (Q : Fin cfg0.N → Vec F S2000x128 .f32) (hQ : ∀ t, (dat0 V c).after 8 t = Q t) :
    (dat0 V c).arrAt 8 cfg0.N = G8 Q :=
  (dat0 V c).arrAt_eq_of_cover 8 (G8 Q) (fun t _ => flushed8_eq V c Q hQ t) cover8

theorem arr8_apply (c : Dev nD) (Q : Fin cfg0.N → Vec F S2000x128 .f32) (hQ : ∀ t, (dat0 V c).after 8 t = Q t)
    (r : Fin 500000) (j : Fin 128) :
    ((dat0 V c).arrAt 8 cfg0.N : Vec F S500000x128 .f32) (ix2 r j)
      = Q ⟨r.val / 2000, blk_lt r.isLt⟩ (ix2 ⟨r.val % 2000, Nat.mod_lt _ (by decide)⟩ j) := by
  rw [final8 V c Q hQ]
  rfl

theorem idx0_9 : ∀ t : Fin cfg0.N, win0_9.index t 0 = t.val ∧ win0_9.index t 1 = 0 :=
  (by decide +kernel : ∀ t : Fin grid0.N, win0_9.index t 0 = t.val ∧ win0_9.index t 1 = 0)

/-- The whole array whose block `t` is `Q t`: row `r` is row `r % 2000` of block `r / 2000`. -/
def G9 (Q : Fin cfg0.N → Vec F S2000x1 .i32) : Vec F S500000x1 .i32 :=
  fun i => Q ⟨(i 0).val / 2000, blk_lt (idx2_lt0 i)⟩ (ix2 ⟨(i 0).val % 2000, Nat.mod_lt _ (by decide)⟩ (i 1))

/-- What point `t` writes back to window 9's array is block `t` of that array. -/
theorem flushed9_eq (c : Dev nD) (Q : Fin cfg0.N → Vec F S2000x1 .i32) (hQ : ∀ t, (dat0 V c).after 9 t = Q t) (t : Fin cfg0.N) :
    (dat0 V c).flushed 9 t = ((cfg0.win 9).blk t).view.read (Elt F) (G9 Q) := by
  have hi := idx0_9 t
  show (cfg0.win 9).cut (grid0.coords t) ((dat0 V c).after 9 t) = _
  rw [hQ]
  funext y
  rw [View.read_apply]
  show Q t y = G9 Q (((cfg0.win 9).blk t).view.emb y)
  unfold G9
  have hy0 : (y 0).val < 2000 := (y 0).isLt
  have e0 : ((((cfg0.win 9).blk t).view.emb y) 0).val = t.val * 2000 + (y 0).val := by
    show win0_9.index t 0 * 2000 + 1 * (y 0).val = _
    rw [hi.1]; omega
  have e1 : ((((cfg0.win 9).blk t).view.emb y) 1).val = (y 1).val := by
    show win0_9.index t 1 * 1 + 1 * (y 1).val = _
    rw [hi.2]; omega
  have key : ∀ (t' : Fin cfg0.N) (y' : S2000x1.Idx), t' = t → y' = y → Q t y = Q t' y' :=
    fun _ _ h1 h2 => by rw [h1, h2]
  refine key _ _ (Fin.ext ?_) (funext fun a => Fin.ext ?_)
  · show ((((cfg0.win 9).blk t).view.emb y) 0).val / 2000 = t.val
    rw [e0]; omega
  · match a with
    | ⟨0, _⟩ =>
      show ((((cfg0.win 9).blk t).view.emb y) 0).val % 2000 = (y 0).val
      rw [e0]; omega
    | ⟨1, _⟩ => exact e1

/-- An index of the array is in point `t`'s block iff each coordinate is in the block's range on its axis. -/
theorem mem_blk9 (t : Fin cfg0.N) (i : S500000x1.Idx) :
    i ∈ ((cfg0.win 9).blk t).view.set ↔ ∀ a : Fin 2, win0_9.index t a * S2000x1.size a ≤ (i a).val
      ∧ (i a).val < win0_9.index t a * S2000x1.size a + S2000x1.size a := by
  show i ∈ ((View.whole main_v6_1).slice (win0_9.rect t)).set ↔ _
  rw [View.set_slice_whole, Rect.mem_set_unit]
  exact Iff.rfl

/-- Every row is in the block of the point `r / 2000`, which writes back. -/
theorem cover9 (i : S500000x1.Idx) : ∃ t : Fin cfg0.N, (cfg0.win 9).flush t = true ∧ i ∈ ((cfg0.win 9).blk t).view.set := by
  have h0 : (i 0).val < 500000 := idx2_lt0 i
  have h1 : (i 1).val < 1 := idx2_lt1 i
  refine ⟨⟨(i 0).val / 2000, blk_lt h0⟩, flush0_9 _, ?_⟩
  rw [mem_blk9]
  have hi := idx0_9 ⟨(i 0).val / 2000, blk_lt h0⟩
  intro a
  match a with
  | ⟨0, _⟩ =>
    show win0_9.index ⟨(i 0).val / 2000, blk_lt h0⟩ 0 * 2000 ≤ (i 0).val
      ∧ (i 0).val < win0_9.index ⟨(i 0).val / 2000, blk_lt h0⟩ 0 * 2000 + 2000
    rw [hi.1]
    show (i 0).val / 2000 * 2000 ≤ (i 0).val ∧ (i 0).val < (i 0).val / 2000 * 2000 + 2000
    omega
  | ⟨1, _⟩ =>
    show win0_9.index ⟨(i 0).val / 2000, blk_lt h0⟩ 1 * 1 ≤ (i 1).val
      ∧ (i 1).val < win0_9.index ⟨(i 0).val / 2000, blk_lt h0⟩ 1 * 1 + 1
    rw [hi.2]
    omega

/-- The array window 9 leaves after the 250 points: block `t` is `Q t`. -/
theorem final9 (c : Dev nD) (Q : Fin cfg0.N → Vec F S2000x1 .i32) (hQ : ∀ t, (dat0 V c).after 9 t = Q t) :
    (dat0 V c).arrAt 9 cfg0.N = G9 Q :=
  (dat0 V c).arrAt_eq_of_cover 9 (G9 Q) (fun t _ => flushed9_eq V c Q hQ t) cover9

theorem arr9_apply (c : Dev nD) (Q : Fin cfg0.N → Vec F S2000x1 .i32) (hQ : ∀ t, (dat0 V c).after 9 t = Q t)
    (r : Fin 500000) :
    ((dat0 V c).arrAt 9 cfg0.N : Vec F S500000x1 .i32) (ix2 r (0 : Fin 1))
      = Q ⟨r.val / 2000, blk_lt r.isLt⟩ (ix2 ⟨r.val % 2000, Nat.mod_lt _ (by decide)⟩ (0 : Fin 1)) := by
  rw [final9 V c Q hQ]
  rfl

end Cert.KernelIdeal.R0C

end
-- ==== Proof.KernelRegion0.lean ====
/-
  Region 0's three output arrays as the specification's functions of the argument arrays.
  Every grid point's input blocks hold the point's 2000 rows of the arguments (and the whole weight and bias arrays),
  so the body's per-point values are the specification at those rows; the new cell state and the cell numbers are written
  back point by point, and the per-core table, zeroed at a core's first point and carried through its 125 points, ends
  as the zero literal plus the sum of the core's 125 block updates.
-/
import proofs.«118881_j33947421507802_2_alg».proof.Proof.Region0b
import proofs.«118881_j33947421507802_2_alg».proof.Proof.Region0Rows
import proofs.«118881_j33947421507802_2_alg».proof.Proof.Region0Acc
import proofs.«118881_j33947421507802_2_alg».proof.Proof.Region0Cover
import proofs.«118881_j33947421507802_2_alg».proof.Proof.KernelFold
import proofs.«118881_j33947421507802_2_alg».proof.Proof.KernelGlue
import proofs.«118881_j33947421507802_2_alg».proof.Proof.KernelRows
import proofs.«118881_j33947421507802_2_alg».proof.Proof.KernelSocial
import proofs.«118881_j33947421507802_2_alg».proof.Proof.Algebra2

set_option maxRecDepth 16384

noncomputable section

open scoped BigOperators

namespace Cert.KernelIdeal.Reg0

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-- A grid point as a block number below 250. -/
def pt (t : Fin cfg0.N) : Fin 250 := ⟨t.val, lt_of_lt_of_eq t.isLt N_0⟩

/-- At every grid point the input blocks hold the point's rows of the arguments. -/
theorem holds (t : Fin cfg0.N) :
    Rows.Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (pt t)
      (iblk0 (V1 m ρ) c 0 t) (iblk0 (V1 m ρ) c 1 t) (iblk0 (V1 m ρ) c 2 t) (iblk0 (V1 m ρ) c 4 t) (iblk0 (V1 m ρ) c 5 t)
      (iblk0 (V1 m ρ) c 3 t) (iblk0 (V1 m ρ) c 6 t) (iblk0 (V1 m ρ) c 7 t) where
  coords p k := (R0.iblk0_0_apply (V1 m ρ) c t p k).trans (congrFun (Fold.ent0_coords m ρ c) _)
  hidden p k := (R0.iblk0_1_apply (V1 m ρ) c t p k).trans (congrFun (Fold.ent0_hidden m ρ c) _)
  cell p k := (R0.iblk0_2_apply (V1 m ρ) c t p k).trans (congrFun (Fold.ent0_cell m ρ c) _)
  wih n k := (R0.iblk0_3_apply (V1 m ρ) c t n k).trans (congrFun (Fold.ent0_wih m ρ c) _)
  whi n k := (R0.iblk0_4_apply (V1 m ρ) c t n k).trans (congrFun (Fold.ent0_whi m ρ c) _)
  wlo n k := (R0.iblk0_5_apply (V1 m ρ) c t n k).trans (congrFun (Fold.ent0_wlo m ρ c) _)
  bih n := (R0.iblk0_6_apply (V1 m ρ) c t 0 n).trans ((congrFun (Fold.ent0_bih m ρ c) _).trans (Glue.bias_row _ _ n))
  bhh n := (R0.iblk0_7_apply (V1 m ρ) c t 0 n).trans ((congrFun (Fold.ent0_bhh m ρ c) _).trans (Glue.bias_row _ _ n))

/-- The update of block `i` of a core, as a sequence (zero past the core's 125 blocks). -/
def U (core : Fin 2) (cc : Fin 1024) (j : Fin 128) : ℕ → EReal := fun i =>
  if h : i < 125 then Rows.upd (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Social.blk core ⟨i, h⟩) cc j else 0

theorem lt_N (core : Fin 2) (i : ℕ) (hi : i < 125) : core.val * 125 + i < cfg0.N := by
  rw [show cfg0.N = 250 from N_0]; have := core.isLt; omega

/-- One accumulator step at a point of the core's run: the carried entry plus the block's update. -/
theorem step_at (h1 : ∀ i, ∃ q : ℝ, (m ((c : Thread nD τ).loc main_arg1) : S500000x128.Idx → EReal) i = (q : EReal))
    (h4 : ∀ i, ∃ q : ℝ, (m ((c : Thread nD τ).loc main_arg4) : S512x128.Idx → EReal) i = (q : EReal))
    (core : Fin 2) (i : ℕ) (hi : i < 125) (xo : Vec Ideal S1x1024x128 .f32) (cc : Fin 1024) (j : Fin 128) :
    R0.upd (V1 m ρ) c ⟨core.val * 125 + i, lt_N core i hi⟩ xo (ix3 (0 : Fin 1) cc j)
      = xo (ix3 0 cc j) + U m c core cc j i := by
  have H := holds m ρ c ⟨core.val * 125 + i, lt_N core i hi⟩
  have e := Rows.acc_blk H h1 h4 xo cc j
  unfold U
  rw [dif_pos hi]
  exact e

/-- The table's entry after block `i` of the core is the running sum of the updates from the zero literal. -/
theorem acc_chain (h1 : ∀ i, ∃ q : ℝ, (m ((c : Thread nD τ).loc main_arg1) : S500000x128.Idx → EReal) i = (q : EReal))
    (h4 : ∀ i, ∃ q : ℝ, (m ((c : Thread nD τ).loc main_arg4) : S512x128.Idx → EReal) i = (q : EReal))
    (core : Fin 2) (cc : Fin 1024) (j : Fin 128) : ∀ (i : ℕ) (hi : i < 125),
    R0.acc (V1 m ρ) c (core.val * 125 + i) (lt_N core i hi) (ix3 (0 : Fin 1) cc j)
      = Cert.Alg.chain Cert.Spec.zero (U m c core cc j) i
  | 0, hi => by
    rw [R0.acc_reset (V1 m ρ) c (core.val * 125 + 0) (lt_N core 0 hi) (by omega)]
    rw [step_at m ρ c h1 h4 core 0 hi, Pay.pay3_apply]
    rfl
  | i + 1, hi => by
    have hi' : i < 125 := by omega
    have e : R0.acc (V1 m ρ) c (core.val * 125 + (i + 1)) (lt_N core (i + 1) hi)
        = R0.upd (V1 m ρ) c ⟨core.val * 125 + (i + 1), lt_N core (i + 1) hi⟩ (R0.acc (V1 m ρ) c (core.val * 125 + i) (lt_N core i hi')) :=
      R0.acc_succ_step (V1 m ρ) c (core.val * 125 + i) (lt_N core (i + 1) hi) (by omega)
    rw [e, step_at m ρ c h1 h4 core (i + 1) hi, acc_chain h1 h4 core cc j i hi']
    rfl

/-- The per-core table region 0 leaves: the zero literal plus the core's 125 block updates. -/
theorem table (h1 : ∀ i, ∃ q : ℝ, (m ((c : Thread nD τ).loc main_arg1) : S500000x128.Idx → EReal) i = (q : EReal))
    (h4 : ∀ i, ∃ q : ℝ, (m ((c : Thread nD τ).loc main_arg4) : S512x128.Idx → EReal) i = (q : EReal))
    (core : Fin 2) (cc : Fin 1024) (j : Fin 128) :
    Social.tab0 m ρ c (ix3 core cc j)
      = Cert.Spec.zero + ∑ i : Fin 125, Rows.upd (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (Social.blk core i) cc j := by
  have e := R0A.arr10_apply_lit (V1 m ρ) c (fun t => R0.acc (V1 m ρ) c t.val t.isLt) (R0.after10_eq (V1 m ρ) c) core cc j (lt_N core 124 (by omega))
  refine e.trans ?_
  rw [acc_chain m ρ c h1 h4 core cc j 124 (by omega), Cert.Alg.chain_eq_fin]
  refine congrArg₂ (· + ·) rfl (Finset.sum_congr rfl fun i _ => ?_)
  unfold U
  rw [dif_pos i.isLt]

/-- The cell-number array region 0 leaves is the specification's cell word of every row. -/
theorem ids (r : Fin 500000) :
    Social.ids0 m ρ c (ix2 r (0 : Fin 1)) = cellWord (m ((c : Thread nD τ).loc main_arg0)) r := by
  have e := R0C.arr9_apply (V1 m ρ) c (R0.cellWd (V1 m ρ) c) (R0.after9_eq (V1 m ρ) c) r
  refine e.trans ?_
  refine (Rows.word_blk (holds m ρ c ⟨r.val / 2000, R0C.blk_lt r.isLt⟩) ⟨r.val % 2000, Nat.mod_lt _ (by decide)⟩).trans ?_
  refine congrArg (cellWord (m ((c : Thread nD τ).loc main_arg0))) (Fin.ext ?_)
  show r.val / 2000 * 2000 + r.val % 2000 = r.val
  omega

/-- The new-cell-state array region 0 leaves is the specification's second result. -/
theorem cstate_eq (h1 : ∀ i, ∃ q : ℝ, (m ((c : Thread nD τ).loc main_arg1) : S500000x128.Idx → EReal) i = (q : EReal))
    (h4 : ∀ i, ∃ q : ℝ, (m ((c : Thread nD τ).loc main_arg4) : S512x128.Idx → EReal) i = (q : EReal)) :
    (dat0 (V1 m ρ) c).arrAt 8 cfg0.N = cstate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨r, j, rfl⟩ : ∃ (r : Fin 500000) (j : Fin 128), i = ix2 r j := ⟨i 0, i 1, eq_ix2 i⟩
  have e := R0C.arr8_apply (V1 m ρ) c (R0.cellNew (V1 m ρ) c) (R0.after8_eq (V1 m ρ) c) r j
  refine e.trans ?_
  refine (Rows.cnew_blk (holds m ρ c ⟨r.val / 2000, R0C.blk_lt r.isLt⟩) h1 h4 ⟨r.val % 2000, Nat.mod_lt _ (by decide)⟩ j).trans ?_
  refine congrArg (fun r' => cnew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r' j) (Fin.ext ?_)
  show r.val / 2000 * 2000 + r.val % 2000 = r.val
  omega

end Cert.KernelIdeal.Reg0

end
-- ==== Proof.Finite.lean ====
/-
  Finiteness of the argument arrays, read out of the precondition: the precondition is the conjunction, over the seven
  argument arrays, of "every entry has absolute value below +∞"; an extended real whose absolute value is below +∞ is a real.
-/
import proofs.«118881_j33947421507802_2_alg».proof.Defs
import proofs.«118881_j33947421507802_2_alg».proof.Proof.Gen.Pre_finite_inputs
import Idealize.ShloMosaic.Lib.ReduceAll

noncomputable section

namespace Cert.Finite

open Idealize.ShloMosaic Cert.Pre_finite_inputs

/-- The rank-0 shape has one index. -/
instance : Subsingleton S_.Idx := ⟨fun a b => funext fun d => d.elim0⟩

/-- The word 0x7F800000 denotes +∞. -/
theorem inf_eq_top : Ideal.ofBits .f32 0x7F800000#32 = (⊤ : EReal) := by
  simp [Ideal.ofBits, Ideal.ieee]

/-- An extended real whose absolute value max x (-x) is below +∞ is a real. -/
theorem real_of_abs_lt (x : EReal)
    (h : Ideal.cmp .olt (max x (-x)) (Ideal.ofBits .f32 0x7F800000#32) = 1#1) : ∃ q : ℝ, x = (q : EReal) := by
  rw [inf_eq_top] at h
  unfold Ideal.cmp at h
  induction x using EReal.rec with
  | bot => simp at h
  | coe q => exact ⟨q, rfl⟩
  | top => simp at h

/-- One conjunct of the precondition, "all |x| < +∞" over an array of any shape, gives that every entry is a real. -/
theorem all_real {s : Shape} {axes : List (Fin s.rank)} (a : FVec Ideal s .f32) (b : FVec Ideal s .f32)
    (hb : ∀ i, b i = Ideal.ofBits .f32 0x7F800000#32) (init : IVec S_ 1)
    (hr : s.ReducesTo axes S_) (hu : 0 < S_.numel) (j : S_.Idx)
    (e : Host.reduce IntOp.andi (cmpf .olt (Host.absf a) b) init hr hu j = 1#1) (i : s.Idx) :
    ∃ q : ℝ, a i = (q : EReal) := by
  have h := Host.reduce_andi_all _ init hr hu j e i
  refine real_of_abs_lt (a i) ?_
  have hbi := hb i
  rw [← hbi]
  exact h

/-- THE PRECONDITION DECODED: every entry of each of the seven argument arrays is a real. -/
theorem finite_of_pre (a0 : FVec Ideal S500000x3 .f32) (a1 a2 : FVec Ideal S500000x128 .f32) (a3 : FVec Ideal S512x3 .f32)
    (a4 : FVec Ideal S512x128 .f32) (a5 a6 : FVec Ideal S512 .f32)
    (h : fn (F := Ideal) a0 a1 a2 a3 a4 a5 a6 = (fun _ => 1#1)) :
    (∀ i, ∃ q : ℝ, a0 i = (q : EReal)) ∧ (∀ i, ∃ q : ℝ, a1 i = (q : EReal)) ∧ (∀ i, ∃ q : ℝ, a2 i = (q : EReal))
      ∧ (∀ i, ∃ q : ℝ, a3 i = (q : EReal)) ∧ (∀ i, ∃ q : ℝ, a4 i = (q : EReal)) ∧ (∀ i, ∃ q : ℝ, a5 i = (q : EReal))
      ∧ (∀ i, ∃ q : ℝ, a6 i = (q : EReal)) := by
  have e := congrFun h (fun a => a.elim0)
  dsimp only [fn, fn_part1] at e
  simp only [Idealize.ShloMosaic.andi, IntOp.andi_eq_one] at e
  obtain ⟨⟨⟨⟨⟨⟨e0, e1⟩, e2⟩, e3⟩, e4⟩, e5⟩, e6⟩ := e
  exact ⟨all_real a0 _ (fun _ => rfl) _ _ _ _ e0, all_real a1 _ (fun _ => rfl) _ _ _ _ e1,
    all_real a2 _ (fun _ => rfl) _ _ _ _ e2, all_real a3 _ (fun _ => rfl) _ _ _ _ e3,
    all_real a4 _ (fun _ => rfl) _ _ _ _ e4, all_real a5 _ (fun _ => rfl) _ _ _ _ e5,
    all_real a6 _ (fun _ => rfl) _ _ _ _ e6⟩

end Cert.Finite

end
-- ==== Proof.RefScatter.lean ====
/-
  The reference's scatter-sum read at an index: with one start-index component per row (taken signed from the
  index array's only column), window axis 1 of the updates landing on axis 1 of the table and axis 0 inserted,
  element (c, j) of the result is the table's element plus the sum, over the rows r whose index word reads c,
  of the update's element (r, j).
-/
import proofs.«118881_j33947421507802_2_alg».proof.Proof.Gen.ReferenceIdeal.Read

noncomputable section

open scoped BigOperators

namespace Cert.RefBridge

open Cert.ReferenceIdeal Cert.ReferenceIdeal.Gen Idealize.ShloMosaic Idealize.ShloMosaic.ValueIdx

/-- The scatter's dimension numbers. -/
abbrev dS : ScatterDims S1024x128 S500000x1 S500000x128 := scatter_S1024x128_S500000x1_S500000x128_1_0_0_1

theorem dS_siIdx (a : Fin 500000) (b : Fin 128) (c : Fin dS.scatterDimsToOperandDims.length) :
    dS.siIdx (ix2 a b) c = ix2 a (0 : Fin 1) := by
  funext e
  refine Fin.ext ?_
  match e with
  | ⟨0, _⟩ => rfl
  | ⟨1, _⟩ =>
    have : c.val < 1 := c.isLt
    show c.val = 0
    omega

theorem dS_start0 (a : Fin 500000) (b : Fin 128) (idx : IVec S500000x1 32) :
    dS.start (ix2 a b) idx 0 = (idx (ix2 a (0 : Fin 1))).toInt := by
  unfold ScatterDims.start
  rw [dif_pos (show (0 : Fin S1024x128.rank) ∈ dS.scatterDimsToOperandDims by decide), dS_siIdx]

theorem dS_start1 (a : Fin 500000) (b : Fin 128) (idx : IVec S500000x1 32) :
    dS.start (ix2 a b) idx 1 = 0 := by
  unfold ScatterDims.start
  rw [dif_neg (show ¬(1 : Fin S1024x128.rank) ∈ dS.scatterDimsToOperandDims by decide)]

theorem dS_window0 (a : Fin 500000) (b : Fin 128) : dS.window (ix2 a b) 0 = 0 := by
  unfold ScatterDims.window
  rw [dif_neg (show ¬(0 : Fin S1024x128.rank) ∈ dS.sKept by decide)]

theorem dS_window1 (a : Fin 500000) (b : Fin 128) : dS.window (ix2 a b) 1 = b.val := by
  unfold ScatterDims.window
  rw [dif_pos (show (1 : Fin S1024x128.rank) ∈ dS.sKept by decide)]
  rfl

/-- Update element (a, b) lands on table element (c, j) exactly when row a's index word reads c and b = j. -/
theorem dS_resultIdx (a : Fin 500000) (b : Fin 128) (idx : IVec S500000x1 32) (c : Fin 1024) (j : Fin 128) :
    dS.resultIdx? (ix2 a b) idx = some (ix2 c j) ↔ (idx (ix2 a (0 : Fin 1))).toInt = (c.val : ℤ) ∧ b = j := by
  have hs0 := dS_start0 a b idx
  have hs1 := dS_start1 a b idx
  have hw0 := dS_window0 a b
  have hw1 := dS_window1 a b
  have hc := c.isLt
  have hj := j.isLt
  have hb := b.isLt
  unfold ScatterDims.resultIdx?
  constructor
  · intro h
    split at h
    · rename_i hh
      have e := Option.some.inj h
      have e0 : ((dS.start (ix2 a b) idx 0 + dS.window (ix2 a b) 0).toNat) = c.val := congrArg (fun f => (f 0).val) e
      have e1 : ((dS.start (ix2 a b) idx 1 + dS.window (ix2 a b) 1).toNat) = j.val := congrArg (fun f => (f 1).val) e
      have hh0 := hh 0
      rw [hs0, hw0] at e0 hh0
      rw [hs1, hw1] at e1
      exact ⟨by omega, Fin.ext (by omega)⟩
    · cases h
  · rintro ⟨h0, rfl⟩
    split
    · congr 1
      funext e
      refine Fin.ext ?_
      match e with
      | ⟨0, _⟩ =>
        show (dS.start (ix2 a b) idx 0 + dS.window (ix2 a b) 0).toNat = c.val
        rw [hs0, hw0]; omega
      | ⟨1, _⟩ =>
        show (dS.start (ix2 a b) idx 1 + dS.window (ix2 a b) 1).toNat = b.val
        rw [hs1, hw1]; omega
    · rename_i hh
      exfalso
      apply hh
      intro e
      match e with
      | ⟨0, _⟩ =>
        show 0 ≤ dS.start (ix2 a b) idx 0 + dS.window (ix2 a b) 0 ∧ dS.start (ix2 a b) idx 0 + dS.window (ix2 a b) 0 < (1024 : ℕ)
        rw [hs0, hw0]; omega
      | ⟨1, _⟩ =>
        show 0 ≤ dS.start (ix2 a b) idx 1 + dS.window (ix2 a b) 1 ∧ dS.start (ix2 a b) idx 1 + dS.window (ix2 a b) 1 < (128 : ℕ)
        rw [hs1, hw1]; omega

/-- The exact scatter-sum read at (c, j): the table's element plus the sum of the update's elements (r, j) over the
    rows r whose index word, read signed, is c. -/
theorem idealScatterAdd_apply (x : S1024x128.Idx → EReal) (idx : IVec S500000x1 32) (upd : S500000x128.Idx → EReal)
    (c : Fin 1024) (j : Fin 128) :
    Ideal.hostScatterAdd dS x idx upd (ix2 c j)
      = x (ix2 c j) + ∑ r ∈ Finset.univ.filter (fun r : Fin 500000 => (idx (ix2 r (0 : Fin 1))).toInt = (c.val : ℤ)),
          upd (ix2 r j) := by
  unfold Ideal.hostScatterAdd
  refine congrArg (fun t => x (ix2 c j) + t) ?_
  rw [Finset.sum_filter, sum_idx2, Finset.sum_filter]
  refine Finset.sum_congr rfl fun a _ => ?_
  by_cases hq : (idx (ix2 a (0 : Fin 1))).toInt = (c.val : ℤ)
  · rw [if_pos hq, Finset.sum_eq_single j]
    · rw [if_pos ((dS_resultIdx a j idx c j).2 ⟨hq, rfl⟩)]
    · intro b _ hb
      rw [if_neg (fun h => hb ((dS_resultIdx a b idx c j).1 h).2)]
    · intro h
      exact absurd (Finset.mem_univ j) h
  · rw [if_neg hq]
    refine Finset.sum_eq_zero fun b _ => ?_
    rw [if_neg (fun h => hq ((dS_resultIdx a b idx c j).1 h).1)]

/-- THE SCATTER-SUM OF THE PROGRAM READ AT (c, j). -/
theorem scatterAdd_apply (x : S1024x128.Idx → EReal) (idx : IVec S500000x1 32) (upd : S500000x128.Idx → EReal)
    (c : Fin 1024) (j : Fin 128) :
    Host.scatterAdd (F := Ideal) (φ := .f32) dS x idx upd (ix2 c j)
      = x (ix2 c j) + ∑ r ∈ Finset.univ.filter (fun r : Fin 500000 => (idx (ix2 r (0 : Fin 1))).toInt = (c.val : ℤ)),
          upd (ix2 r j) :=
  idealScatterAdd_apply x idx upd c j

end Cert.RefBridge

end
-- ==== Proof.RefGather.lean ====
/-
  The reference's gather read at an index: one start-index component per row (taken signed from the index array's
  only column and clamped to the table's rows), axis 0 of the table collapsed, axis 1 the offset axis: element (r, j)
  of the result is the table's element (clamped start of row r, j).
-/
import proofs.«118881_j33947421507802_2_alg».proof.Proof.Gen.ReferenceIdeal.Read

noncomputable section

namespace Cert.RefBridge

open Cert.ReferenceIdeal Cert.ReferenceIdeal.Gen Idealize.ShloMosaic Idealize.ShloMosaic.ValueIdx

/-- The gather's dimension numbers. -/
abbrev dG : GatherDims S1024x128 S500000x1 S500000x128 := gather_S1024x128_S500000x1_S500000x128_1_0_n_n_0_1_1128

theorem dG_siIdx (r : Fin 500000) (j : Fin 128) (c : Fin dG.startIndexMap.length) :
    dG.siIdx (ix2 r j) c = ix2 r (0 : Fin 1) := by
  funext e
  refine Fin.ext ?_
  match e with
  | ⟨0, _⟩ => rfl
  | ⟨1, _⟩ =>
    have : c.val < 1 := c.isLt
    show c.val = 0
    omega

/-- Element (r, j) of the gather: the table at (row r's start index, read signed and clamped to 0..1023; j). -/
theorem gather_apply {α : Type} (x : S1024x128.Idx → α) (idx : IVec S500000x1 32) (r : Fin 500000) (j : Fin 128) :
    Host.gather dG x idx (ix2 r j)
      = x (ix2 (⟨min (idx (ix2 r (0 : Fin 1))).toInt.toNat 1023, by omega⟩ : Fin 1024) j) := by
  unfold Host.gather
  congr 1
  funext a
  refine Fin.ext ?_
  match a with
  | ⟨0, _⟩ =>
    show dG.start (ix2 r j) idx 0 + dG.batchCoord (ix2 r j) 0 + dG.offCoord (ix2 r j) 0
      = min (idx (ix2 r (0 : Fin 1))).toInt.toNat 1023
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin S1024x128.rank) ∈ dG.startIndexMap by decide), dG_siIdx]
    rfl
  | ⟨1, _⟩ =>
    show dG.start (ix2 r j) idx 1 + dG.batchCoord (ix2 r j) 1 + dG.offCoord (ix2 r j) 1 = j.val
    rw [GatherDims.batchCoord_eq_zero _ _ _ List.not_mem_nil]
    unfold GatherDims.start GatherDims.offCoord
    rw [dif_neg (show ¬(1 : Fin S1024x128.rank) ∈ dG.startIndexMap by decide),
      dif_pos (show (1 : Fin S1024x128.rank) ∈ dG.sKept by decide)]
    simp only [Nat.zero_add, Nat.add_zero]
    rfl

/-- A 32-bit word below 1024 read signed is its natural number. -/
theorem toInt_of_lt (w : BitVec 32) (h : w.toNat < 1024) : w.toInt = (w.toNat : ℤ) := by
  rw [BitVec.toInt_eq_toNat_cond, if_pos (by omega)]

/-- Element (r, j) of the gather when row r's start index is a word below 1024: no clamping. -/
theorem gather_apply_word {α : Type} (x : S1024x128.Idx → α) (idx : IVec S500000x1 32) (r : Fin 500000) (j : Fin 128)
    (w : BitVec 32) (hw : idx (ix2 r (0 : Fin 1)) = w) (h : w.toNat < 1024) :
    Host.gather dG x idx (ix2 r j) = x (ix2 (⟨w.toNat, h⟩ : Fin 1024) j) := by
  subst hw
  rw [gather_apply]
  have e : (⟨min (idx (ix2 r (0 : Fin 1))).toInt.toNat 1023, by omega⟩ : Fin 1024)
      = ⟨(idx (ix2 r (0 : Fin 1))).toNat, h⟩ := by
    refine Fin.ext ?_
    show min (idx (ix2 r (0 : Fin 1))).toInt.toNat 1023 = (idx (ix2 r (0 : Fin 1))).toNat
    rw [toInt_of_lt _ h, Int.toNat_natCast]
    omega
  rw [e]

end Cert.RefBridge

end
-- ==== Proof.RefBridge.lean ====
/-
  The reference program is the specification: its two results, read index by index through its operations, are the
  new cell state and every row's cell total of the new hidden states.
-/
import proofs.«118881_j33947421507802_2_alg».proof.Proof.Gen.ReferenceIdeal.Read
import proofs.«118881_j33947421507802_2_alg».proof.Proof.Spec
import proofs.«118881_j33947421507802_2_alg».proof.Proof.RefScatter
import proofs.«118881_j33947421507802_2_alg».proof.Proof.RefGather

noncomputable section

open scoped BigOperators

namespace Cert.RefBridge

open Cert.ReferenceIdeal Cert.ReferenceIdeal.Read Idealize.ShloMosaic Idealize.ShloMosaic.ValueIdx Cert.Spec

variable (x0 : SNx3.Idx → EReal) (x1 x2 : SNxH.Idx → EReal) (x3 : SGx3.Idx → EReal) (x4 : SGxH.Idx → EReal)
  (x5 x6 : SG.Idx → EReal)

/-- The sum of the two products and the two biases, at row r and column n, is the gate pre-activation. -/
theorem ref_gate (r : Fin 500000) (n : Fin 512) :
    val_main_v10 (F := Ideal) x0 x1 x3 x4 x5 x6 (ix2 r n) = gate x0 x1 x3 x4 x5 x6 r n := by
  have hL1 : ∀ k : Fin 3, lidx_main_v1 (ix2 r n) k = ix2 r k := fun k =>
    funext fun a => Fin.ext (by match a with | ⟨0, _⟩ => rfl | ⟨1, _⟩ => rfl)
  have hR1 : ∀ k : Fin 3, idx_main_v0 (ridx_main_v1 (ix2 r n) k) = ix2 n k := fun k =>
    funext fun a => Fin.ext (by match a with | ⟨0, _⟩ => rfl | ⟨1, _⟩ => rfl)
  have hL6 : ∀ k : Fin 128, lidx_main_v6 (ix2 r n) k = ix2 r k := fun k =>
    funext fun a => Fin.ext (by match a with | ⟨0, _⟩ => rfl | ⟨1, _⟩ => rfl)
  have hR6 : ∀ k : Fin 128, idx_main_v5 (ridx_main_v6 (ix2 r n) k) = ix2 n k := fun k =>
    funext fun a => Fin.ext (by match a with | ⟨0, _⟩ => rfl | ⟨1, _⟩ => rfl)
  have h5 : idx_main_v2 (idx_main_v3 (ix2 r n)) = ix1 n :=
    funext fun a => Fin.ext (by match a with | ⟨0, _⟩ => rfl)
  have h6 : idx_main_v8 (idx_main_v9 (ix2 r n)) = ix1 n :=
    funext fun a => Fin.ext (by match a with | ⟨0, _⟩ => rfl)
  rw [val_main_v10_apply, val_main_v7_apply, val_main_v4_apply, val_main_v1_apply, val_main_v6_apply,
    val_main_v3_apply, val_main_v2_apply, val_main_v9_apply, val_main_v8_apply]
  simp only [val_main_v0_apply, val_main_v5_apply, hL1, hR1, hL6, hR6, h5, h6, Ideal.addf_def]
  rfl

/-- The four column slices read the gate groups. -/
theorem idx_slice0 (r : Fin 500000) (j : Fin 128) : idx_main_v11 (ix2 r j) = ix2 r (gcol 0 j) :=
  funext fun a => Fin.ext (by
    match a with
    | ⟨0, _⟩ => rfl
    | ⟨1, _⟩ => show j.val = 128 * 0 + j.val; omega)
theorem idx_slice1 (r : Fin 500000) (j : Fin 128) : idx_main_v12 (ix2 r j) = ix2 r (gcol 1 j) :=
  funext fun a => Fin.ext (by
    match a with
    | ⟨0, _⟩ => rfl
    | ⟨1, _⟩ => show 128 + j.val = 128 * 1 + j.val; omega)
theorem idx_slice2 (r : Fin 500000) (j : Fin 128) : idx_main_v13 (ix2 r j) = ix2 r (gcol 2 j) :=
  funext fun a => Fin.ext (by
    match a with
    | ⟨0, _⟩ => rfl
    | ⟨1, _⟩ => show 256 + j.val = 128 * 2 + j.val; omega)
theorem idx_slice3 (r : Fin 500000) (j : Fin 128) : idx_main_v14 (ix2 r j) = ix2 r (gcol 3 j) :=
  funext fun a => Fin.ext (by
    match a with
    | ⟨0, _⟩ => rfl
    | ⟨1, _⟩ => show 384 + j.val = 128 * 3 + j.val; omega)

/-- The forget gate's logistic. -/
theorem ref_f (r : Fin 500000) (j : Fin 128) :
    val_main_v20 (F := Ideal) x0 x1 x3 x4 x5 x6 (ix2 r j) = sig (gate x0 x1 x3 x4 x5 x6 r (gcol 1 j)) := by
  rw [val_main_v20_apply, val_main_v19_apply, val_main_cst_0_apply, val_main_v18_apply, val_main_v17_apply,
    val_main_cst_apply, val_main_v16_apply, val_main_v15_apply, val_main_v12_apply, idx_slice1, ref_gate]
  rfl

/-- The input gate's logistic. -/
theorem ref_i (r : Fin 500000) (j : Fin 128) :
    val_main_v27 (F := Ideal) x0 x1 x3 x4 x5 x6 (ix2 r j) = sig (gate x0 x1 x3 x4 x5 x6 r (gcol 0 j)) := by
  rw [val_main_v27_apply, val_main_v26_apply, val_main_cst_2_apply, val_main_v25_apply, val_main_v24_apply,
    val_main_cst_1_apply, val_main_v23_apply, val_main_v22_apply, val_main_v11_apply, idx_slice0, ref_gate]
  rfl

/-- The candidate's hyperbolic tangent. -/
theorem ref_g (r : Fin 500000) (j : Fin 128) :
    val_main_v28 (F := Ideal) x0 x1 x3 x4 x5 x6 (ix2 r j) = Ideal.tanh (gate x0 x1 x3 x4 x5 x6 r (gcol 2 j)) := by
  rw [val_main_v28_apply, val_main_v13_apply, idx_slice2, ref_gate]
  rfl

/-- The output gate's logistic. -/
theorem ref_o (r : Fin 500000) (j : Fin 128) :
    val_main_v36 (F := Ideal) x0 x1 x3 x4 x5 x6 (ix2 r j) = sig (gate x0 x1 x3 x4 x5 x6 r (gcol 3 j)) := by
  rw [val_main_v36_apply, val_main_v35_apply, val_main_cst_4_apply, val_main_v34_apply, val_main_v33_apply,
    val_main_cst_3_apply, val_main_v32_apply, val_main_v31_apply, val_main_v14_apply, idx_slice3, ref_gate]
  rfl

/-- The new cell state at (r, j). -/
theorem ref_cnew (r : Fin 500000) (j : Fin 128) :
    val_main_v30 (F := Ideal) x0 x1 x2 x3 x4 x5 x6 (ix2 r j) = cnew x0 x1 x2 x3 x4 x5 x6 r j := by
  rw [val_main_v30_apply, val_main_v21_apply, val_main_v29_apply, ref_f, ref_i, ref_g]
  rfl

/-- The new hidden state at (r, j). -/
theorem ref_hnew (r : Fin 500000) (j : Fin 128) :
    val_main_v38 (F := Ideal) x0 x1 x2 x3 x4 x5 x6 (ix2 r j) = hnew x0 x1 x2 x3 x4 x5 x6 r j := by
  rw [val_main_v38_apply, val_main_v37_apply, ref_o, ref_cnew]
  rfl

/-- The bucket of the first coordinate of row r. -/
theorem ref_bucket0 (r : Fin 500000) :
    val_main_v51 (F := Ideal) x0 (ix1 r) = bucket (x0 (ix2 r (0 : Fin 3))) := by
  have h : idx_main_v39 (idx_main_v40 (ix1 r)) = ix2 r (0 : Fin 3) :=
    funext fun a => Fin.ext (by
      match a with
      | ⟨0, _⟩ => exact Nat.div_one _
      | ⟨1, _⟩ => rfl)
  rw [val_main_v51_apply, val_main_call2_v4_apply, val_main_call2_v3_apply, val_main_c_11_apply,
    val_main_call2_v2_apply, val_main_call2_v1_apply, val_main_call2_v0_apply, val_main_c_apply,
    val_main_v50_apply, val_main_v49_apply, val_main_v48_apply, val_main_v47_apply, val_main_cst_10_apply,
    val_main_v46_apply, val_main_v45_apply, val_main_cst_9_apply, val_main_v41_apply, val_main_call0_v4_apply,
    val_main_call0_v3_apply, val_main_cst_6_apply, val_main_call0_v2_apply, val_main_call0_v1_apply,
    val_main_call0_v0_apply, val_main_cst_5_apply, val_main_v40_apply, val_main_v39_apply, h]
  rfl

/-- The bucket of the second coordinate of row r. -/
theorem ref_bucket1 (r : Fin 500000) :
    val_main_v58 (F := Ideal) x0 (ix1 r) = bucket (x0 (ix2 r (1 : Fin 3))) := by
  have h : idx_main_v42 (idx_main_v43 (ix1 r)) = ix2 r (1 : Fin 3) :=
    funext fun a => Fin.ext (by
      match a with
      | ⟨0, _⟩ => exact Nat.div_one _
      | ⟨1, _⟩ => rfl)
  rw [val_main_v58_apply, val_main_call3_v4_apply, val_main_call3_v3_apply, val_main_c_15_apply,
    val_main_call3_v2_apply, val_main_call3_v1_apply, val_main_call3_v0_apply, val_main_c_14_apply,
    val_main_v57_apply, val_main_v56_apply, val_main_v55_apply, val_main_v54_apply, val_main_cst_13_apply,
    val_main_v53_apply, val_main_v52_apply, val_main_cst_12_apply, val_main_v44_apply, val_main_call1_v4_apply,
    val_main_call1_v3_apply, val_main_cst_8_apply, val_main_call1_v2_apply, val_main_call1_v1_apply,
    val_main_call1_v0_apply, val_main_cst_7_apply, val_main_v43_apply, val_main_v42_apply, h]
  rfl

/-- The flat cell number of row r, as the word the reference computes. -/
theorem ref_word (r : Fin 500000) : val_main_v61 (F := Ideal) x0 (ix1 r) = cellWord x0 r := by
  rw [val_main_v61_apply, val_main_v60_apply, val_main_v59_apply, val_main_c_16_apply, ref_bucket0, ref_bucket1]
  rfl

/-- The scatter's index column holds the cell words. -/
theorem ref_idx63 (r : Fin 500000) : val_main_v63 (F := Ideal) x0 (ix2 r (0 : Fin 1)) = cellWord x0 r := by
  have h : idx_main_v63 (ix2 r (0 : Fin 1)) = ix1 r :=
    funext fun a => Fin.ext (by match a with | ⟨0, _⟩ => rfl)
  rw [val_main_v63_apply, h, ref_word]

/-- A word below 1024 is not negative: the select on "word < 0" keeps it. -/
theorem select_of_lt {α : Type} (w : BitVec 32) (h : w.toNat < 1024) (a b : α) :
    Scalar.select (IntOp.cmpi .slt w 0#32) a b = b := by
  have hs : w.slt 0#32 = false := by
    have h0 : (0#32 : BitVec 32).toInt = 0 := by decide
    rw [BitVec.slt, toInt_of_lt w h, h0]
    exact decide_eq_false (by omega)
  have hz : IntOp.cmpi .slt w 0#32 = 0#1 := by
    unfold IntOp.cmpi
    simp only [hs]
    rfl
  rw [hz, select_zero]

/-- The gather's index column holds the cell words too (none is negative, so none is shifted by 1024). -/
theorem ref_idx70 (r : Fin 500000) : val_main_v70 (F := Ideal) x0 (ix2 r (0 : Fin 1)) = cellWord x0 r := by
  have h : idx_main_v70 (ix2 r (0 : Fin 1)) = ix1 r :=
    funext fun a => Fin.ext (by match a with | ⟨0, _⟩ => rfl)
  rw [val_main_v70_apply, h, val_main_v69_apply, val_main_v66_apply, ref_word]
  exact select_of_lt _ (cellWord_lt x0 r) _ _

/-- The scatter-sum at (c, j) is the total of the new hidden states over the rows of cell c. -/
theorem ref_pooled (c : Fin 1024) (j : Fin 128) :
    val_main_v64 (F := Ideal) x0 x1 x2 x3 x4 x5 x6 (ix2 c j) = pooled x0 x1 x2 x3 x4 x5 x6 c j := by
  have hf : (Finset.univ.filter fun r : Fin 500000 =>
        (val_main_v63 (F := Ideal) x0 (ix2 r (0 : Fin 1))).toInt = (c.val : ℤ))
      = Finset.univ.filter (fun r : Fin 500000 => cell x0 r = c) := by
    refine Finset.filter_congr fun r _ => ?_
    rw [ref_idx63, toInt_of_lt _ (cellWord_lt x0 r)]
    constructor
    · intro h
      refine Fin.ext ?_
      show (cellWord x0 r).toNat = c.val
      omega
    · intro h
      rw [← h]
      rfl
  have hz : val_main_v62 (F := Ideal) (ix2 c j) = zero := by
    rw [val_main_v62_apply, val_main_cst_17_apply]
    rfl
  unfold val_main_v64
  refine (scatterAdd_apply _ _ _ c j).trans ?_
  unfold pooled
  rw [hz, hf]
  refine congrArg (fun t => zero + t) ?_
  exact Finset.sum_congr rfl fun r _ => ref_hnew x0 x1 x2 x3 x4 x5 x6 r j

/-- FIRST RESULT: the reference's gathered cell totals are the specification's. -/
theorem ref_social : val_main_v71 (F := Ideal) x0 x1 x2 x3 x4 x5 x6 = social x0 x1 x2 x3 x4 x5 x6 := by
  funext i
  obtain ⟨r, j, rfl⟩ : ∃ (r : Fin 500000) (j : Fin 128), i = ix2 r j := ⟨i 0, i 1, eq_ix2 i⟩
  unfold val_main_v71
  refine (gather_apply_word _ _ r j (cellWord x0 r) (ref_idx70 x0 r) (cellWord_lt x0 r)).trans ?_
  exact ref_pooled x0 x1 x2 x3 x4 x5 x6 (cell x0 r) j

/-- SECOND RESULT: the reference's new cell state is the specification's. -/
theorem ref_cstate : val_main_v30 (F := Ideal) x0 x1 x2 x3 x4 x5 x6 = cstate x0 x1 x2 x3 x4 x5 x6 := by
  funext i
  obtain ⟨r, j, rfl⟩ : ∃ (r : Fin 500000) (j : Fin 128), i = ix2 r j := ⟨i 0, i 1, eq_ix2 i⟩
  exact ref_cnew x0 x1 x2 x3 x4 x5 x6 r j

end Cert.RefBridge

end
-- ==== Proof.lean ====
/-
  The certificate's five claims.

  Both idealized programs compute, over the extended reals, one LSTM cell step per row followed by a pooling of the new
  hidden state over the 32 x 32 grid cell each row's first two coordinates fall in (Spec.lean). The reference does it
  with a scatter-add and a gather; the kernel in two grid regions: the first computes the cell step block by block,
  writes the new cell state and each row's cell number, and accumulates per core a [1024,128] table by multiplying the
  block's one-hot cell matrix with the new hidden state; the host adds the two cores' tables; the second region
  multiplies each row's one-hot row with the pooled table. The kernel splits the recurrent weights, the hidden state, the
  new hidden state and the pooled table into a part representable in a narrower float format plus a remainder; over the
  extended reals the first part is the value itself and the remainder is the value minus itself, which is zero because
  these values are finite (the inputs by the precondition; the new hidden state as a product of a logistic and a
  hyperbolic tangent; the table as a finite sum of such). With the remainders gone the two programs differ only in the
  order and grouping of sums, and addition of extended reals is commutative and associative.

  The frames of the two kernel programs are the generated ones; the reference's frame is its generated run.
-/
import proofs.«118881_j33947421507802_2_alg».proof.Defs
import proofs.«118881_j33947421507802_2_alg».proof.Proof.Gen.Kernel
import proofs.«118881_j33947421507802_2_alg».proof.Proof.Gen.Kernel.Skeleton
import proofs.«118881_j33947421507802_2_alg».proof.Proof.Gen.Kernel.Launch
import proofs.«118881_j33947421507802_2_alg».proof.Proof.Gen.Kernel.Points
import proofs.«118881_j33947421507802_2_alg».proof.Proof.Gen.Kernel.Frame
import proofs.«118881_j33947421507802_2_alg».proof.Proof.Gen.KernelIdeal
import proofs.«118881_j33947421507802_2_alg».proof.Proof.Gen.KernelIdeal.Skeleton
import proofs.«118881_j33947421507802_2_alg».proof.Proof.Gen.KernelIdeal.Launch
import proofs.«118881_j33947421507802_2_alg».proof.Proof.Gen.KernelIdeal.Points
import proofs.«118881_j33947421507802_2_alg».proof.Proof.Gen.KernelIdeal.Frame
import proofs.«118881_j33947421507802_2_alg».proof.Proof.Gen.ReferenceIdeal
import proofs.«118881_j33947421507802_2_alg».proof.Proof.Gen.Pre_finite_inputs
import proofs.«118881_j33947421507802_2_alg».proof.Proof.Gen.ReferenceIdeal.Run
import proofs.«118881_j33947421507802_2_alg».proof.Proof.Gen.ReferenceIdeal.Read
import proofs.«118881_j33947421507802_2_alg».proof.Proof.Spec
import proofs.«118881_j33947421507802_2_alg».proof.Proof.KernelRun
import proofs.«118881_j33947421507802_2_alg».proof.Proof.KernelFold
import proofs.«118881_j33947421507802_2_alg».proof.Proof.KernelSocial
import proofs.«118881_j33947421507802_2_alg».proof.Proof.KernelRegion0
import proofs.«118881_j33947421507802_2_alg».proof.Proof.Finite
import proofs.«118881_j33947421507802_2_alg».proof.Proof.RefBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The two rewrites of the idealization: a value passed through the narrower float format and back is itself over
    the extended reals, and is the rounding at the word level. -/
theorem preserves : Cert.preserves_Kernel_KernelIdeal :=
  ⟨IdealRules.truncf_extf.statement Cert.KernelIdeal.S2000x128 .f32 .bf16, IdealRules.truncf_extf.statement Cert.KernelIdeal.S2000x128 .f32 .bf16⟩

/-- Under the precondition the kernel's first result array is the specification's first result. -/
theorem kernel_social (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = (fun _ => 1#1)) :
    (Cert.KernelIdeal.Gen.dat1 (Cert.KernelIdeal.Gen.V3 m ρ) c).arrAt 3 Cert.KernelIdeal.cfg1.N = Cert.Spec.social (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  obtain ⟨-, h1, -, -, h4, -, -⟩ := Cert.Finite.finite_of_pre _ _ _ _ _ _ _ hpre
  exact Cert.KernelIdeal.Social.social_eq m ρ c (Cert.KernelIdeal.Reg0.ids m ρ c) (Cert.KernelIdeal.Reg0.table m ρ c h1 h4)

/-- Under the precondition the kernel's second result array is the specification's second result. -/
theorem kernel_cstate (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = (fun _ => 1#1)) :
    (Cert.KernelIdeal.Gen.dat0 (Cert.KernelIdeal.Gen.V1 m ρ) c).arrAt 8 Cert.KernelIdeal.cfg0.N = Cert.Spec.cstate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
  obtain ⟨-, h1, -, -, h4, -, -⟩ := Cert.Finite.finite_of_pre _ _ _ _ _ _ _ hpre
  exact Cert.KernelIdeal.Reg0.cstate_eq m ρ c h1 h4

/-- Both idealized programs end with the pooled hidden state of every row's cell and the new cell state. -/
theorem algebraic  : Cert.algebraic_KernelIdeal_ReferenceIdeal := by
  intro m ρ m' ρ' hpre hagree
  refine ⟨fun c => Cert.Spec.social (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.Spec.cstate (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.KRun.run_out (F := Ideal) m ρ)
    obtain ⟨h0, h1, hargs⟩ := h c
    exact ⟨h0.trans ((Cert.KernelIdeal.Fold.res_social m ρ c).trans (kernel_social m ρ c (hpre c))),
      h1.trans ((Cert.KernelIdeal.Fold.res_cstate m ρ c).trans (kernel_cstate m ρ c (hpre c))), hargs⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6⟩ := hagree c
    refine ⟨h0.trans ?_, h1.trans ?_, hargs⟩
    · rw [Cert.ReferenceIdeal.Read.val_main_v71_eq, e0, e1, e2, e3, e4, e5, e6]
      exact Cert.RefBridge.ref_social _ _ _ _ _ _ _
    · rw [Cert.ReferenceIdeal.Read.val_main_v30_eq, e0, e1, e2, e3, e4, e5, e6]
      exact Cert.RefBridge.ref_cstate _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
